-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x800000 : Shape := ⟨2, ![2, 800000]⟩
abbrev S800000x8 : Shape := ⟨2, ![800000, 8]⟩
abbrev S50000 : Shape := ⟨1, ![50000]⟩
abbrev S40x300 : Shape := ⟨2, ![40, 300]⟩
abbrev S300 : Shape := ⟨1, ![300]⟩
abbrev S300x300 : Shape := ⟨2, ![300, 300]⟩
abbrev S300x128 : Shape := ⟨2, ![300, 128]⟩
abbrev S128 : Shape := ⟨1, ![128]⟩
abbrev S128x300 : Shape := ⟨2, ![128, 300]⟩
abbrev S300x8 : Shape := ⟨2, ![300, 8]⟩
abbrev S8 : Shape := ⟨1, ![8]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S800000x8 : S_.BroadcastsInDim S800000x8 (![] : Fin 0 → Fin S800000x8.rank)
  reducesTo_S800000x8_S_d0_1 : S800000x8.ReducesTo [0, 1] S_
  bcast_S_S40x300 : S_.BroadcastsInDim S40x300 (![] : Fin 0 → Fin S40x300.rank)
  reducesTo_S40x300_S_d0_1 : S40x300.ReducesTo [0, 1] S_
  bcast_S_S300 : S_.BroadcastsInDim S300 (![] : Fin 0 → Fin S300.rank)
  reducesTo_S300_S_d0 : S300.ReducesTo [0] S_
  bcast_S_S300x300 : S_.BroadcastsInDim S300x300 (![] : Fin 0 → Fin S300x300.rank)
  reducesTo_S300x300_S_d0_1 : S300x300.ReducesTo [0, 1] S_
  bcast_S_S300x128 : S_.BroadcastsInDim S300x128 (![] : Fin 0 → Fin S300x128.rank)
  reducesTo_S300x128_S_d0_1 : S300x128.ReducesTo [0, 1] S_
  bcast_S_S128 : S_.BroadcastsInDim S128 (![] : Fin 0 → Fin S128.rank)
  reducesTo_S128_S_d0 : S128.ReducesTo [0] S_
  bcast_S_S128x300 : S_.BroadcastsInDim S128x300 (![] : Fin 0 → Fin S128x300.rank)
  reducesTo_S128x300_S_d0_1 : S128x300.ReducesTo [0, 1] S_
  bcast_S_S300x8 : S_.BroadcastsInDim S300x8 (![] : Fin 0 → Fin S300x8.rank)
  reducesTo_S300x8_S_d0_1 : S300x8.ReducesTo [0, 1] S_
  bcast_S_S8 : S_.BroadcastsInDim S8 (![] : Fin 0 → Fin S8.rank)
  reducesTo_S8_S_d0 : S8.ReducesTo [0] S_

variable [Facts]

def fn_part5 {F : FTy → Type} [FloatOps F] (main_arg20 : FVec F S300x8 .f32) (main_arg21 : FVec F S8 .f32) (main_v83 : IVec S_ 1) (main_v84 : FVec F S300 .f32) (main_cst_32 : FVec F S_ .f32) : IVec S_ 1 :=
  let main_v85 : FVec F S300 .f32 := broadcastInDim S300 ![] bcast_S_S300 main_cst_32
  let main_v86 : IVec S300 1 := cmpf .olt main_v84 main_v85
  let main_c_33 : IVec S_ 1 := constantI S_ 1 1#1
  let main_v87 : IVec S_ 1 := (fun x v => Host.reduce IntOp.andi x v reducesTo_S300_S_d0 h_S_) main_v86 main_c_33
  let main_v88 : IVec S_ 1 := andi main_v83 main_v87
  let main_v89 : FVec F S300x8 .f32 := Host.absf main_arg20
  let main_cst_34 : FVec F S_ .f32 := constant S_ .f32 0x7F800000#32
  let main_v90 : FVec F S300x8 .f32 := broadcastInDim S300x8 ![] bcast_S_S300x8 main_cst_34
  let main_v91 : IVec S300x8 1 := cmpf .olt main_v89 main_v90
  let main_c_35 : IVec S_ 1 := constantI S_ 1 1#1
  let main_v92 : IVec S_ 1 := (fun x v => Host.reduce IntOp.andi x v reducesTo_S300x8_S_d0_1 h_S_) main_v91 main_c_35
  let main_v93 : IVec S_ 1 := andi main_v88 main_v92
  let main_v94 : FVec F S8 .f32 := Host.absf main_arg21
  let main_cst_36 : FVec F S_ .f32 := constant S_ .f32 0x7F800000#32
  let main_v95 : FVec F S8 .f32 := broadcastInDim S8 ![] bcast_S_S8 main_cst_36
  let main_v96 : IVec S8 1 := cmpf .olt main_v94 main_v95
  let main_c_37 : IVec S_ 1 := constantI S_ 1 1#1
  let main_v97 : IVec S_ 1 := (fun x v => Host.reduce IntOp.andi x v reducesTo_S8_S_d0 h_S_) main_v96 main_c_37
  let main_v98 : IVec S_ 1 := andi main_v93 main_v97
  main_v98

def fn_part4 {F : FTy → Type} [FloatOps F] (main_arg16 : FVec F S300x300 .f32) (main_arg17 : FVec F S300 .f32) (main_arg18 : FVec F S300x300 .f32) (main_arg19 : FVec F S300 .f32) (main_arg20 : FVec F S300x8 .f32) (main_arg21 : FVec F S8 .f32) (main_v63 : IVec S_ 1) (main_v67 : IVec S_ 1) : IVec S_ 1 :=
  let main_v68 : IVec S_ 1 := andi main_v63 main_v67
  let main_v69 : FVec F S300x300 .f32 := Host.absf main_arg16
  let main_cst_26 : FVec F S_ .f32 := constant S_ .f32 0x7F800000#32
  let main_v70 : FVec F S300x300 .f32 := broadcastInDim S300x300 ![] bcast_S_S300x300 main_cst_26
  let main_v71 : IVec S300x300 1 := cmpf .olt main_v69 main_v70
  let main_c_27 : IVec S_ 1 := constantI S_ 1 1#1
  let main_v72 : IVec S_ 1 := (fun x v => Host.reduce IntOp.andi x v reducesTo_S300x300_S_d0_1 h_S_) main_v71 main_c_27
  let main_v73 : IVec S_ 1 := andi main_v68 main_v72
  let main_v74 : FVec F S300 .f32 := Host.absf main_arg17
  let main_cst_28 : FVec F S_ .f32 := constant S_ .f32 0x7F800000#32
  let main_v75 : FVec F S300 .f32 := broadcastInDim S300 ![] bcast_S_S300 main_cst_28
  let main_v76 : IVec S300 1 := cmpf .olt main_v74 main_v75
  let main_c_29 : IVec S_ 1 := constantI S_ 1 1#1
  let main_v77 : IVec S_ 1 := (fun x v => Host.reduce IntOp.andi x v reducesTo_S300_S_d0 h_S_) main_v76 main_c_29
  let main_v78 : IVec S_ 1 := andi main_v73 main_v77
  let main_v79 : FVec F S300x300 .f32 := Host.absf main_arg18
  let main_cst_30 : FVec F S_ .f32 := constant S_ .f32 0x7F800000#32
  let main_v80 : FVec F S300x300 .f32 := broadcastInDim S300x300 ![] bcast_S_S300x300 main_cst_30
  let main_v81 : IVec S300x300 1 := cmpf .olt main_v79 main_v80
  let main_c_31 : IVec S_ 1 := constantI S_ 1 1#1
  let main_v82 : IVec S_ 1 := (fun x v => Host.reduce IntOp.andi x v reducesTo_S300x300_S_d0_1 h_S_) main_v81 main_c_31
  let main_v83 : IVec S_ 1 := andi main_v78 main_v82
  let main_v84 : FVec F S300 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S300 .f32) (main_arg14 : FVec F S300x300 .f32) (main_arg15 : FVec F S300 .f32) (main_arg16 : FVec F S300x300 .f32) (main_arg17 : FVec F S300 .f32) (main_arg18 : FVec F S300x300 .f32) (main_arg19 : FVec F S300 .f32) (main_arg20 : FVec F S300x8 .f32) (main_arg21 : FVec F S8 .f32) (main_v48 : IVec S_ 1) (main_v49 : FVec F S128x300 .f32) (main_v50 : FVec F S128x300 .f32) : IVec S_ 1 :=
  let main_v51 : IVec S128x300 1 := cmpf .olt main_v49 main_v50
  let main_c_19 : IVec S_ 1 := constantI S_ 1 1#1
  let main_v52 : IVec S_ 1 := (fun x v => Host.reduce IntOp.andi x v reducesTo_S128x300_S_d0_1 h_S_) main_v51 main_c_19
  let main_v53 : IVec S_ 1 := andi main_v48 main_v52
  let main_v54 : FVec F S300 .f32 := Host.absf main_arg13
  let main_cst_20 : FVec F S_ .f32 := constant S_ .f32 0x7F800000#32
  let main_v55 : FVec F S300 .f32 := broadcastInDim S300 ![] bcast_S_S300 main_cst_20
  let main_v56 : IVec S300 1 := cmpf .olt main_v54 main_v55
  let main_c_21 : IVec S_ 1 := constantI S_ 1 1#1
  let main_v57 : IVec S_ 1 := (fun x v => Host.reduce IntOp.andi x v reducesTo_S300_S_d0 h_S_) main_v56 main_c_21
  let main_v58 : IVec S_ 1 := andi main_v53 main_v57
  let main_v59 : FVec F S300x300 .f32 := Host.absf main_arg14
  let main_cst_22 : FVec F S_ .f32 := constant S_ .f32 0x7F800000#32
  let main_v60 : FVec F S300x300 .f32 := broadcastInDim S300x300 ![] bcast_S_S300x300 main_cst_22
  let main_v61 : IVec S300x300 1 := cmpf .olt main_v59 main_v60
  let main_c_23 : IVec S_ 1 := constantI S_ 1 1#1
  let main_v62 : IVec S_ 1 := (fun x v => Host.reduce IntOp.andi x v reducesTo_S300x300_S_d0_1 h_S_) main_v61 main_c_23
  let main_v63 : IVec S_ 1 := andi main_v58 main_v62
  let main_v64 : FVec F S300 .f32 := Host.absf main_arg15
  let main_cst_24 : FVec F S_ .f32 := constant S_ .f32 0x7F800000#32
  let main_v65 : FVec F S300 .f32 := broadcastInDim S300 ![] bcast_S_S300 main_cst_24
  let main_v66 : IVec S300 1 := cmpf .olt main_v64 main_v65
  let main_c_25 : IVec S_ 1 := constantI S_ 1 1#1
  let main_v67 : IVec S_ 1 := (fun x v => Host.reduce IntOp.andi x v reducesTo_S300_S_d0 h_S_) main_v66 main_c_25
  fn_part4 (F := F) main_arg16 main_arg17 main_arg18 main_arg19 main_arg20 main_arg21 main_v63 main_v67

def fn_part2 {F : FTy → Type} [FloatOps F] (main_arg9 : FVec F S300 .f32) (main_arg10 : FVec F S300x128 .f32) (main_arg11 : FVec F S128 .f32) (main_arg12 : FVec F S128x300 .f32) (main_arg13 : FVec F S300 .f32) (main_arg14 : FVec F S300x300 .f32) (main_arg15 : FVec F S300 .f32) (main_arg16 : FVec F S300x300 .f32) (main_arg17 : FVec F S300 .f32) (main_arg18 : FVec F S300x300 .f32) (main_arg19 : FVec F S300 .f32) (main_arg20 : FVec F S300x8 .f32) (main_arg21 : FVec F S8 .f32) (main_v33 : IVec S_ 1) : IVec S_ 1 :=
  let main_v34 : FVec F S300 .f32 := Host.absf main_arg9
  let main_cst_12 : FVec F S_ .f32 := constant S_ .f32 0x7F800000#32
  let main_v35 : FVec F S300 .f32 := broadcastInDim S300 ![] bcast_S_S300 main_cst_12
  let main_v36 : IVec S300 1 := cmpf .olt main_v34 main_v35
  let main_c_13 : IVec S_ 1 := constantI S_ 1 1#1
  let main_v37 : IVec S_ 1 := (fun x v => Host.reduce IntOp.andi x v reducesTo_S300_S_d0 h_S_) main_v36 main_c_13
  let main_v38 : IVec S_ 1 := andi main_v33 main_v37
  let main_v39 : FVec F S300x128 .f32 := Host.absf main_arg10
  let main_cst_14 : FVec F S_ .f32 := constant S_ .f32 0x7F800000#32
  let main_v40 : FVec F S300x128 .f32 := broadcastInDim S300x128 ![] bcast_S_S300x128 main_cst_14
  let main_v41 : IVec S300x128 1 := cmpf .olt main_v39 main_v40
  let main_c_15 : IVec S_ 1 := constantI S_ 1 1#1
  let main_v42 : IVec S_ 1 := (fun x v => Host.reduce IntOp.andi x v reducesTo_S300x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x300 .f32 := Host.absf main_arg12
  let main_cst_18 : FVec F S_ .f32 := constant S_ .f32 0x7F800000#32
  let main_v50 : FVec F S128x300 .f32 := broadcastInDim S128x300 ![] bcast_S_S128x300 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S300x300 .f32) (main_arg7 : FVec F S300 .f32) (main_arg8 : FVec F S300x300 .f32) (main_arg9 : FVec F S300 .f32) (main_arg10 : FVec F S300x128 .f32) (main_arg11 : FVec F S128 .f32) (main_arg12 : FVec F S128x300 .f32) (main_arg13 : FVec F S300 .f32) (main_arg14 : FVec F S300x300 .f32) (main_arg15 : FVec F S300 .f32) (main_arg16 : FVec F S300x300 .f32) (main_arg17 : FVec F S300 .f32) (main_arg18 : FVec F S300x300 .f32) (main_arg19 : FVec F S300 .f32) (main_arg20 : FVec F S300x8 .f32) (main_arg21 : FVec F S8 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S300x300 .f32 := Host.absf main_arg6
  let main_cst_6 : FVec F S_ .f32 := constant S_ .f32 0x7F800000#32
  let main_v20 : FVec F S300x300 .f32 := broadcastInDim S300x300 ![] bcast_S_S300x300 main_cst_6
  let main_v21 : IVec S300x300 1 := cmpf .olt main_v19 main_v20
  let main_c_7 : IVec S_ 1 := constantI S_ 1 1#1
  let main_v22 : IVec S_ 1 := (fun x v => Host.reduce IntOp.andi x v reducesTo_S300x300_S_d0_1 h_S_) main_v21 main_c_7
  let main_v23 : IVec S_ 1 := andi main_v18 main_v22
  let main_v24 : FVec F S300 .f32 := Host.absf main_arg7
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_v29 : FVec F S300x300 .f32 := Host.absf main_arg8
  let main_cst_10 : FVec F S_ .f32 := constant S_ .f32 0x7F800000#32
  let main_v30 : FVec F S300x300 .f32 := broadcastInDim S300x300 ![] bcast_S_S300x300 main_cst_10
  let main_v31 : IVec S300x300 1 := cmpf .olt main_v29 main_v30
  let main_c_11 : IVec S_ 1 := constantI S_ 1 1#1
  let main_v32 : IVec S_ 1 := (fun x v => Host.reduce IntOp.andi x v reducesTo_S300x300_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S50000x16 .f32) (main_arg1 : IVec S2x800000 32) (main_arg2 : FVec F S800000x8 .f32) (main_arg3 : IVec S50000 32) (main_arg4 : FVec F S40x300 .f32) (main_arg5 : FVec F S300 .f32) (main_arg6 : FVec F S300x300 .f32) (main_arg7 : FVec F S300 .f32) (main_arg8 : FVec F S300x300 .f32) (main_arg9 : FVec F S300 .f32) (main_arg10 : FVec F S300x128 .f32) (main_arg11 : FVec F S128 .f32) (main_arg12 : FVec F S128x300 .f32) (main_arg13 : FVec F S300 .f32) (main_arg14 : FVec F S300x300 .f32) (main_arg15 : FVec F S300 .f32) (main_arg16 : FVec F S300x300 .f32) (main_arg17 : FVec F S300 .f32) (main_arg18 : FVec F S300x300 .f32) (main_arg19 : FVec F S300 .f32) (main_arg20 : FVec F S300x8 .f32) (main_arg21 : FVec F S8 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S800000x8 .f32 := Host.absf main_arg2
  let main_cst_0 : FVec F S_ .f32 := constant S_ .f32 0x7F800000#32
  let main_v5 : FVec F S800000x8 .f32 := broadcastInDim S800000x8 ![] bcast_S_S800000x8 main_cst_0
  let main_v6 : IVec S800000x8 1 := cmpf .olt main_v4 main_v5
  let main_c_1 : IVec S_ 1 := constantI S_ 1 1#1
  let main_v7 : IVec S_ 1 := (fun x v => Host.reduce IntOp.andi x v reducesTo_S800000x8_S_d0_1 h_S_) main_v6 main_c_1
  let main_v8 : IVec S_ 1 := andi main_v3 main_v7
  let main_v9 : FVec F S40x300 .f32 := Host.absf main_arg4
  let main_cst_2 : FVec F S_ .f32 := constant S_ .f32 0x7F800000#32
  let main_v10 : FVec F S40x300 .f32 := broadcastInDim S40x300 ![] bcast_S_S40x300 main_cst_2
  let main_v11 : IVec S40x300 1 := cmpf .olt main_v9 main_v10
  let main_c_3 : IVec S_ 1 := constantI S_ 1 1#1
  let main_v12 : IVec S_ 1 := (fun x v => Host.reduce IntOp.andi x v reducesTo_S40x300_S_d0_1 h_S_) main_v11 main_c_3
  let main_v13 : IVec S_ 1 := andi main_v8 main_v12
  let main_v14 : FVec F S300 .f32 := Host.absf main_arg5
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x16 : Shape := ⟨2, ![50000, 16]⟩
abbrev S2x800000 : Shape := ⟨2, ![2, 800000]⟩
abbrev S800000x8 : Shape := ⟨2, ![800000, 8]⟩
abbrev S50000 : Shape := ⟨1, ![50000]⟩
abbrev S40x300 : Shape := ⟨2, ![40, 300]⟩
abbrev S300 : Shape := ⟨1, ![300]⟩
abbrev S300x300 : Shape := ⟨2, ![300, 300]⟩
abbrev S300x128 : Shape := ⟨2, ![300, 128]⟩
abbrev S128 : Shape := ⟨1, ![128]⟩
abbrev S128x300 : Shape := ⟨2, ![128, 300]⟩
abbrev S300x8 : Shape := ⟨2, ![300, 8]⟩
abbrev S8 : Shape := ⟨1, ![8]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x16 : Shape := ⟨2, ![800000, 16]⟩
abbrev S800000x40 : Shape := ⟨2, ![800000, 40]⟩
abbrev S800000x128 : Shape := ⟨2, ![800000, 128]⟩
abbrev S2000x40 : Shape := ⟨2, ![2000, 40]⟩
abbrev S2000x128 : Shape := ⟨2, ![2000, 128]⟩
abbrev S2000x300 : Shape := ⟨2, ![2000, 300]⟩
abbrev S1x300 : Shape := ⟨2, ![1, 300]⟩
abbrev S1x128 : Shape := ⟨2, ![1, 128]⟩
abbrev S50000x128 : Shape := ⟨2, ![50000, 128]⟩
abbrev S50000x300 : Shape := ⟨2, ![50000, 300]⟩
abbrev S64x300 : Shape := ⟨2, ![64, 300]⟩
abbrev S50000x1 : Shape := ⟨2, ![50000, 1]⟩
abbrev S64 : Shape := ⟨1, ![64]⟩
abbrev S64x1 : Shape := ⟨2, ![64, 1]⟩
abbrev S64x8 : Shape := ⟨2, ![64, 8]⟩
abbrev S1x8 : Shape := ⟨2, ![1, 8]⟩

abbrev nBuf : Space → Nat
  | .hbm => 79
  | .vmem => 24
  | .smem => 0
  | _ => 0

abbrev bufTy : (tb : Table) → Fin (tcTables nBuf tb) → BufTy
  | .hbm, ⟨0, _⟩ => ⟨S50000x16, .f32⟩
  | .hbm, ⟨1, _⟩ => ⟨S2x800000, .i32⟩
  | .hbm, ⟨2, _⟩ => ⟨S800000x8, .f32⟩
  | .hbm, ⟨3, _⟩ => ⟨S50000, .i32⟩
  | .hbm, ⟨4, _⟩ => ⟨S40x300, .f32⟩
  | .hbm, ⟨5, _⟩ => ⟨S300, .f32⟩
  | .hbm, ⟨6, _⟩ => ⟨S300x300, .f32⟩
  | .hbm, ⟨7, _⟩ => ⟨S300, .f32⟩
  | .hbm, ⟨8, _⟩ => ⟨S300x300, .f32⟩
  | .hbm, ⟨9, _⟩ => ⟨S300, .f32⟩
  | .hbm, ⟨10, _⟩ => ⟨S300x128, .f32⟩
  | .hbm, ⟨11, _⟩ => ⟨S128, .f32⟩
  | .hbm, ⟨12, _⟩ => ⟨S128x300, .f32⟩
  | .hbm, ⟨13, _⟩ => ⟨S300, .f32⟩
  | .hbm, ⟨14, _⟩ => ⟨S300x300, .f32⟩
  | .hbm, ⟨15, _⟩ => ⟨S300, .f32⟩
  | .hbm, ⟨16, _⟩ => ⟨S300x300, .f32⟩
  | .hbm, ⟨17, _⟩ => ⟨S300, .f32⟩
  | .hbm, ⟨18, _⟩ => ⟨S300x300, .f32⟩
  | .hbm, ⟨19, _⟩ => ⟨S300, .f32⟩
  | .hbm, ⟨20, _⟩ => ⟨S300x8, .f32⟩
  | .hbm, ⟨21, _⟩ => ⟨S8, .f32⟩
  | .hbm, ⟨22, _⟩ => ⟨S1x800000, .i32⟩
  | .hbm, ⟨23, _⟩ => ⟨S800000, .i32⟩
  | .hbm, ⟨24, _⟩ => ⟨S1x800000, .i32⟩
  | .hbm, ⟨25, _⟩ => ⟨S800000, .i32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x16, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x16, .f32⟩
  | .hbm, ⟨44, _⟩ => ⟨S800000x40, .f32⟩
  | .hbm, ⟨45, _⟩ => ⟨S40x300, .bf16⟩
  | .hbm, ⟨46, _⟩ => ⟨S300x300, .bf16⟩
  | .hbm, ⟨47, _⟩ => ⟨S300x300, .bf16⟩
  | .hbm, ⟨48, _⟩ => ⟨S300x128, .bf16⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S128x300, .bf16⟩
  | .hbm, ⟨55, _⟩ => ⟨S300x300, .bf16⟩
  | .hbm, ⟨56, _⟩ => ⟨S300x300, .bf16⟩
  | .hbm, ⟨57, _⟩ => ⟨S300x300, .bf16⟩
  | .hbm, ⟨58, _⟩ => ⟨S50000x300, .f32⟩
  | .hbm, ⟨59, _⟩ => ⟨S_, .f32⟩
  | .hbm, ⟨60, _⟩ => ⟨S64x300, .f32⟩
  | .hbm, ⟨61, _⟩ => ⟨S50000x1, .i32⟩
  | .hbm, ⟨62, _⟩ => ⟨S64x300, .f32⟩
  | .hbm, ⟨63, _⟩ => ⟨S_, .f32⟩
  | .hbm, ⟨64, _⟩ => ⟨S50000, .f32⟩
  | .hbm, ⟨65, _⟩ => ⟨S_, .f32⟩
  | .hbm, ⟨66, _⟩ => ⟨S64, .f32⟩
  | .hbm, ⟨67, _⟩ => ⟨S50000x1, .i32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S64x1, .f32⟩
  | .hbm, ⟨73, _⟩ => ⟨S64x300, .f32⟩
  | .hbm, ⟨74, _⟩ => ⟨S64x300, .f32⟩
  | .hbm, ⟨75, _⟩ => ⟨S64x8, .f32⟩
  | .hbm, ⟨76, _⟩ => ⟨S1x8, .f32⟩
  | .hbm, ⟨77, _⟩ => ⟨S64x8, .f32⟩
  | .hbm, ⟨78, _⟩ => ⟨S64x8, .f32⟩
  | .local _ .vmem, ⟨0, _⟩ => ⟨S2000x40, .f32⟩
  | .local _ .vmem, ⟨1, _⟩ => ⟨S2000x40, .f32⟩
  | .local _ .vmem, ⟨2, _⟩ => ⟨S40x300, .bf16⟩
  | .local _ .vmem, ⟨3, _⟩ => ⟨S300, .f32⟩
  | .local _ .vmem, ⟨4, _⟩ => ⟨S300x300, .bf16⟩
  | .local _ .vmem, ⟨5, _⟩ => ⟨S300, .f32⟩
  | .local _ .vmem, ⟨6, _⟩ => ⟨S300x300, .bf16⟩
  | .local _ .vmem, ⟨7, _⟩ => ⟨S300, .f32⟩
  | .local _ .vmem, ⟨8, _⟩ => ⟨S300x128, .bf16⟩
  | .local _ .vmem, ⟨9, _⟩ => ⟨S128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x300, .bf16⟩
  | .local _ .vmem, ⟨15, _⟩ => ⟨S300, .f32⟩
  | .local _ .vmem, ⟨16, _⟩ => ⟨S300x300, .bf16⟩
  | .local _ .vmem, ⟨17, _⟩ => ⟨S300, .f32⟩
  | .local _ .vmem, ⟨18, _⟩ => ⟨S300x300, .bf16⟩
  | .local _ .vmem, ⟨19, _⟩ => ⟨S300, .f32⟩
  | .local _ .vmem, ⟨20, _⟩ => ⟨S300x300, .bf16⟩
  | .local _ .vmem, ⟨21, _⟩ => ⟨S300, .f32⟩
  | .local _ .vmem, ⟨22, _⟩ => ⟨S2000x300, .f32⟩
  | .local _ .vmem, ⟨23, _⟩ => ⟨S2000x300, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_1 : Ref sig .tc := ⟨.hbm, 35, rfl⟩
abbrev main_v11 : Ref sig .tc := ⟨.hbm, 36, rfl⟩
abbrev main_v12 : Ref sig .tc := ⟨.hbm, 37, rfl⟩
abbrev main_c_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_3 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_4 : Ref sig .tc := ⟨.hbm, 63, rfl⟩
abbrev main_v35 : Ref sig .tc := ⟨.hbm, 64, rfl⟩
abbrev main_cst_5 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_6 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x300 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S300x300 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S300x300 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S300 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S300x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x300 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S300x300 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S300 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S300x300 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S300 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S300x300 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S300 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x300 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x16_S800000x16_S800000x8_S800000x40_d1 : Shape.Concatenates [S800000x16, S800000x16, S800000x8] S800000x40 1
  bitsLt_bf16_f32 : FTy.bits .bf16 < FTy.bits .f32
  inb_S2000x40_S2000x40_0_0 : ∀ a, (![0, 0] : Fin 2 → Nat) a + S2000x40.size a ≤ S2000x40.size a
  h_S2000x40 : 0 < S2000x40.numel
  shapeCasts_S2000x40_S2000x40 : S2000x40.ShapeCasts S2000x40
  inb_S40x300_S40x300_0_0 : ∀ a, (![0, 0] : Fin 2 → Nat) a + S40x300.size a ≤ S40x300.size a
  h_S40x300 : 0 < S40x300.numel
  shapeCasts_S40x300_S40x300 : S40x300.ShapeCasts S40x300
  inb_S300_S300_0 : ∀ a, (![0] : Fin 1 → Nat) a + S300.size a ≤ S300.size a
  h_S300 : 0 < S300.numel
  shapeCasts_S300_S1x300 : S300.ShapeCasts S1x300
  broadcasts_S1x300_S2000x300 : S1x300.Broadcasts S2000x300
  inb_S300x300_S300x300_0_0 : ∀ a, (![0, 0] : Fin 2 → Nat) a + S300x300.size a ≤ S300x300.size a
  h_S300x300 : 0 < S300x300.numel
  shapeCasts_S300x300_S300x300 : S300x300.ShapeCasts S300x300
  inb_S300x128_S300x128_0_0 : ∀ a, (![0, 0] : Fin 2 → Nat) a + S300x128.size a ≤ S300x128.size a
  h_S300x128 : 0 < S300x128.numel
  shapeCasts_S300x128_S300x128 : S300x128.ShapeCasts S300x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S2000x128_S2000x128 : S2000x128.ShapeCasts S2000x128
  inb_S128x300_S128x300_0_0 : ∀ a, (![0, 0] : Fin 2 → Nat) a + S128x300.size a ≤ S128x300.size a
  h_S128x300 : 0 < S128x300.numel
  shapeCasts_S128x300_S128x300 : S128x300.ShapeCasts S128x300
  inb_S2000x300_S2000x300_0_0 : ∀ a, (![0, 0] : Fin 2 → Nat) a + S2000x300.size a ≤ S2000x300.size a
  h_S2000x300 : 0 < S2000x300.numel
  bcast_S_S64x300 : S_.BroadcastsInDim S64x300 (![] : Fin 0 → Fin S64x300.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x300_0_1 : S64x1.BroadcastsInDim S64x300 (![0, 1] : Fin 2 → Fin S64x300.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  gather_S50000x16_S800000x1_S800000x16_1_0_n_n_0_1_116_wf : GatherDims.WF S50000x16 S800000x1 S800000x16 [1] [0] [] [0] [] 1 ![1, 16]
  dot_S2000x40_S40x300_S2000x300_1_0_0_1_n_n_wf : DotDims.WF S2000x40 S40x300 S2000x300 [1] [0] [0] [1] [] []
  dot_S2000x300_S300x300_S2000x300_1_0_0_1_n_n_wf : DotDims.WF S2000x300 S300x300 S2000x300 [1] [0] [0] [1] [] []
  dot_S2000x300_S300x128_S2000x128_1_0_0_1_n_n_wf : DotDims.WF S2000x300 S300x128 S2000x128 [1] [0] [0] [1] [] []
  scatter_S50000x128_S800000x1_S800000x128_1_0_0_1_wf : ScatterDims.WF S50000x128 S800000x1 S800000x128 [1] [0] [0] 1
  dot_S2000x128_S128x300_S2000x300_1_0_0_1_n_n_wf : DotDims.WF S2000x128 S128x300 S2000x300 [1] [0] [0] [1] [] []
  scatter_S64x300_S50000x1_S50000x300_1_0_0_1_wf : ScatterDims.WF S64x300 S50000x1 S50000x300 [1] [0] [0] 1
  scatter_S64_S50000x1_S50000_n_0_0_1_wf : ScatterDims.WF S64 S50000x1 S50000 [] [0] [0] 1
  dot_S64x300_S300x8_S64x8_1_0_0_1_n_n_wf : DotDims.WF S64x300 S300x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x40.size a ≤ S800000x40.size a
  hwx0_0 : ∀ i : grid0.Coords, EltTy.bits .f32 = 32 ∨ (Rect.block (s := S800000x40) S2000x40.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x300.size a ≤ S40x300.size a
  hwx0_1 : ∀ i : grid0.Coords, EltTy.bits .bf16 = 32 ∨ (Rect.block (s := S40x300) S40x300.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S300.size a ≤ S300.size a
  hwx0_2 : ∀ i : grid0.Coords, EltTy.bits .f32 = 32 ∨ (Rect.block (s := S300) S300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300x300.size a ≤ S300x300.size a
  hwx0_3 : ∀ i : grid0.Coords, EltTy.bits .bf16 = 32 ∨ (Rect.block (s := S300x300) S300x300.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S300.size a ≤ S300.size a
  hwx0_4 : ∀ i : grid0.Coords, EltTy.bits .f32 = 32 ∨ (Rect.block (s := S300) S300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S300x300.size a ≤ S300x300.size a
  hwx0_5 : ∀ i : grid0.Coords, EltTy.bits .bf16 = 32 ∨ (Rect.block (s := S300x300) S300x300.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S300.size a ≤ S300.size a
  hwx0_6 : ∀ i : grid0.Coords, EltTy.bits .f32 = 32 ∨ (Rect.block (s := S300) S300.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S300x128.size a ≤ S300x128.size a
  hwx0_7 : ∀ i : grid0.Coords, EltTy.bits .bf16 = 32 ∨ (Rect.block (s := S300x128) S300x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S800000x128.size a
  hwx0_9 : ∀ i : grid0.Coords, EltTy.bits .f32 = 32 ∨ (Rect.block (s := S800000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x300.size a ≤ S128x300.size a
  hwx1_1 : ∀ i : grid1.Coords, EltTy.bits .bf16 = 32 ∨ (Rect.block (s := S128x300) S128x300.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300.size a ≤ S300.size a
  hwx1_2 : ∀ i : grid1.Coords, EltTy.bits .f32 = 32 ∨ (Rect.block (s := S300) S300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S300x300.size a ≤ S300x300.size a
  hwx1_3 : ∀ i : grid1.Coords, EltTy.bits .bf16 = 32 ∨ (Rect.block (s := S300x300) S300x300.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S300.size a ≤ S300.size a
  hwx1_4 : ∀ i : grid1.Coords, EltTy.bits .f32 = 32 ∨ (Rect.block (s := S300) S300.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S300x300.size a ≤ S300x300.size a
  hwx1_5 : ∀ i : grid1.Coords, EltTy.bits .bf16 = 32 ∨ (Rect.block (s := S300x300) S300x300.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S300.size a ≤ S300.size a
  hwx1_6 : ∀ i : grid1.Coords, EltTy.bits .f32 = 32 ∨ (Rect.block (s := S300) S300.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S300x300.size a ≤ S300x300.size a
  hwx1_7 : ∀ i : grid1.Coords, EltTy.bits .bf16 = 32 ∨ (Rect.block (s := S300x300) S300x300.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S300.size a ≤ S300.size a
  hwx1_8 : ∀ i : grid1.Coords, EltTy.bits .f32 = 32 ∨ (Rect.block (s := S300) S300.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x300.size a ≤ S50000x300.size a
  hwx1_9 : ∀ i : grid1.Coords, EltTy.bits .f32 = 32 ∨ (Rect.block (s := S50000x300) S2000x300.size (cc1_transform_9 i) (hinb1_9 i)).WholeWords (EltTy.packing .f32)

variable [Facts₀]

def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def dot_S2000x40_S40x300_S2000x300_1_0_0_1_n_n : DotDims S2000x40 S40x300 S2000x300 where
  lhsContracting := [1]
  rhsContracting := [0]
  lhsNonContracting := [0]
  rhsNonContracting := [1]
  lhsBatch := []
  rhsBatch := []
  wf := dot_S2000x40_S40x300_S2000x300_1_0_0_1_n_n_wf
def dot_S2000x300_S300x300_S2000x300_1_0_0_1_n_n : DotDims S2000x300 S300x300 S2000x300 where
  lhsContracting := [1]
  rhsContracting := [0]
  lhsNonContracting := [0]
  rhsNonContracting := [1]
  lhsBatch := []
  rhsBatch := []
  wf := dot_S2000x300_S300x300_S2000x300_1_0_0_1_n_n_wf
def dot_S2000x300_S300x128_S2000x128_1_0_0_1_n_n : DotDims S2000x300 S300x128 S2000x128 where
  lhsContracting := [1]
  rhsContracting := [0]
  lhsNonContracting := [0]
  rhsNonContracting := [1]
  lhsBatch := []
  rhsBatch := []
  wf := dot_S2000x300_S300x128_S2000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x300_S2000x300_1_0_0_1_n_n : DotDims S2000x128 S128x300 S2000x300 where
  lhsContracting := [1]
  rhsContracting := [0]
  lhsNonContracting := [0]
  rhsNonContracting := [1]
  lhsBatch := []
  rhsBatch := []
  wf := dot_S2000x128_S128x300_S2000x300_1_0_0_1_n_n_wf
def scatter_S64x300_S50000x1_S50000x300_1_0_0_1 : ScatterDims S64x300 S50000x1 S50000x300 where
  updateWindowDims := [1]
  insertedWindowDims := [0]
  scatterDimsToOperandDims := [0]
  indexVectorDim := 1
  wf := scatter_S64x300_S50000x1_S50000x300_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x300_S300x8_S64x8_1_0_0_1_n_n : DotDims S64x300 S300x8 S64x8 where
  lhsContracting := [1]
  rhsContracting := [0]
  lhsNonContracting := [0]
  rhsNonContracting := [1]
  lhsBatch := []
  rhsBatch := []
  wf := dot_S64x300_S300x8_S64x8_1_0_0_1_n_n_wf

abbrev win0_0 : Pipeline.Window sig grid0 :=
  Pipeline.Window.ofSpec (Memref.whole main_v18) S2000x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S40x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S300x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S300x300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S300.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S300x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S128x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S300x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg15) S300.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S300x300.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg17) S300.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S300x300.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg19) S300.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v31) S2000x300.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x16 : Shape := ⟨2, ![50000, 16]⟩
abbrev S2x800000 : Shape := ⟨2, ![2, 800000]⟩
abbrev S800000x8 : Shape := ⟨2, ![800000, 8]⟩
abbrev S50000 : Shape := ⟨1, ![50000]⟩
abbrev S40x300 : Shape := ⟨2, ![40, 300]⟩
abbrev S300 : Shape := ⟨1, ![300]⟩
abbrev S300x300 : Shape := ⟨2, ![300, 300]⟩
abbrev S300x128 : Shape := ⟨2, ![300, 128]⟩
abbrev S128 : Shape := ⟨1, ![128]⟩
abbrev S128x300 : Shape := ⟨2, ![128, 300]⟩
abbrev S300x8 : Shape := ⟨2, ![300, 8]⟩
abbrev S8 : Shape := ⟨1, ![8]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x16 : Shape := ⟨2, ![800000, 16]⟩
abbrev S800000x40 : Shape := ⟨2, ![800000, 40]⟩
abbrev S800000x300 : Shape := ⟨2, ![800000, 300]⟩
abbrev S1x300 : Shape := ⟨2, ![1, 300]⟩
abbrev S800000x128 : Shape := ⟨2, ![800000, 128]⟩
abbrev S1x128 : Shape := ⟨2, ![1, 128]⟩
abbrev S50000x128 : Shape := ⟨2, ![50000, 128]⟩
abbrev S50000x300 : Shape := ⟨2, ![50000, 300]⟩
abbrev S64x300 : Shape := ⟨2, ![64, 300]⟩
abbrev S50000x1 : Shape := ⟨2, ![50000, 1]⟩
abbrev S64 : Shape := ⟨1, ![64]⟩
abbrev S64x1 : Shape := ⟨2, ![64, 1]⟩
abbrev S64x8 : Shape := ⟨2, ![64, 8]⟩
abbrev S1x8 : Shape := ⟨2, ![1, 8]⟩

abbrev nBuf : Space → Nat
  | .hbm => 119
  | .vmem => 0
  | .smem => 0
  | _ => 0

abbrev bufTy : (tb : Table) → Fin (tcTables nBuf tb) → BufTy
  | .hbm, ⟨0, _⟩ => ⟨S50000x16, .f32⟩
  | .hbm, ⟨1, _⟩ => ⟨S2x800000, .i32⟩
  | .hbm, ⟨2, _⟩ => ⟨S800000x8, .f32⟩
  | .hbm, ⟨3, _⟩ => ⟨S50000, .i32⟩
  | .hbm, ⟨4, _⟩ => ⟨S40x300, .f32⟩
  | .hbm, ⟨5, _⟩ => ⟨S300, .f32⟩
  | .hbm, ⟨6, _⟩ => ⟨S300x300, .f32⟩
  | .hbm, ⟨7, _⟩ => ⟨S300, .f32⟩
  | .hbm, ⟨8, _⟩ => ⟨S300x300, .f32⟩
  | .hbm, ⟨9, _⟩ => ⟨S300, .f32⟩
  | .hbm, ⟨10, _⟩ => ⟨S300x128, .f32⟩
  | .hbm, ⟨11, _⟩ => ⟨S128, .f32⟩
  | .hbm, ⟨12, _⟩ => ⟨S128x300, .f32⟩
  | .hbm, ⟨13, _⟩ => ⟨S300, .f32⟩
  | .hbm, ⟨14, _⟩ => ⟨S300x300, .f32⟩
  | .hbm, ⟨15, _⟩ => ⟨S300, .f32⟩
  | .hbm, ⟨16, _⟩ => ⟨S300x300, .f32⟩
  | .hbm, ⟨17, _⟩ => ⟨S300, .f32⟩
  | .hbm, ⟨18, _⟩ => ⟨S300x300, .f32⟩
  | .hbm, ⟨19, _⟩ => ⟨S300, .f32⟩
  | .hbm, ⟨20, _⟩ => ⟨S300x8, .f32⟩
  | .hbm, ⟨21, _⟩ => ⟨S8, .f32⟩
  | .hbm, ⟨22, _⟩ => ⟨S1x800000, .i32⟩
  | .hbm, ⟨23, _⟩ => ⟨S800000, .i32⟩
  | .hbm, ⟨24, _⟩ => ⟨S1x800000, .i32⟩
  | .hbm, ⟨25, _⟩ => ⟨S800000, .i32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x16, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x16, .f32⟩
  | .hbm, ⟨44, _⟩ => ⟨S800000x40, .f32⟩
  | .hbm, ⟨45, _⟩ => ⟨S800000x300, .f32⟩
  | .hbm, ⟨46, _⟩ => ⟨S1x300, .f32⟩
  | .hbm, ⟨47, _⟩ => ⟨S800000x300, .f32⟩
  | .hbm, ⟨48, _⟩ => ⟨S800000x300, .f32⟩
  | .hbm, ⟨49, _⟩ => ⟨S_, .f32⟩
  | .hbm, ⟨50, _⟩ => ⟨S800000x300, .f32⟩
  | .hbm, ⟨51, _⟩ => ⟨S800000x300, .f32⟩
  | .hbm, ⟨52, _⟩ => ⟨S800000x300, .f32⟩
  | .hbm, ⟨53, _⟩ => ⟨S1x300, .f32⟩
  | .hbm, ⟨54, _⟩ => ⟨S800000x300, .f32⟩
  | .hbm, ⟨55, _⟩ => ⟨S800000x300, .f32⟩
  | .hbm, ⟨56, _⟩ => ⟨S_, .f32⟩
  | .hbm, ⟨57, _⟩ => ⟨S800000x300, .f32⟩
  | .hbm, ⟨58, _⟩ => ⟨S800000x300, .f32⟩
  | .hbm, ⟨59, _⟩ => ⟨S800000x300, .f32⟩
  | .hbm, ⟨60, _⟩ => ⟨S1x300, .f32⟩
  | .hbm, ⟨61, _⟩ => ⟨S800000x300, .f32⟩
  | .hbm, ⟨62, _⟩ => ⟨S800000x300, .f32⟩
  | .hbm, ⟨63, _⟩ => ⟨S_, .f32⟩
  | .hbm, ⟨64, _⟩ => ⟨S800000x300, .f32⟩
  | .hbm, ⟨65, _⟩ => ⟨S800000x300, .f32⟩
  | .hbm, ⟨66, _⟩ => ⟨S800000x128, .f32⟩
  | .hbm, ⟨67, _⟩ => ⟨S1x128, .f32⟩
  | .hbm, ⟨68, _⟩ => ⟨S800000x128, .f32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S50000x300, .f32⟩
  | .hbm, ⟨75, _⟩ => ⟨S1x300, .f32⟩
  | .hbm, ⟨76, _⟩ => ⟨S50000x300, .f32⟩
  | .hbm, ⟨77, _⟩ => ⟨S50000x300, .f32⟩
  | .hbm, ⟨78, _⟩ => ⟨S_, .f32⟩
  | .hbm, ⟨79, _⟩ => ⟨S50000x300, .f32⟩
  | .hbm, ⟨80, _⟩ => ⟨S50000x300, .f32⟩
  | .hbm, ⟨81, _⟩ => ⟨S50000x300, .f32⟩
  | .hbm, ⟨82, _⟩ => ⟨S1x300, .f32⟩
  | .hbm, ⟨83, _⟩ => ⟨S50000x300, .f32⟩
  | .hbm, ⟨84, _⟩ => ⟨S50000x300, .f32⟩
  | .hbm, ⟨85, _⟩ => ⟨S_, .f32⟩
  | .hbm, ⟨86, _⟩ => ⟨S50000x300, .f32⟩
  | .hbm, ⟨87, _⟩ => ⟨S50000x300, .f32⟩
  | .hbm, ⟨88, _⟩ => ⟨S50000x300, .f32⟩
  | .hbm, ⟨89, _⟩ => ⟨S1x300, .f32⟩
  | .hbm, ⟨90, _⟩ => ⟨S50000x300, .f32⟩
  | .hbm, ⟨91, _⟩ => ⟨S50000x300, .f32⟩
  | .hbm, ⟨92, _⟩ => ⟨S_, .f32⟩
  | .hbm, ⟨93, _⟩ => ⟨S50000x300, .f32⟩
  | .hbm, ⟨94, _⟩ => ⟨S50000x300, .f32⟩
  | .hbm, ⟨95, _⟩ => ⟨S50000x300, .f32⟩
  | .hbm, ⟨96, _⟩ => ⟨S1x300, .f32⟩
  | .hbm, ⟨97, _⟩ => ⟨S50000x300, .f32⟩
  | .hbm, ⟨98, _⟩ => ⟨S50000x300, .f32⟩
  | .hbm, ⟨99, _⟩ => ⟨S_, .f32⟩
  | .hbm, ⟨100, _⟩ => ⟨S64x300, .f32⟩
  | .hbm, ⟨101, _⟩ => ⟨S50000x1, .i32⟩
  | .hbm, ⟨102, _⟩ => ⟨S64x300, .f32⟩
  | .hbm, ⟨103, _⟩ => ⟨S_, .f32⟩
  | .hbm, ⟨104, _⟩ => ⟨S50000, .f32⟩
  | .hbm, ⟨105, _⟩ => ⟨S_, .f32⟩
  | .hbm, ⟨106, _⟩ => ⟨S64, .f32⟩
  | .hbm, ⟨107, _⟩ => ⟨S50000x1, .i32⟩
  | .hbm, ⟨108, _⟩ => ⟨S64, .f32⟩
  | .hbm, ⟨109, _⟩ => ⟨S_, .f32⟩
  | .hbm, ⟨110, _⟩ => ⟨S64, .f32⟩
  | .hbm, ⟨111, _⟩ => ⟨S64, .f32⟩
  | .hbm, ⟨112, _⟩ => ⟨S64x1, .f32⟩
  | .hbm, ⟨113, _⟩ => ⟨S64x300, .f32⟩
  | .hbm, ⟨114, _⟩ => ⟨S64x300, .f32⟩
  | .hbm, ⟨115, _⟩ => ⟨S64x8, .f32⟩
  | .hbm, ⟨116, _⟩ => ⟨S1x8, .f32⟩
  | .hbm, ⟨117, _⟩ => ⟨S64x8, .f32⟩
  | .hbm, ⟨118, _⟩ => ⟨S64x8, .f32⟩
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_1 : Ref sig .tc := ⟨.hbm, 35, rfl⟩
abbrev main_v11 : Ref sig .tc := ⟨.hbm, 36, rfl⟩
abbrev main_v12 : Ref sig .tc := ⟨.hbm, 37, rfl⟩
abbrev main_c_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_call0_cst : Ref sig .tc := ⟨.hbm, 49, rfl⟩
abbrev main_call0_v0 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call1_cst : Ref sig .tc := ⟨.hbm, 56, rfl⟩
abbrev main_call1_v0 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_call2_cst : Ref sig .tc := ⟨.hbm, 63, rfl⟩
abbrev main_call2_v0 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_call3_cst : Ref sig .tc := ⟨.hbm, 78, rfl⟩
abbrev main_call3_v0 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_call4_cst : Ref sig .tc := ⟨.hbm, 85, rfl⟩
abbrev main_call4_v0 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_call5_cst : Ref sig .tc := ⟨.hbm, 92, rfl⟩
abbrev main_call5_v0 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_3 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_4 : Ref sig .tc := ⟨.hbm, 103, rfl⟩
abbrev main_v63 : Ref sig .tc := ⟨.hbm, 104, rfl⟩
abbrev main_cst_5 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_6 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x16_S800000x16_S800000x8_S800000x40_d1 : Shape.Concatenates [S800000x16, S800000x16, S800000x8] S800000x40 1
  bcast_S300_S1x300_1 : S300.BroadcastsInDim S1x300 (![1] : Fin 1 → Fin S1x300.rank)
  bcast_S1x300_S800000x300_0_1 : S1x300.BroadcastsInDim S800000x300 (![0, 1] : Fin 2 → Fin S800000x300.rank)
  bcast_S_S800000x300 : S_.BroadcastsInDim S800000x300 (![] : Fin 0 → Fin S800000x300.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  bcast_S1x300_S50000x300_0_1 : S1x300.BroadcastsInDim S50000x300 (![0, 1] : Fin 2 → Fin S50000x300.rank)
  bcast_S_S50000x300 : S_.BroadcastsInDim S50000x300 (![] : Fin 0 → Fin S50000x300.rank)
  bcast_S_S64x300 : S_.BroadcastsInDim S64x300 (![] : Fin 0 → Fin S64x300.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x300_0_1 : S64x1.BroadcastsInDim S64x300 (![0, 1] : Fin 2 → Fin S64x300.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  gather_S50000x16_S800000x1_S800000x16_1_0_n_n_0_1_116_wf : GatherDims.WF S50000x16 S800000x1 S800000x16 [1] [0] [] [0] [] 1 ![1, 16]
  dot_S800000x40_S40x300_S800000x300_1_0_0_1_n_n_wf : DotDims.WF S800000x40 S40x300 S800000x300 [1] [0] [0] [1] [] []
  dot_S800000x300_S300x300_S800000x300_1_0_0_1_n_n_wf : DotDims.WF S800000x300 S300x300 S800000x300 [1] [0] [0] [1] [] []
  dot_S800000x300_S300x128_S800000x128_1_0_0_1_n_n_wf : DotDims.WF S800000x300 S300x128 S800000x128 [1] [0] [0] [1] [] []
  scatter_S50000x128_S800000x1_S800000x128_1_0_0_1_wf : ScatterDims.WF S50000x128 S800000x1 S800000x128 [1] [0] [0] 1
  dot_S50000x128_S128x300_S50000x300_1_0_0_1_n_n_wf : DotDims.WF S50000x128 S128x300 S50000x300 [1] [0] [0] [1] [] []
  dot_S50000x300_S300x300_S50000x300_1_0_0_1_n_n_wf : DotDims.WF S50000x300 S300x300 S50000x300 [1] [0] [0] [1] [] []
  scatter_S64x300_S50000x1_S50000x300_1_0_0_1_wf : ScatterDims.WF S64x300 S50000x1 S50000x300 [1] [0] [0] 1
  scatter_S64_S50000x1_S50000_n_0_0_1_wf : ScatterDims.WF S64 S50000x1 S50000 [] [0] [0] 1
  dot_S64x300_S300x8_S64x8_1_0_0_1_n_n_wf : DotDims.WF S64x300 S300x8 S64x8 [1] [0] [0] [1] [] []

variable [Facts₀]

def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def dot_S800000x40_S40x300_S800000x300_1_0_0_1_n_n : DotDims S800000x40 S40x300 S800000x300 where
  lhsContracting := [1]
  rhsContracting := [0]
  lhsNonContracting := [0]
  rhsNonContracting := [1]
  lhsBatch := []
  rhsBatch := []
  wf := dot_S800000x40_S40x300_S800000x300_1_0_0_1_n_n_wf
def dot_S800000x300_S300x300_S800000x300_1_0_0_1_n_n : DotDims S800000x300 S300x300 S800000x300 where
  lhsContracting := [1]
  rhsContracting := [0]
  lhsNonContracting := [0]
  rhsNonContracting := [1]
  lhsBatch := []
  rhsBatch := []
  wf := dot_S800000x300_S300x300_S800000x300_1_0_0_1_n_n_wf
def dot_S800000x300_S300x128_S800000x128_1_0_0_1_n_n : DotDims S800000x300 S300x128 S800000x128 where
  lhsContracting := [1]
  rhsContracting := [0]
  lhsNonContracting := [0]
  rhsNonContracting := [1]
  lhsBatch := []
  rhsBatch := []
  wf := dot_S800000x300_S300x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x300_S50000x300_1_0_0_1_n_n : DotDims S50000x128 S128x300 S50000x300 where
  lhsContracting := [1]
  rhsContracting := [0]
  lhsNonContracting := [0]
  rhsNonContracting := [1]
  lhsBatch := []
  rhsBatch := []
  wf := dot_S50000x128_S128x300_S50000x300_1_0_0_1_n_n_wf
def dot_S50000x300_S300x300_S50000x300_1_0_0_1_n_n : DotDims S50000x300 S300x300 S50000x300 where
  lhsContracting := [1]
  rhsContracting := [0]
  lhsNonContracting := [0]
  rhsNonContracting := [1]
  lhsBatch := []
  rhsBatch := []
  wf := dot_S50000x300_S300x300_S50000x300_1_0_0_1_n_n_wf
def scatter_S64x300_S50000x1_S50000x300_1_0_0_1 : ScatterDims S64x300 S50000x1 S50000x300 where
  updateWindowDims := [1]
  insertedWindowDims := [0]
  scatterDimsToOperandDims := [0]
  indexVectorDim := 1
  wf := scatter_S64x300_S50000x1_S50000x300_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x300_S300x8_S64x8_1_0_0_1_n_n : DotDims S64x300 S300x8 S64x8 where
  lhsContracting := [1]
  rhsContracting := [0]
  lhsNonContracting := [0]
  rhsNonContracting := [1]
  lhsBatch := []
  rhsBatch := []
  wf := dot_S64x300_S300x8_S64x8_1_0_0_1_n_n_wf

class Facts : Prop extends Facts₀ where

variable [Facts]
-- ==== Proof.K.Region0.lean ====
/- The frame half of region 0 of @main (custom_call 0, `cc0__edge_mlp_kernel`, pipeline 0), at a PARAMETER `V` — the
   TensorCore's buffer contents when the region is entered —, at any float interpretation `F`: each window's block at a
   point, what the body leaves in the output window's buffer as a function of the nine input blocks, the body's triple on
   whole staging memrefs, the pipeline's proof data and the body obligation at every point. -/
import proofs.«106805_j60730837565919_1_alg».proof.Proof.Gen.Kernel.Launch
import proofs.«106805_j60730837565919_1_alg».proof.Proof.Gen.Kernel.Skeleton
import proofs.«106805_j60730837565919_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0 of @main: custom_call 0, `cc0__edge_mlp_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for ANY proof data
    whose array is `V`'s (`hA`) and whose body leaves the block in place (`hafter`). Window 0 moves with the point and is
    fetched at each; windows 1–8 are whole arrays with a constant block index, fetched at the first point only: at a
    later point the index has not moved, so the buffer still holds the same block. Both cases are the one lemma
    `Dat.before_in_eq_fetched`: the window is an input, is never idle, and is uncut (its cuts do not depend on the point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref is read, and the output written, through its whole-buffer rectangle -/

abbrev r0_0 : Rect S2000x40 := Rect.unit (s := S2000x40) ![0, 0] S2000x40.size inb_S2000x40_S2000x40_0_0
abbrev r0_1 : Rect S40x300 := Rect.unit (s := S40x300) ![0, 0] S40x300.size inb_S40x300_S40x300_0_0
abbrev r0_2 : Rect S300 := Rect.unit (s := S300) ![0] S300.size inb_S300_S300_0
abbrev r0_3 : Rect S300x300 := Rect.unit (s := S300x300) ![0, 0] S300x300.size inb_S300x300_S300x300_0_0
abbrev r0_4 : Rect S300 := Rect.unit (s := S300) ![0] S300.size inb_S300_S300_0
abbrev r0_5 : Rect S300x300 := Rect.unit (s := S300x300) ![0, 0] S300x300.size inb_S300x300_S300x300_0_0
abbrev r0_6 : Rect S300 := Rect.unit (s := S300) ![0] S300.size inb_S300_S300_0
abbrev r0_7 : Rect S300x128 := Rect.unit (s := S300x128) ![0, 0] S300x128.size inb_S300x128_S300x128_0_0
abbrev r0_8 : Rect S128 := Rect.unit (s := S128) ![0] S128.size inb_S128_S128_0
abbrev r0_out : Rect S2000x128 := Rect.unit (s := S2000x128) ![0, 0] S2000x128.size inb_S2000x128_S2000x128_0_0

/-! ## What the body leaves in the output window's buffer -/

/-- Window 9's staging buffer after the body, from the input windows' blocks: its one store as a piece (the payloads are
    the skeleton's: the four-layer perceptron of the feature tile, then the last bias added). -/
def out0_9 (x0 : Vec F S2000x40 .f32) (x1 : Vec F S40x300 .bf16) (x2 : Vec F S300 .f32) (x3 : Vec F S300x300 .bf16) (x4 : Vec F S300 .f32) (x5 : Vec F S300x300 .bf16) (x6 : Vec F S300 .f32) (x7 : Vec F S300x128 .bf16) (x8 : Vec F S128 .f32) : Vec F S2000x128 .f32 :=
  View.canon [⟨r0_out, k0_pay1 (k0_pay2 (View.ld x0 r0_0) (View.ld x1 r0_1) (View.ld x2 r0_2) (View.ld x3 r0_3) (View.ld x4 r0_4) (View.ld x5 r0_5) (View.ld x6 r0_6) (View.ld x7 r0_7)) (k0_pay3 (View.ld x8 r0_8))⟩]

/-- The store tiles the buffer (checked by evaluation), so it covers it. -/
theorem cover0_9 (p0 : Vec F S2000x128 .f32) (y : S2000x128.Idx) :
    ∃ pc ∈ ([⟨r0_out, p0⟩] : List (View.Piece (Elt F) S2000x128 .f32)), y ∈ pc.1.set :=
  View.cover_of_tiled [⟨r0_out, p0⟩] S2000x128.size (by rfl) y

/-! ## The body's triple -/

set_option maxHeartbeats 1000000 in
/-- The kernel body on whole staging memrefs, the inputs' at read contents `xW` and the output's at anything, runs to the
    continuation holding the inputs' as they were and the output's at `out0_9` of the inputs'. The printed function calls
    its part (nine loads, returning the two payload values), loads the output buffer (the value is not used, so any
    contents will do) and stores the last payload over the whole of it. -/
theorem sound_kernel0 (c : Dev nD) (E : Set ℕ) (i : grid0.Coords) (arg1 : Memref sig .tc .vmem S2000x40 .f32) (harg1 : arg1.IsWhole) (arg2 : Memref sig .tc .vmem S40x300 .bf16) (harg2 : arg2.IsWhole) (arg3 : Memref sig .tc .vmem S300 .f32) (harg3 : arg3.IsWhole) (arg4 : Memref sig .tc .vmem S300x300 .bf16) (harg4 : arg4.IsWhole) (arg5 : Memref sig .tc .vmem S300 .f32) (harg5 : arg5.IsWhole) (arg6 : Memref sig .tc .vmem S300x300 .bf16) (harg6 : arg6.IsWhole) (arg7 : Memref sig .tc .vmem S300 .f32) (harg7 : arg7.IsWhole) (arg8 : Memref sig .tc .vmem S300x128 .bf16) (harg8 : arg8.IsWhole) (arg9 : Memref sig .tc .vmem S128 .f32) (harg9 : arg9.IsWhole) (arg10 : Memref sig .tc .vmem S2000x128 .f32) (harg10 : arg10.IsWhole)
    (x0 : Vec F S2000x40 .f32) (x1 : Vec F S40x300 .bf16) (x2 : Vec F S300 .f32) (x3 : Vec F S300x300 .bf16) (x4 : Vec F S300 .f32) (x5 : Vec F S300x300 .bf16) (x6 : Vec F S300 .f32) (x7 : Vec F S300x128 .bf16) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The proof data of pipeline 0 on core `c`: the arrays as the region finds them (`V`); after the body at point `t` each
    input's buffer at its block and the output's at `out0_9` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-! Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Region1.lean ====
/- The frame half of region 1 of @main (custom_call 1, `cc1__node_mlp_kernel`, pipeline 1), at a PARAMETER `V` — the
   TensorCore's buffer contents when the region is entered —, at any float interpretation `F`: each window's block at a
   point, what the body leaves in the output window's buffer as a function of the nine input blocks, the body's triple on
   whole staging memrefs, the pipeline's proof data and the body obligation at every point. -/
import proofs.«106805_j60730837565919_1_alg».proof.Proof.Gen.Kernel.Launch
import proofs.«106805_j60730837565919_1_alg».proof.Proof.Gen.Kernel.Skeleton
import proofs.«106805_j60730837565919_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1 of @main: custom_call 1, `cc1__node_mlp_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not, for ANY proof data
    whose array is `V`'s (`hA`) and whose body leaves the block in place (`hafter`). Window 0 moves with the point and is
    fetched at each; windows 1–8 are whole arrays with a constant block index, fetched at the first point only: at a
    later point the index has not moved, so the buffer still holds the same block. Both cases are the one lemma
    `Dat.before_in_eq_fetched`: the window is an input, is never idle, and is uncut (its cuts do not depend on the point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each memref is read, and the output written, through its whole-buffer rectangle -/

abbrev r1_0 : Rect S2000x128 := Rect.unit (s := S2000x128) ![0, 0] S2000x128.size inb_S2000x128_S2000x128_0_0
abbrev r1_1 : Rect S128x300 := Rect.unit (s := S128x300) ![0, 0] S128x300.size inb_S128x300_S128x300_0_0
abbrev r1_2 : Rect S300 := Rect.unit (s := S300) ![0] S300.size inb_S300_S300_0
abbrev r1_3 : Rect S300x300 := Rect.unit (s := S300x300) ![0, 0] S300x300.size inb_S300x300_S300x300_0_0
abbrev r1_4 : Rect S300 := Rect.unit (s := S300) ![0] S300.size inb_S300_S300_0
abbrev r1_5 : Rect S300x300 := Rect.unit (s := S300x300) ![0, 0] S300x300.size inb_S300x300_S300x300_0_0
abbrev r1_6 : Rect S300 := Rect.unit (s := S300) ![0] S300.size inb_S300_S300_0
abbrev r1_7 : Rect S300x300 := Rect.unit (s := S300x300) ![0, 0] S300x300.size inb_S300x300_S300x300_0_0
abbrev r1_8 : Rect S300 := Rect.unit (s := S300) ![0] S300.size inb_S300_S300_0
abbrev r1_out : Rect S2000x300 := Rect.unit (s := S2000x300) ![0, 0] S2000x300.size inb_S2000x300_S2000x300_0_0

/-! ## What the body leaves in the output window's buffer -/

/-- Window 9's staging buffer after the body, from the input windows' blocks: its one store as a piece (the payloads are
    the skeleton's: the four-layer perceptron of the feature tile, then the last bias added). -/
def out1_9 (x0 : Vec F S2000x128 .f32) (x1 : Vec F S128x300 .bf16) (x2 : Vec F S300 .f32) (x3 : Vec F S300x300 .bf16) (x4 : Vec F S300 .f32) (x5 : Vec F S300x300 .bf16) (x6 : Vec F S300 .f32) (x7 : Vec F S300x300 .bf16) (x8 : Vec F S300 .f32) : Vec F S2000x300 .f32 :=
  View.canon [⟨r1_out, k1_pay1 (k1_pay2 (View.ld x0 r1_0) (View.ld x1 r1_1) (View.ld x2 r1_2) (View.ld x3 r1_3) (View.ld x4 r1_4) (View.ld x5 r1_5) (View.ld x6 r1_6) (View.ld x7 r1_7)) (k1_pay3 (View.ld x8 r1_8))⟩]

/-- The store tiles the buffer (checked by evaluation), so it covers it. -/
theorem cover1_9 (p0 : Vec F S2000x300 .f32) (y : S2000x300.Idx) :
    ∃ pc ∈ ([⟨r1_out, p0⟩] : List (View.Piece (Elt F) S2000x300 .f32)), y ∈ pc.1.set :=
  View.cover_of_tiled [⟨r1_out, p0⟩] S2000x300.size (by rfl) y

/-! ## The body's triple -/

set_option maxHeartbeats 1000000 in
/-- The kernel body on whole staging memrefs, the inputs' at read contents `xW` and the output's at anything, runs to the
    continuation holding the inputs' as they were and the output's at `out1_9` of the inputs'. The printed function calls
    its part (nine loads, returning the two payload values), loads the output buffer (the value is not used, so any
    contents will do) and stores the last payload over the whole of it. -/
theorem sound_kernel1 (c : Dev nD) (E : Set ℕ) (i : grid1.Coords) (arg1 : Memref sig .tc .vmem S2000x128 .f32) (harg1 : arg1.IsWhole) (arg2 : Memref sig .tc .vmem S128x300 .bf16) (harg2 : arg2.IsWhole) (arg3 : Memref sig .tc .vmem S300 .f32) (harg3 : arg3.IsWhole) (arg4 : Memref sig .tc .vmem S300x300 .bf16) (harg4 : arg4.IsWhole) (arg5 : Memref sig .tc .vmem S300 .f32) (harg5 : arg5.IsWhole) (arg6 : Memref sig .tc .vmem S300x300 .bf16) (harg6 : arg6.IsWhole) (arg7 : Memref sig .tc .vmem S300 .f32) (harg7 : arg7.IsWhole) (arg8 : Memref sig .tc .vmem S300x300 .bf16) (harg8 : arg8.IsWhole) (arg9 : Memref sig .tc .vmem S300 .f32) (harg9 : arg9.IsWhole) (arg10 : Memref sig .tc .vmem S2000x300 .f32) (harg10 : arg10.IsWhole)
    (x0 : Vec F S2000x128 .f32) (x1 : Vec F S128x300 .bf16) (x2 : Vec F S300 .f32) (x3 : Vec F S300x300 .bf16) (x4 : Vec F S300 .f32) (x5 : Vec F S300x300 .bf16) (x6 : Vec F S300 .f32) (x7 : Vec F S300x300 .bf16) (x8 : Vec F S300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__node_mlp_kernel i arg1 harg1 arg2 harg2 arg3 harg3 arg4 harg4 arg5 harg5 arg6 harg6 arg7 harg7 arg8 harg8 arg9 harg9 arg10 harg10) K := by
  simp only [cc1__node_mlp_kernel_eq_skeleton]; unfold cc1__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of pipeline 1 on core `c`: the arrays as the region finds them (`V`); after the body at point `t` each
    input's buffer at its block and the output's at `out1_9` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-! Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Run.lean ====
/- THE RUN of @main over its five items — the host stretch `hostOps0`, region 0 (custom_call 0), the host stretch
   `hostOps1`, region 1 (custom_call 1), the host stretch `hostOps2` —, at any float interpretation `F`: what each region
   leaves in its output array (`outs`), every pipeline's proof data at its region's entry contents (`pdats`), a region
   record per pallas_call over the thread state "every unscoped buffer at the boundary's contents, the generator register
   at some state, nothing owed" (`reg0`, `reg1`), and the launch: every weakly fair execution of @main terminates and every
   final memory holds EVERY unscoped buffer at the last boundary's contents (`run_all`); in particular the arguments end as
   launched (`frame`). -/
import proofs.«106805_j60730837565919_1_alg».proof.Proof.K.Region0
import proofs.«106805_j60730837565919_1_alg».proof.Proof.K.Region1
import proofs.«106805_j60730837565919_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A core's buffer contents read at the TensorCore's references (what a region's proof data take). -/
abbrev TcVal (F : FTy → Type) : Type := (c : Dev nD) → (b : Ref sig .tc) → Buf (Elt F) ((c : Thread nD τ).loc b)
/-- Region 0's entry contents, -/
abbrev T1 : TcVal F := fun c b => Gen.V1 m c b
/-- its exit contents, -/
abbrev T2 (o : Gen.Outs (F := F)) : TcVal F := fun c b => Gen.V2 m o c b
/-- region 1's entry contents, -/
abbrev T3 (o : Gen.Outs (F := F)) : TcVal F := fun c b => Gen.V3 m o c b
/-- its exit contents. -/
abbrev T4 (o : Gen.Outs (F := F)) : TcVal F := fun c b => Gen.V4 m o c b

/-! ## What the regions leave in their output arrays -/

/-- Core `c`'s buffers at region 0's exit: its arrays at what the pipeline leaves (the inputs as entered, the output's
    write-backs folded: `Dat.arrAt … N`), every other buffer as entered. -/
def X2 (c : Dev nD) : Valuation τ sig (Elt F) :=
  Pipeline.withArrays spec0 c (Gen.V1 m c) fun w => (dat0 (fun c b => Gen.V1 m c b) c).arrAt w cfg0.N
theorem X2_arr (c : Dev nD) (w : Fin cfg0.W) :
    X2 m c (Proc.devRef .tc (Pipeline.arrRef spec0 w)) = (dat0 (fun c b => Gen.V1 m c b) c).arrAt w cfg0.N := by
  unfold X2; exact Pipeline.withArrays_arr spec0 launch0.win.arr_inj c _ _ w

/-- The contents region 0 leaves, at every item: the unknowns of the valuations up to region 1's entry. -/
def outsA : Gen.Outs (F := F) := fun _ r c => X2 m c r

/-- Core `c`'s buffers at region 1's exit: its arrays at what the pipeline leaves, every other buffer as entered. -/
def X4 (c : Dev nD) : Valuation τ sig (Elt F) :=
  Pipeline.withArrays spec1 c (Gen.V3 m (outsA m) c) fun w => (dat1 (fun c b => Gen.V3 m (outsA m) c b) c).arrAt w cfg1.N
theorem X4_arr (c : Dev nD) (w : Fin cfg1.W) :
    X4 m c (Proc.devRef .tc (Pipeline.arrRef spec1 w)) = (dat1 (fun c b => Gen.V3 m (outsA m) c b) c).arrAt w cfg1.N := by
  unfold X4; exact Pipeline.withArrays_arr spec1 launch1.win.arr_inj c _ _ w

/-- THE CONTENTS THE REGIONS LEAVE: after item 1 (region 0) what pipeline 0 leaves, after item 3 (region 1) what
    pipeline 1 leaves. -/
def outs : Gen.Outs (F := F) := fun J r c => if J = 2 then X2 m c r else X4 m c r

theorem outs_two (r : Ref sig .tc) (c : Dev nD) : outs m 2 r c = X2 m c r := if_pos rfl
theorem outs_four (r : Ref sig .tc) (c : Dev nD) : outs m 4 r c = X4 m c r := if_neg (by decide)

/-- The valuations up to region 1's entry read `outs` at item 2 only. -/
theorem V2_outs (c : Dev nD) : Gen.V2 m (outs m) c = Gen.V2 m (outsA m) c := by
  exact congrArg (Function.update (Gen.V1 m c) (Proc.devRef .tc main_v23)) (outs_two m main_v23 c)
theorem V3_outs : (fun c => Gen.V3 m (outs m) c) = fun c => Gen.V3 m (outsA m) c := by
  funext c
  show StableHlo.after hostOps1 (Gen.V2 m (outs m) c) = StableHlo.after hostOps1 (Gen.V2 m (outsA m) c)
  rw [V2_outs]

theorem outs2_eq (c : Dev nD) : outs m 2 main_v23 c = (dat0 (fun c b => Gen.V1 m c b) c).arrAt 9 cfg0.N :=
  (outs_two m main_v23 c).trans (X2_arr m c 9)
theorem outs4_eq (c : Dev nD) : outs m 4 main_v31 c = (dat1 (fun c b => Gen.V3 m (outs m) c b) c).arrAt 9 cfg1.N := by
  have h := (outs_four m main_v31 c).trans (X4_arr m c 9)
  have e : T3 m (outs m) = T3 m (outsA m) := by
    funext c b; exact congrFun (congrFun (V3_outs m) c) _
  show outs m 4 main_v31 c = (dat1 (T3 m (outs m)) c).arrAt 9 cfg1.N
  rw [e]; exact h

/-! ## Each region's exit contents are the next boundary's valuation -/

/-- At region 0's exit each of its arrays holds what the pipeline leaves: an input window's array is never written and
    no other item changes it before the exit; the output window's array is the one buffer the exit valuation updates. -/
theorem hF0 (c : Dev nD) (w : Fin cfg0.W) : (dat0 (T1 m) c).arrAt w cfg0.N = T2 m (outs m) c (Pipeline.arrRef spec0 w) := by
  by_cases hw : w = 9
  · subst hw
    exact (outs2_eq m c).symm.trans (Function.update_self (f := Gen.V1 m c) (Proc.devRef .tc main_v23) (outs m 2 main_v23 c)).symm
  · have hin : (cfg0.win w).isOut = false := by revert w; decide
    have hne : Pipeline.arrRef spec0 w ∉ ([main_v23] : List (Ref sig .tc)) := by revert w; decide
    exact (((dat0 (T1 m) c).arrAt_in w hin _).trans (A_eq0 (T1 m) c w)).trans (Gen.V2_of m (outs m) c _ hne).symm
/-- Every other buffer holds what it held at entry. -/
theorem hrest0 (c : Dev nD) : ∀ b, b ∉ Finset.univ.image (Pipeline.arrRef spec0) → T2 m (outs m) c b = T1 m c b :=
  fun b hb => Gen.V2_of m (outs m) c b fun h =>
    hb (Finset.mem_image.mpr ⟨9, Finset.mem_univ _, (List.mem_singleton.mp h).symm⟩)

/-- The same at region 1's exit. -/
theorem hF1 (c : Dev nD) (w : Fin cfg1.W) : (dat1 (T3 m (outs m)) c).arrAt w cfg1.N = T4 m (outs m) c (Pipeline.arrRef spec1 w) := by
  by_cases hw : w = 9
  · subst hw
    exact (outs4_eq m c).symm.trans (Function.update_self (f := Gen.V3 m (outs m) c) (Proc.devRef .tc main_v31) (outs m 4 main_v31 c)).symm
  · have hin : (cfg1.win w).isOut = false := by revert w; decide
    have hne : Pipeline.arrRef spec1 w ∉ ([main_v31] : List (Ref sig .tc)) := by revert w; decide
    exact (((dat1 (T3 m (outs m)) c).arrAt_in w hin _).trans (A_eq1 (T3 m (outs m)) c w)).trans (Gen.V4_of m (outs m) c _ hne).symm
theorem hrest1 (c : Dev nD) : ∀ b, b ∉ Finset.univ.image (Pipeline.arrRef spec1) → T4 m (outs m) c b = T3 m (outs m) c b :=
  fun b hb => Gen.V4_of m (outs m) c b fun h =>
    hb (Finset.mem_image.mpr ⟨9, Finset.mem_univ _, (List.mem_singleton.mp h).symm⟩)

/-! ## The proof data family and the thread state -/

/-- Every pipeline's proof data, each at its region's entry contents — a literal `match`, so that the pinned
    configuration at a numeral reduces to the printed one. -/
def pdats : (p : Fin 2) → (c : Dev nD) → Dat τ (Elt F) Unit ℕ (UR sig nD τ) ℕ (cfgs p) c
  | ⟨0, _⟩ => fun c => dat0 (fun c b => Gen.V1 m c b) c
  | ⟨1, _⟩ => fun c => dat1 (fun c b => Gen.V3 m (outs m) c b) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class
    invariant takes it in and gives it back) and its `owes`, at nothing. -/
abbrev R (c : Dev nD) : sProp 𝕄 := iprop((∃ r, prngReg c r) ∗ ∃ W, owes (c : Thread nD τ) (0 : CellTallies nD τ sig Unit) W)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at the boundary's contents before
    it, left at the contents after it (what the next host stretch is entered from). Its arrays split out of the unscoped
    buffers and put back at the exit contents; the generator register into the class invariant and out; nothing owed;
    no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m (outs m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at the boundary's contents before
    it, left at the contents after it (what the next host stretch is entered from). Its arrays split out of the unscoped
    buffers and put back at the exit contents; the generator register into the class invariant and out; nothing owed;
    no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m (outs m)) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (T3 m (outs m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m (outs m) c) (T4 m (outs m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's five segments in order: a host segment per stretch from its boundary's contents, a region per pallas_call. -/
abbrev segs (c : Dev nD) : List (Seg (pcfgs (F := F)) adm (pdats m) () defs₀ 𝒱₀ L lv) :=
  Gen.segs m (outs m) 𝒱₀ L lv (fun _ c => R c) () (pdats m) (reg0 m) (reg1 m) c

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has EVERY unscoped buffer at the last boundary's
    contents `Gen.V5 m (outs m)`: the launch memory folded through the three host stretches and the two regions' outputs. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = Gen.V5 m (outs m) c b) :=
  Pipeline.θ_run_regions_kit_dev (pcfgs (F := F)) adm (pdats m) () cellOf_inj emb₁ defs₀ 𝒱₀ L lv m ρ main (segs m)
    (fun c Q => by
      rewrite [main_chain c, Seg.run_eq_chain,
        show (segs m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V5 m (outs m) c) ∗ ∃ r, prngReg c r))
    (hch := fun c => ⟨.rfl, .rfl, .rfl, .rfl, .rfl,
      show (iprop(StableHlo.held (c : Thread nD τ) (Pipeline.ucRefs τ sig) (Gen.V5 m (outs m) c) ∗ R c) : sProp 𝕄)
          ⊢ iprop((StableHlo.held (c : Thread nD τ) (Pipeline.ucRefs τ sig) (Gen.V5 m (outs m) c) ∗ ∃ r, prngReg c r)
            ∗ ∃ W, owes (c : Thread nD τ) (0 : CellTallies nD τ sig Unit) W) from by
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V5 m (outs m) c) s')
      isplitl [Hh] <;> iassumption)
    (hQ := fun s h c => h c)

/-- THE FRAME: every weakly fair execution of @main terminates and every final state has the argument arrays as launched —
    each argument read off the last boundary's contents, which no host stretch writes and no region may change. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run _ _ _).mono (fun r h c =>
     ⟨(h c _ (mem_uc main_arg0 (by decide))).trans (Gen.V5_main_arg0 m (outs m) c),
      (h c _ (mem_uc main_arg1 (by decide))).trans (Gen.V5_main_arg1 m (outs m) c),
      (h c _ (mem_uc main_arg2 (by decide))).trans (Gen.V5_main_arg2 m (outs m) c),
      (h c _ (mem_uc main_arg3 (by decide))).trans (Gen.V5_main_arg3 m (outs m) c),
      (h c _ (mem_uc main_arg4 (by decide))).trans (Gen.V5_main_arg4 m (outs m) c),
      (h c _ (mem_uc main_arg5 (by decide))).trans (Gen.V5_main_arg5 m (outs m) c),
      (h c _ (mem_uc main_arg6 (by decide))).trans (Gen.V5_main_arg6 m (outs m) c),
      (h c _ (mem_uc main_arg7 (by decide))).trans (Gen.V5_main_arg7 m (outs m) c),
      (h c _ (mem_uc main_arg8 (by decide))).trans (Gen.V5_main_arg8 m (outs m) c),
      (h c _ (mem_uc main_arg9 (by decide))).trans (Gen.V5_main_arg9 m (outs m) c),
      (h c _ (mem_uc main_arg10 (by decide))).trans (Gen.V5_main_arg10 m (outs m) c),
      (h c _ (mem_uc main_arg11 (by decide))).trans (Gen.V5_main_arg11 m (outs m) c),
      (h c _ (mem_uc main_arg12 (by decide))).trans (Gen.V5_main_arg12 m (outs m) c),
      (h c _ (mem_uc main_arg13 (by decide))).trans (Gen.V5_main_arg13 m (outs m) c),
      (h c _ (mem_uc main_arg14 (by decide))).trans (Gen.V5_main_arg14 m (outs m) c),
      (h c _ (mem_uc main_arg15 (by decide))).trans (Gen.V5_main_arg15 m (outs m) c),
      (h c _ (mem_uc main_arg16 (by decide))).trans (Gen.V5_main_arg16 m (outs m) c),
      (h c _ (mem_uc main_arg17 (by decide))).trans (Gen.V5_main_arg17 m (outs m) c),
      (h c _ (mem_uc main_arg18 (by decide))).trans (Gen.V5_main_arg18 m (outs m) c),
      (h c _ (mem_uc main_arg19 (by decide))).trans (Gen.V5_main_arg19 m (outs m) c),
      (h c _ (mem_uc main_arg20 (by decide))).trans (Gen.V5_main_arg20 m (outs m) c),
      (h c _ (mem_uc main_arg21 (by decide))).trans (Gen.V5_main_arg21 m (outs m) c)⟩) (run_all m ρ)

end Cert.Kernel.Fr

end
-- ==== Proof.KI.Region0.lean ====
/- The frame half of region 0 of @main (custom_call 0, `cc0__edge_mlp_kernel`, pipeline 0), at a PARAMETER `V` — the
   TensorCore's buffer contents when the region is entered —, at any float interpretation `F`: each window's block at a
   point, what the body leaves in the output window's buffer as a function of the nine input blocks, the body's triple on
   whole staging memrefs, the pipeline's proof data and the body obligation at every point. -/
import proofs.«106805_j60730837565919_1_alg».proof.Proof.Gen.KernelIdeal.Launch
import proofs.«106805_j60730837565919_1_alg».proof.Proof.Gen.KernelIdeal.Skeleton
import proofs.«106805_j60730837565919_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0 of @main: custom_call 0, `cc0__edge_mlp_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for ANY proof data
    whose array is `V`'s (`hA`) and whose body leaves the block in place (`hafter`). Window 0 moves with the point and is
    fetched at each; windows 1–8 are whole arrays with a constant block index, fetched at the first point only: at a
    later point the index has not moved, so the buffer still holds the same block. Both cases are the one lemma
    `Dat.before_in_eq_fetched`: the window is an input, is never idle, and is uncut (its cuts do not depend on the point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref is read, and the output written, through its whole-buffer rectangle -/

abbrev r0_0 : Rect S2000x40 := Rect.unit (s := S2000x40) ![0, 0] S2000x40.size inb_S2000x40_S2000x40_0_0
abbrev r0_1 : Rect S40x300 := Rect.unit (s := S40x300) ![0, 0] S40x300.size inb_S40x300_S40x300_0_0
abbrev r0_2 : Rect S300 := Rect.unit (s := S300) ![0] S300.size inb_S300_S300_0
abbrev r0_3 : Rect S300x300 := Rect.unit (s := S300x300) ![0, 0] S300x300.size inb_S300x300_S300x300_0_0
abbrev r0_4 : Rect S300 := Rect.unit (s := S300) ![0] S300.size inb_S300_S300_0
abbrev r0_5 : Rect S300x300 := Rect.unit (s := S300x300) ![0, 0] S300x300.size inb_S300x300_S300x300_0_0
abbrev r0_6 : Rect S300 := Rect.unit (s := S300) ![0] S300.size inb_S300_S300_0
abbrev r0_7 : Rect S300x128 := Rect.unit (s := S300x128) ![0, 0] S300x128.size inb_S300x128_S300x128_0_0
abbrev r0_8 : Rect S128 := Rect.unit (s := S128) ![0] S128.size inb_S128_S128_0
abbrev r0_out : Rect S2000x128 := Rect.unit (s := S2000x128) ![0, 0] S2000x128.size inb_S2000x128_S2000x128_0_0

/-! ## What the body leaves in the output window's buffer -/

/-- Window 9's staging buffer after the body, from the input windows' blocks: its one store as a piece (the payloads are
    the skeleton's: the four-layer perceptron of the feature tile, then the last bias added). -/
def out0_9 (x0 : Vec F S2000x40 .f32) (x1 : Vec F S40x300 .bf16) (x2 : Vec F S300 .f32) (x3 : Vec F S300x300 .bf16) (x4 : Vec F S300 .f32) (x5 : Vec F S300x300 .bf16) (x6 : Vec F S300 .f32) (x7 : Vec F S300x128 .bf16) (x8 : Vec F S128 .f32) : Vec F S2000x128 .f32 :=
  View.canon [⟨r0_out, k0_pay1 (k0_pay2 (View.ld x0 r0_0) (View.ld x1 r0_1) (View.ld x2 r0_2) (View.ld x3 r0_3) (View.ld x4 r0_4) (View.ld x5 r0_5) (View.ld x6 r0_6) (View.ld x7 r0_7)) (k0_pay3 (View.ld x8 r0_8))⟩]

/-- The store tiles the buffer (checked by evaluation), so it covers it. -/
theorem cover0_9 (p0 : Vec F S2000x128 .f32) (y : S2000x128.Idx) :
    ∃ pc ∈ ([⟨r0_out, p0⟩] : List (View.Piece (Elt F) S2000x128 .f32)), y ∈ pc.1.set :=
  View.cover_of_tiled [⟨r0_out, p0⟩] S2000x128.size (by rfl) y

/-! ## The body's triple -/

set_option maxHeartbeats 1000000 in
/-- The kernel body on whole staging memrefs, the inputs' at read contents `xW` and the output's at anything, runs to the
    continuation holding the inputs' as they were and the output's at `out0_9` of the inputs'. The printed function calls
    its part (nine loads, returning the two payload values), loads the output buffer (the value is not used, so any
    contents will do) and stores the last payload over the whole of it. -/
theorem sound_kernel0 (c : Dev nD) (E : Set ℕ) (i : grid0.Coords) (arg1 : Memref sig .tc .vmem S2000x40 .f32) (harg1 : arg1.IsWhole) (arg2 : Memref sig .tc .vmem S40x300 .bf16) (harg2 : arg2.IsWhole) (arg3 : Memref sig .tc .vmem S300 .f32) (harg3 : arg3.IsWhole) (arg4 : Memref sig .tc .vmem S300x300 .bf16) (harg4 : arg4.IsWhole) (arg5 : Memref sig .tc .vmem S300 .f32) (harg5 : arg5.IsWhole) (arg6 : Memref sig .tc .vmem S300x300 .bf16) (harg6 : arg6.IsWhole) (arg7 : Memref sig .tc .vmem S300 .f32) (harg7 : arg7.IsWhole) (arg8 : Memref sig .tc .vmem S300x128 .bf16) (harg8 : arg8.IsWhole) (arg9 : Memref sig .tc .vmem S128 .f32) (harg9 : arg9.IsWhole) (arg10 : Memref sig .tc .vmem S2000x128 .f32) (harg10 : arg10.IsWhole)
    (x0 : Vec F S2000x40 .f32) (x1 : Vec F S40x300 .bf16) (x2 : Vec F S300 .f32) (x3 : Vec F S300x300 .bf16) (x4 : Vec F S300 .f32) (x5 : Vec F S300x300 .bf16) (x6 : Vec F S300 .f32) (x7 : Vec F S300x128 .bf16) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The proof data of pipeline 0 on core `c`: the arrays as the region finds them (`V`); after the body at point `t` each
    input's buffer at its block and the output's at `out0_9` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-! Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1.lean ====
/- The frame half of region 1 of @main (custom_call 1, `cc1__node_mlp_kernel`, pipeline 1), at a PARAMETER `V` — the
   TensorCore's buffer contents when the region is entered —, at any float interpretation `F`: each window's block at a
   point, what the body leaves in the output window's buffer as a function of the nine input blocks, the body's triple on
   whole staging memrefs, the pipeline's proof data and the body obligation at every point. -/
import proofs.«106805_j60730837565919_1_alg».proof.Proof.Gen.KernelIdeal.Launch
import proofs.«106805_j60730837565919_1_alg».proof.Proof.Gen.KernelIdeal.Skeleton
import proofs.«106805_j60730837565919_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1 of @main: custom_call 1, `cc1__node_mlp_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not, for ANY proof data
    whose array is `V`'s (`hA`) and whose body leaves the block in place (`hafter`). Window 0 moves with the point and is
    fetched at each; windows 1–8 are whole arrays with a constant block index, fetched at the first point only: at a
    later point the index has not moved, so the buffer still holds the same block. Both cases are the one lemma
    `Dat.before_in_eq_fetched`: the window is an input, is never idle, and is uncut (its cuts do not depend on the point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each memref is read, and the output written, through its whole-buffer rectangle -/

abbrev r1_0 : Rect S2000x128 := Rect.unit (s := S2000x128) ![0, 0] S2000x128.size inb_S2000x128_S2000x128_0_0
abbrev r1_1 : Rect S128x300 := Rect.unit (s := S128x300) ![0, 0] S128x300.size inb_S128x300_S128x300_0_0
abbrev r1_2 : Rect S300 := Rect.unit (s := S300) ![0] S300.size inb_S300_S300_0
abbrev r1_3 : Rect S300x300 := Rect.unit (s := S300x300) ![0, 0] S300x300.size inb_S300x300_S300x300_0_0
abbrev r1_4 : Rect S300 := Rect.unit (s := S300) ![0] S300.size inb_S300_S300_0
abbrev r1_5 : Rect S300x300 := Rect.unit (s := S300x300) ![0, 0] S300x300.size inb_S300x300_S300x300_0_0
abbrev r1_6 : Rect S300 := Rect.unit (s := S300) ![0] S300.size inb_S300_S300_0
abbrev r1_7 : Rect S300x300 := Rect.unit (s := S300x300) ![0, 0] S300x300.size inb_S300x300_S300x300_0_0
abbrev r1_8 : Rect S300 := Rect.unit (s := S300) ![0] S300.size inb_S300_S300_0
abbrev r1_out : Rect S2000x300 := Rect.unit (s := S2000x300) ![0, 0] S2000x300.size inb_S2000x300_S2000x300_0_0

/-! ## What the body leaves in the output window's buffer -/

/-- Window 9's staging buffer after the body, from the input windows' blocks: its one store as a piece (the payloads are
    the skeleton's: the four-layer perceptron of the feature tile, then the last bias added). -/
def out1_9 (x0 : Vec F S2000x128 .f32) (x1 : Vec F S128x300 .bf16) (x2 : Vec F S300 .f32) (x3 : Vec F S300x300 .bf16) (x4 : Vec F S300 .f32) (x5 : Vec F S300x300 .bf16) (x6 : Vec F S300 .f32) (x7 : Vec F S300x300 .bf16) (x8 : Vec F S300 .f32) : Vec F S2000x300 .f32 :=
  View.canon [⟨r1_out, k1_pay1 (k1_pay2 (View.ld x0 r1_0) (View.ld x1 r1_1) (View.ld x2 r1_2) (View.ld x3 r1_3) (View.ld x4 r1_4) (View.ld x5 r1_5) (View.ld x6 r1_6) (View.ld x7 r1_7)) (k1_pay3 (View.ld x8 r1_8))⟩]

/-- The store tiles the buffer (checked by evaluation), so it covers it. -/
theorem cover1_9 (p0 : Vec F S2000x300 .f32) (y : S2000x300.Idx) :
    ∃ pc ∈ ([⟨r1_out, p0⟩] : List (View.Piece (Elt F) S2000x300 .f32)), y ∈ pc.1.set :=
  View.cover_of_tiled [⟨r1_out, p0⟩] S2000x300.size (by rfl) y

/-! ## The body's triple -/

set_option maxHeartbeats 1000000 in
/-- The kernel body on whole staging memrefs, the inputs' at read contents `xW` and the output's at anything, runs to the
    continuation holding the inputs' as they were and the output's at `out1_9` of the inputs'. The printed function calls
    its part (nine loads, returning the two payload values), loads the output buffer (the value is not used, so any
    contents will do) and stores the last payload over the whole of it. -/
theorem sound_kernel1 (c : Dev nD) (E : Set ℕ) (i : grid1.Coords) (arg1 : Memref sig .tc .vmem S2000x128 .f32) (harg1 : arg1.IsWhole) (arg2 : Memref sig .tc .vmem S128x300 .bf16) (harg2 : arg2.IsWhole) (arg3 : Memref sig .tc .vmem S300 .f32) (harg3 : arg3.IsWhole) (arg4 : Memref sig .tc .vmem S300x300 .bf16) (harg4 : arg4.IsWhole) (arg5 : Memref sig .tc .vmem S300 .f32) (harg5 : arg5.IsWhole) (arg6 : Memref sig .tc .vmem S300x300 .bf16) (harg6 : arg6.IsWhole) (arg7 : Memref sig .tc .vmem S300 .f32) (harg7 : arg7.IsWhole) (arg8 : Memref sig .tc .vmem S300x300 .bf16) (harg8 : arg8.IsWhole) (arg9 : Memref sig .tc .vmem S300 .f32) (harg9 : arg9.IsWhole) (arg10 : Memref sig .tc .vmem S2000x300 .f32) (harg10 : arg10.IsWhole)
    (x0 : Vec F S2000x128 .f32) (x1 : Vec F S128x300 .bf16) (x2 : Vec F S300 .f32) (x3 : Vec F S300x300 .bf16) (x4 : Vec F S300 .f32) (x5 : Vec F S300x300 .bf16) (x6 : Vec F S300 .f32) (x7 : Vec F S300x300 .bf16) (x8 : Vec F S300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__node_mlp_kernel i arg1 harg1 arg2 harg2 arg3 harg3 arg4 harg4 arg5 harg5 arg6 harg6 arg7 harg7 arg8 harg8 arg9 harg9 arg10 harg10) K := by
  simp only [cc1__node_mlp_kernel_eq_skeleton]; unfold cc1__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of pipeline 1 on core `c`: the arrays as the region finds them (`V`); after the body at point `t` each
    input's buffer at its block and the output's at `out1_9` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-! Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Run.lean ====
/- THE RUN of @main over its five items — the host stretch `hostOps0`, region 0 (custom_call 0), the host stretch
   `hostOps1`, region 1 (custom_call 1), the host stretch `hostOps2` —, at any float interpretation `F`: what each region
   leaves in its output array (`outs`), every pipeline's proof data at its region's entry contents (`pdats`), a region
   record per pallas_call over the thread state "every unscoped buffer at the boundary's contents, the generator register
   at some state, nothing owed" (`reg0`, `reg1`), and the launch: every weakly fair execution of @main terminates and every
   final memory holds EVERY unscoped buffer at the last boundary's contents (`run_all`); in particular the arguments end as
   launched (`frame`). -/
import proofs.«106805_j60730837565919_1_alg».proof.Proof.KI.Region0
import proofs.«106805_j60730837565919_1_alg».proof.Proof.KI.Region1
import proofs.«106805_j60730837565919_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A core's buffer contents read at the TensorCore's references (what a region's proof data take). -/
abbrev TcVal (F : FTy → Type) : Type := (c : Dev nD) → (b : Ref sig .tc) → Buf (Elt F) ((c : Thread nD τ).loc b)
/-- Region 0's entry contents, -/
abbrev T1 : TcVal F := fun c b => Gen.V1 m c b
/-- its exit contents, -/
abbrev T2 (o : Gen.Outs (F := F)) : TcVal F := fun c b => Gen.V2 m o c b
/-- region 1's entry contents, -/
abbrev T3 (o : Gen.Outs (F := F)) : TcVal F := fun c b => Gen.V3 m o c b
/-- its exit contents. -/
abbrev T4 (o : Gen.Outs (F := F)) : TcVal F := fun c b => Gen.V4 m o c b

/-! ## What the regions leave in their output arrays -/

/-- Core `c`'s buffers at region 0's exit: its arrays at what the pipeline leaves (the inputs as entered, the output's
    write-backs folded: `Dat.arrAt … N`), every other buffer as entered. -/
def X2 (c : Dev nD) : Valuation τ sig (Elt F) :=
  Pipeline.withArrays spec0 c (Gen.V1 m c) fun w => (dat0 (fun c b => Gen.V1 m c b) c).arrAt w cfg0.N
theorem X2_arr (c : Dev nD) (w : Fin cfg0.W) :
    X2 m c (Proc.devRef .tc (Pipeline.arrRef spec0 w)) = (dat0 (fun c b => Gen.V1 m c b) c).arrAt w cfg0.N := by
  unfold X2; exact Pipeline.withArrays_arr spec0 launch0.win.arr_inj c _ _ w

/-- The contents region 0 leaves, at every item: the unknowns of the valuations up to region 1's entry. -/
def outsA : Gen.Outs (F := F) := fun _ r c => X2 m c r

/-- Core `c`'s buffers at region 1's exit: its arrays at what the pipeline leaves, every other buffer as entered. -/
def X4 (c : Dev nD) : Valuation τ sig (Elt F) :=
  Pipeline.withArrays spec1 c (Gen.V3 m (outsA m) c) fun w => (dat1 (fun c b => Gen.V3 m (outsA m) c b) c).arrAt w cfg1.N
theorem X4_arr (c : Dev nD) (w : Fin cfg1.W) :
    X4 m c (Proc.devRef .tc (Pipeline.arrRef spec1 w)) = (dat1 (fun c b => Gen.V3 m (outsA m) c b) c).arrAt w cfg1.N := by
  unfold X4; exact Pipeline.withArrays_arr spec1 launch1.win.arr_inj c _ _ w

/-- THE CONTENTS THE REGIONS LEAVE: after item 1 (region 0) what pipeline 0 leaves, after item 3 (region 1) what
    pipeline 1 leaves. -/
def outs : Gen.Outs (F := F) := fun J r c => if J = 2 then X2 m c r else X4 m c r

theorem outs_two (r : Ref sig .tc) (c : Dev nD) : outs m 2 r c = X2 m c r := if_pos rfl
theorem outs_four (r : Ref sig .tc) (c : Dev nD) : outs m 4 r c = X4 m c r := if_neg (by decide)

/-- The valuations up to region 1's entry read `outs` at item 2 only. -/
theorem V2_outs (c : Dev nD) : Gen.V2 m (outs m) c = Gen.V2 m (outsA m) c := by
  exact congrArg (Function.update (Gen.V1 m c) (Proc.devRef .tc main_v23)) (outs_two m main_v23 c)
theorem V3_outs : (fun c => Gen.V3 m (outs m) c) = fun c => Gen.V3 m (outsA m) c := by
  funext c
  show StableHlo.after hostOps1 (Gen.V2 m (outs m) c) = StableHlo.after hostOps1 (Gen.V2 m (outsA m) c)
  rw [V2_outs]

theorem outs2_eq (c : Dev nD) : outs m 2 main_v23 c = (dat0 (fun c b => Gen.V1 m c b) c).arrAt 9 cfg0.N :=
  (outs_two m main_v23 c).trans (X2_arr m c 9)
theorem outs4_eq (c : Dev nD) : outs m 4 main_v31 c = (dat1 (fun c b => Gen.V3 m (outs m) c b) c).arrAt 9 cfg1.N := by
  have h := (outs_four m main_v31 c).trans (X4_arr m c 9)
  have e : T3 m (outs m) = T3 m (outsA m) := by
    funext c b; exact congrFun (congrFun (V3_outs m) c) _
  show outs m 4 main_v31 c = (dat1 (T3 m (outs m)) c).arrAt 9 cfg1.N
  rw [e]; exact h

/-! ## Each region's exit contents are the next boundary's valuation -/

/-- At region 0's exit each of its arrays holds what the pipeline leaves: an input window's array is never written and
    no other item changes it before the exit; the output window's array is the one buffer the exit valuation updates. -/
theorem hF0 (c : Dev nD) (w : Fin cfg0.W) : (dat0 (T1 m) c).arrAt w cfg0.N = T2 m (outs m) c (Pipeline.arrRef spec0 w) := by
  by_cases hw : w = 9
  · subst hw
    exact (outs2_eq m c).symm.trans (Function.update_self (f := Gen.V1 m c) (Proc.devRef .tc main_v23) (outs m 2 main_v23 c)).symm
  · have hin : (cfg0.win w).isOut = false := by revert w; decide
    have hne : Pipeline.arrRef spec0 w ∉ ([main_v23] : List (Ref sig .tc)) := by revert w; decide
    exact (((dat0 (T1 m) c).arrAt_in w hin _).trans (A_eq0 (T1 m) c w)).trans (Gen.V2_of m (outs m) c _ hne).symm
/-- Every other buffer holds what it held at entry. -/
theorem hrest0 (c : Dev nD) : ∀ b, b ∉ Finset.univ.image (Pipeline.arrRef spec0) → T2 m (outs m) c b = T1 m c b :=
  fun b hb => Gen.V2_of m (outs m) c b fun h =>
    hb (Finset.mem_image.mpr ⟨9, Finset.mem_univ _, (List.mem_singleton.mp h).symm⟩)

/-- The same at region 1's exit. -/
theorem hF1 (c : Dev nD) (w : Fin cfg1.W) : (dat1 (T3 m (outs m)) c).arrAt w cfg1.N = T4 m (outs m) c (Pipeline.arrRef spec1 w) := by
  by_cases hw : w = 9
  · subst hw
    exact (outs4_eq m c).symm.trans (Function.update_self (f := Gen.V3 m (outs m) c) (Proc.devRef .tc main_v31) (outs m 4 main_v31 c)).symm
  · have hin : (cfg1.win w).isOut = false := by revert w; decide
    have hne : Pipeline.arrRef spec1 w ∉ ([main_v31] : List (Ref sig .tc)) := by revert w; decide
    exact (((dat1 (T3 m (outs m)) c).arrAt_in w hin _).trans (A_eq1 (T3 m (outs m)) c w)).trans (Gen.V4_of m (outs m) c _ hne).symm
theorem hrest1 (c : Dev nD) : ∀ b, b ∉ Finset.univ.image (Pipeline.arrRef spec1) → T4 m (outs m) c b = T3 m (outs m) c b :=
  fun b hb => Gen.V4_of m (outs m) c b fun h =>
    hb (Finset.mem_image.mpr ⟨9, Finset.mem_univ _, (List.mem_singleton.mp h).symm⟩)

/-! ## The proof data family and the thread state -/

/-- Every pipeline's proof data, each at its region's entry contents — a literal `match`, so that the pinned
    configuration at a numeral reduces to the printed one. -/
def pdats : (p : Fin 2) → (c : Dev nD) → Dat τ (Elt F) Unit ℕ (UR sig nD τ) ℕ (cfgs p) c
  | ⟨0, _⟩ => fun c => dat0 (fun c b => Gen.V1 m c b) c
  | ⟨1, _⟩ => fun c => dat1 (fun c b => Gen.V3 m (outs m) c b) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class
    invariant takes it in and gives it back) and its `owes`, at nothing. -/
abbrev R (c : Dev nD) : sProp 𝕄 := iprop((∃ r, prngReg c r) ∗ ∃ W, owes (c : Thread nD τ) (0 : CellTallies nD τ sig Unit) W)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at the boundary's contents before
    it, left at the contents after it (what the next host stretch is entered from). Its arrays split out of the unscoped
    buffers and put back at the exit contents; the generator register into the class invariant and out; nothing owed;
    no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m (outs m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at the boundary's contents before
    it, left at the contents after it (what the next host stretch is entered from). Its arrays split out of the unscoped
    buffers and put back at the exit contents; the generator register into the class invariant and out; nothing owed;
    no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m (outs m)) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (T3 m (outs m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m (outs m) c) (T4 m (outs m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's five segments in order: a host segment per stretch from its boundary's contents, a region per pallas_call. -/
abbrev segs (c : Dev nD) : List (Seg (pcfgs (F := F)) adm (pdats m) () defs₀ 𝒱₀ L lv) :=
  Gen.segs m (outs m) 𝒱₀ L lv (fun _ c => R c) () (pdats m) (reg0 m) (reg1 m) c

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has EVERY unscoped buffer at the last boundary's
    contents `Gen.V5 m (outs m)`: the launch memory folded through the three host stretches and the two regions' outputs. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = Gen.V5 m (outs m) c b) :=
  Pipeline.θ_run_regions_kit_dev (pcfgs (F := F)) adm (pdats m) () cellOf_inj emb₁ defs₀ 𝒱₀ L lv m ρ main (segs m)
    (fun c Q => by
      rewrite [main_chain c, Seg.run_eq_chain,
        show (segs m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V5 m (outs m) c) ∗ ∃ r, prngReg c r))
    (hch := fun c => ⟨.rfl, .rfl, .rfl, .rfl, .rfl,
      show (iprop(StableHlo.held (c : Thread nD τ) (Pipeline.ucRefs τ sig) (Gen.V5 m (outs m) c) ∗ R c) : sProp 𝕄)
          ⊢ iprop((StableHlo.held (c : Thread nD τ) (Pipeline.ucRefs τ sig) (Gen.V5 m (outs m) c) ∗ ∃ r, prngReg c r)
            ∗ ∃ W, owes (c : Thread nD τ) (0 : CellTallies nD τ sig Unit) W) from by
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V5 m (outs m) c) s')
      isplitl [Hh] <;> iassumption)
    (hQ := fun s h c => h c)

/-- THE FRAME: every weakly fair execution of @main terminates and every final state has the argument arrays as launched —
    each argument read off the last boundary's contents, which no host stretch writes and no region may change. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run _ _ _).mono (fun r h c =>
     ⟨(h c _ (mem_uc main_arg0 (by decide))).trans (Gen.V5_main_arg0 m (outs m) c),
      (h c _ (mem_uc main_arg1 (by decide))).trans (Gen.V5_main_arg1 m (outs m) c),
      (h c _ (mem_uc main_arg2 (by decide))).trans (Gen.V5_main_arg2 m (outs m) c),
      (h c _ (mem_uc main_arg3 (by decide))).trans (Gen.V5_main_arg3 m (outs m) c),
      (h c _ (mem_uc main_arg4 (by decide))).trans (Gen.V5_main_arg4 m (outs m) c),
      (h c _ (mem_uc main_arg5 (by decide))).trans (Gen.V5_main_arg5 m (outs m) c),
      (h c _ (mem_uc main_arg6 (by decide))).trans (Gen.V5_main_arg6 m (outs m) c),
      (h c _ (mem_uc main_arg7 (by decide))).trans (Gen.V5_main_arg7 m (outs m) c),
      (h c _ (mem_uc main_arg8 (by decide))).trans (Gen.V5_main_arg8 m (outs m) c),
      (h c _ (mem_uc main_arg9 (by decide))).trans (Gen.V5_main_arg9 m (outs m) c),
      (h c _ (mem_uc main_arg10 (by decide))).trans (Gen.V5_main_arg10 m (outs m) c),
      (h c _ (mem_uc main_arg11 (by decide))).trans (Gen.V5_main_arg11 m (outs m) c),
      (h c _ (mem_uc main_arg12 (by decide))).trans (Gen.V5_main_arg12 m (outs m) c),
      (h c _ (mem_uc main_arg13 (by decide))).trans (Gen.V5_main_arg13 m (outs m) c),
      (h c _ (mem_uc main_arg14 (by decide))).trans (Gen.V5_main_arg14 m (outs m) c),
      (h c _ (mem_uc main_arg15 (by decide))).trans (Gen.V5_main_arg15 m (outs m) c),
      (h c _ (mem_uc main_arg16 (by decide))).trans (Gen.V5_main_arg16 m (outs m) c),
      (h c _ (mem_uc main_arg17 (by decide))).trans (Gen.V5_main_arg17 m (outs m) c),
      (h c _ (mem_uc main_arg18 (by decide))).trans (Gen.V5_main_arg18 m (outs m) c),
      (h c _ (mem_uc main_arg19 (by decide))).trans (Gen.V5_main_arg19 m (outs m) c),
      (h c _ (mem_uc main_arg20 (by decide))).trans (Gen.V5_main_arg20 m (outs m) c),
      (h c _ (mem_uc main_arg21 (by decide))).trans (Gen.V5_main_arg21 m (outs m) c)⟩) (run_all m ρ)

end Cert.KernelIdeal.Fr

end
-- ==== Proof.Spec.lean ====
/-
  The network's dense stages as plain functions on the extended reals, every extent generic.

  One dense layer sends a matrix of rows `x` to `x · w + b`: entry (p, q) is the sum over the contracted axis k of
  `x p k * w k q`, plus the bias `b q`. The rectifier replaces every entry by its maximum with zero. The four-layer
  perceptron is dense, rectifier, dense, rectifier, dense, rectifier, dense. Every stage acts on each ROW of its input
  alone: row p of the result is a function of row p of the input and of the weights. That is what lets a matrix be
  processed tile of rows by tile of rows: the rows of a tile, pushed through the perceptron, are the tile's rows of the
  whole matrix pushed through it.
-/
import Idealize.ShloMosaic.PureOps.Ideal

noncomputable section

namespace Cert.Spec

open BigOperators

variable {a a' K K1 K2 K3 N : ℕ}

/-- A dense layer: entry (p, q) of `x · w + b`. -/
def dense (x : Fin a → Fin K → EReal) (w : Fin K → Fin N → EReal) (b : Fin N → EReal) : Fin a → Fin N → EReal :=
  fun p q => (∑ k : Fin K, x p k * w k q) + b q

/-- The rectifier, entry by entry. -/
def relu (z : Fin a → Fin N → EReal) : Fin a → Fin N → EReal := fun p q => max (z p q) 0

/-- The four-layer perceptron: three rectified dense layers and a last dense layer. -/
def mlp4 (x : Fin a → Fin K → EReal)
    (w1 : Fin K → Fin K1 → EReal) (b1 : Fin K1 → EReal) (w2 : Fin K1 → Fin K2 → EReal) (b2 : Fin K2 → EReal)
    (w3 : Fin K2 → Fin K3 → EReal) (b3 : Fin K3 → EReal) (w4 : Fin K3 → Fin N → EReal) (b4 : Fin N → EReal) :
    Fin a → Fin N → EReal :=
  dense (relu (dense (relu (dense (relu (dense x w1 b1)) w2 b2)) w3 b3)) w4 b4

/-- A dense layer's row p depends on row p of its input alone. -/
theorem dense_row (x : Fin a → Fin K → EReal) (x' : Fin a' → Fin K → EReal) (w : Fin K → Fin N → EReal) (b : Fin N → EReal)
    (p : Fin a) (p' : Fin a') (h : ∀ k, x p k = x' p' k) (q : Fin N) : dense x w b p q = dense x' w b p' q := by
  unfold dense
  exact congrArg (· + b q) (Finset.sum_congr rfl fun k _ => by rw [h k])

/-- So does the rectifier's. -/
theorem relu_row (z : Fin a → Fin N → EReal) (z' : Fin a' → Fin N → EReal) (p : Fin a) (p' : Fin a')
    (h : ∀ q, z p q = z' p' q) (q : Fin N) : relu z p q = relu z' p' q := by
  unfold relu
  rw [h q]

/-- And so the perceptron's: two matrices that agree on one row have equal results on that row. -/
theorem mlp4_row (x : Fin a → Fin K → EReal) (x' : Fin a' → Fin K → EReal)
    (w1 : Fin K → Fin K1 → EReal) (b1 : Fin K1 → EReal) (w2 : Fin K1 → Fin K2 → EReal) (b2 : Fin K2 → EReal)
    (w3 : Fin K2 → Fin K3 → EReal) (b3 : Fin K3 → EReal) (w4 : Fin K3 → Fin N → EReal) (b4 : Fin N → EReal)
    (p : Fin a) (p' : Fin a') (h : ∀ k, x p k = x' p' k) (q : Fin N) :
    mlp4 x w1 b1 w2 b2 w3 b3 w4 b4 p q = mlp4 x' w1 b1 w2 b2 w3 b3 w4 b4 p' q := by
  unfold mlp4
  refine dense_row _ _ w4 b4 p p' (fun k3 => ?_) q
  refine relu_row _ _ p p' (fun k3 => ?_) k3
  refine dense_row _ _ w3 b3 p p' (fun k2 => ?_) k3
  refine relu_row _ _ p p' (fun k2 => ?_) k2
  refine dense_row _ _ w2 b2 p p' (fun k1 => ?_) k2
  refine relu_row _ _ p p' (fun k1 => ?_) k1
  exact dense_row _ _ w1 b1 p p' h k1

end Cert.Spec

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«106805_j60730837565919_1_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTileOps.lean ====
/-
  The layout chains of a tile body, read at an entry.

  A body that works on an `[a, b]` tile against per-column parameters meets a handful of chains of layout
  operations again and again: a `[b]` vector recast to the row `[1, b]` and broadcast down the tile's rows; one row of a
  `[m, b]` block sliced out, flattened, recast and broadcast the same way; one `[1, a, b]` slab of an `[m, a, b]` stack
  loaded through its rectangle and recast to the matrix `[a, b]`; a row sum recast to a column and broadcast across the
  tile's columns. Each lemma reads one chain at the entry `(p, c)` as the operand at the evident index.
-/
import Idealize.ShloMosaic.PureOps.Ideal.Laws
import Idealize.ShloMosaic.Lib.ValueIdx
import Idealize.ShloMosaic.Lib.ValueLayout
import Idealize.ShloMosaic.Lib.Pipeline.Value
import proofs.«106805_j60730837565919_1_alg».proof.Proof.LibRowOps

namespace Hmu.Lib

open Idealize.ShloMosaic Idealize.ShloMosaic.ValueIdx

variable {a b m : ℕ} {α : Type}

/-- A `[b]` vector recast to the row `[1, b]` and broadcast over `[a, b]` reads, at `(p, c)`, the vector at `c`. -/
theorem rowVec_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The same with a cast of the vector to its own shape first. -/
theorem rowVec_self_apply (v : (⟨1, ![b]⟩ : Shape).Idx → α) (h0 : (⟨1, ![b]⟩ : Shape).ShapeCasts ⟨1, ![b]⟩)
    (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h0) h1) h2 (ix2 p c) = v (ix1 c) := by
  rw [shapeCast_self]; exact rowVec_apply v h1 h2 p c

/-- Row `k` of an `[m, b]` block, sliced out as `[1, b]` at the literal offset `o = k`, flattened to `[b]`, recast to `[1, b]` and
    broadcast over `[a, b]`, reads at `(p, c)` the block at `(k, c)`. -/
theorem blockRow_apply (v : (⟨2, ![m, b]⟩ : Shape).Idx → α) (o : ℕ) (k : Fin m) (hk : k.val = o)
    (hs : (⟨2, ![m, b]⟩ : Shape).Slices ![o, 0] ⟨2, ![1, b]⟩)
    (h0 : (⟨2, ![1, b]⟩ : Shape).ShapeCasts ⟨1, ![b]⟩) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ (extractStridedSlice ⟨2, ![1, b]⟩ ![o, 0] v hs) h0) h1) h2 (ix2 p c)
      = v (ix2 k c) :=
  (rowVec_apply _ h1 h2 p c).trans <| (shapeCast_1a_a_apply _ h0 c).trans <|
    slice2_axis0_apply o v hs (0 : Fin 1) c k (by simp [hk])

/-- A row sum of an `[a, b]` tile, recast to the column `[a, 1]` and broadcast over `[a, b]`, reads at `(p, c)` the sum of
    row `p`. -/
theorem rowSumCol_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ v 0x00000000#32 h hφ hacc) h1) h2 (ix2 p c)
      = ∑ k : Fin b, v (ix2 p k) :=
  (Gcn.Lib.broadcastTo_a1_ab_apply _ h2 p c).trans <| (Gcn.Lib.shapeCast_a_a1_apply _ h1 p 0).trans <|
    Gcn.Lib.rowSum_apply v h hφ hacc p

/-- Slab `k` of an `[m, a, b]` stack, loaded through the rectangle of extents `[1, a, b]` at the literal offsets `[o, 0, 0]`,
    `o = k`, reads at `(0, i, j)` the stack at `(k, i, j)`. -/
theorem ld_slab {Val : EltTy → Type} {e : EltTy} (x : (⟨3, ![m, a, b]⟩ : Shape).Idx → Val e) (o : ℕ) (k : Fin m) (hk : k.val = o)
    (inb : ∀ ax, (![o, 0, 0] : Fin 3 → ℕ) ax + (⟨3, ![1, a, b]⟩ : Shape).size ax ≤ (⟨3, ![m, a, b]⟩ : Shape).size ax)
    (i : Fin a) (j : Fin b) :
    View.ld (Val := Val) x (Rect.unit (s := ⟨3, ![m, a, b]⟩) ![o, 0, 0] (⟨3, ![1, a, b]⟩ : Shape).size inb) (ix3 (0 : Fin 1) i j)
      = x (ix3 k i j) := by
  show x ((Rect.unit (s := ⟨3, ![m, a, b]⟩) ![o, 0, 0] (⟨3, ![1, a, b]⟩ : Shape).size inb).idx (ix3 (0 : Fin 1) i j)) = _
  refine congrArg x (funext fun ax => Fin.ext ?_)
  match ax with
  | ⟨0, _⟩ => show o + 1 * 0 = k.val; omega
  | ⟨1, _⟩ => show 0 + 1 * i.val = i.val; omega
  | ⟨2, _⟩ => show 0 + 1 * j.val = j.val; omega

end Hmu.Lib
-- ==== Proof.LibDenseTile.lean ====
/-
  One dense layer of a row tile, read at an entry.

  A dense layer takes an [a, K] tile of rows `x`, a [K, N] weight `w` and an [N] bias `b` to `x · w + b`: the matrix
  product accumulated into the zero tile, plus the bias recast to the row [1, N] and broadcast down the tile's a rows.
  At the extended reals every operation is exact, so entry (p, q) of the layer is the sum over the contracted axis k of
  `x (p, k) * w (k, q)`, plus `b q`; a rectified layer takes the maximum of that entry with the zero scalar broadcast
  over the tile, which is the extended real 0. Both lemmas take the layer's input through a description `X` of its
  entries (`x (p, k) = X p k`), so that layers compose: the description of one layer's result is the next one's input.
  The extents a, K, N and the product's record are generic: any record whose six axis lists are the plain product's.
-/
import Idealize.ShloMosaic.PureOps.Ideal.Laws
import Idealize.ShloMosaic.Lib.ValueIdx
import Idealize.ShloMosaic.Lib.ValueLayout
import Idealize.ShloMosaic.Lib.Pipeline.Value
import proofs.«106805_j60730837565919_1_alg».proof.Proof.LibDotRecord
import proofs.«106805_j60730837565919_1_alg».proof.Proof.LibTileOps

namespace DenseTile

open Idealize.ShloMosaic Idealize.ShloMosaic.ValueIdx
open scoped BigOperators

variable {a K N : ℕ}

/-- The zero scalar of a rectifier, broadcast over a tile, reads the extended real 0 at every entry. -/
theorem zero_splat_apply (s : Shape) (i : s.Idx) :
    broadcast s (Scalar.ofBits (F := Ideal) .f32 0x00000000#32) i = (0 : EReal) :=
  Ideal.ofBits_zero_f32

/-- A dense layer at entry (p, q): the product of the input tile and the weight (cast to its own shape) accumulated into
    zero, plus the bias row broadcast down the rows, is the sum over k of `X p k * w (k, q)`, plus `b q`. -/
theorem dense_apply {φ₁ φ₂ : FTy} (d : DotDims ⟨2, ![a, K]⟩ ⟨2, ![K, N]⟩ ⟨2, ![a, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (x : FVec Ideal ⟨2, ![a, K]⟩ φ₁) (w : FVec Ideal ⟨2, ![K, N]⟩ φ₂) (b : FVec Ideal ⟨1, ![N]⟩ .f32)
    (hw : (⟨2, ![K, N]⟩ : Shape).ShapeCasts ⟨2, ![K, N]⟩)
    (hb1 : (⟨1, ![N]⟩ : Shape).ShapeCasts ⟨2, ![1, N]⟩) (hb2 : (⟨2, ![1, N]⟩ : Shape).Broadcasts ⟨2, ![a, N]⟩)
    (X : Fin a → Fin K → EReal) (hX : ∀ r k, x (ix2 r k) = X r k) (p : Fin a) (q : Fin N) :
    addf (matmul d prec x (shapeCast ⟨2, ![K, N]⟩ w hw) (constant ⟨2, ![a, N]⟩ .f32 0x00000000#32))
        (broadcastTo ⟨2, ![a, N]⟩ (shapeCast ⟨2, ![1, N]⟩ b hb1) hb2) (ix2 p q)
      = (∑ k : Fin K, X p k * w (ix2 k q)) + b (ix1 q) := by
  rw [addf_apply, shapeCast_self, Hmu.Lib.rowVec_apply b hb1 hb2 p q]
  refine congrArg (· + b (ix1 q)) ?_
  refine (DotRecord.matmul_zero_apply d h1 h2 h3 h4 h5 h6 x w prec p q).trans ?_
  exact Finset.sum_congr rfl fun k _ => by rw [hX p k]

/-- A rectified dense layer at entry (p, q): the maximum of the dense layer's entry with 0. -/
theorem relu_dense_apply {φ₁ φ₂ : FTy} (d : DotDims ⟨2, ![a, K]⟩ ⟨2, ![K, N]⟩ ⟨2, ![a, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (x : FVec Ideal ⟨2, ![a, K]⟩ φ₁) (w : FVec Ideal ⟨2, ![K, N]⟩ φ₂) (b : FVec Ideal ⟨1, ![N]⟩ .f32)
    (hw : (⟨2, ![K, N]⟩ : Shape).ShapeCasts ⟨2, ![K, N]⟩)
    (hb1 : (⟨1, ![N]⟩ : Shape).ShapeCasts ⟨2, ![1, N]⟩) (hb2 : (⟨2, ![1, N]⟩ : Shape).Broadcasts ⟨2, ![a, N]⟩)
    (X : Fin a → Fin K → EReal) (hX : ∀ r k, x (ix2 r k) = X r k) (p : Fin a) (q : Fin N) :
    maximumf
        (addf (matmul d prec x (shapeCast ⟨2, ![K, N]⟩ w hw) (constant ⟨2, ![a, N]⟩ .f32 0x00000000#32))
          (broadcastTo ⟨2, ![a, N]⟩ (shapeCast ⟨2, ![1, N]⟩ b hb1) hb2))
        (broadcast ⟨2, ![a, N]⟩ (Scalar.ofBits (F := Ideal) .f32 0x00000000#32)) (ix2 p q)
      = max ((∑ k : Fin K, X p k * w (ix2 k q)) + b (ix1 q)) 0 := by
  rw [maximumf_apply, zero_splat_apply, dense_apply d h1 h2 h3 h4 h5 h6 prec x w b hw hb1 hb2 X hX p q]

end DenseTile
-- ==== Proof.KI.Tile0.lean ====
/-
  The value of the edge perceptron's tile body at an entry.

  The body reads a [2000, 40] tile of feature rows, four weights [40, 300], [300, 300], [300, 300], [300, 128] and four
  biases, and stores a [2000, 128] tile: three rectified dense layers and a last dense layer, each layer's input passed
  through a change of float format first. At the extended reals a change of format is the identity and every operation
  is exact, so entry (p, q) of the stored tile is entry (p, q) of the four-layer perceptron of the tile's rows: the
  layers are peeled from the last to the first, each one read by the dense-layer lemma against the description of its
  input that the layers before it give.
-/
import proofs.«106805_j60730837565919_1_alg».proof.Proof.Gen.KernelIdeal.Skeleton
import proofs.«106805_j60730837565919_1_alg».proof.Proof.Spec
import proofs.«106805_j60730837565919_1_alg».proof.Proof.LibDotRecord
import proofs.«106805_j60730837565919_1_alg».proof.Proof.LibTileOps
import proofs.«106805_j60730837565919_1_alg».proof.Proof.LibDenseTile
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal.Gen
open scoped BigOperators

/-- Entry (p, q) of the tile the body stores is the perceptron of the tile's rows at (p, q). -/
theorem pay0_apply (x0 : Vec Ideal S2000x40 .f32) (x1 : Vec Ideal S40x300 .bf16) (x2 : Vec Ideal S300 .f32)
    (x3 : Vec Ideal S300x300 .bf16) (x4 : Vec Ideal S300 .f32) (x5 : Vec Ideal S300x300 .bf16) (x6 : Vec Ideal S300 .f32)
    (x7 : Vec Ideal S300x128 .bf16) (x8 : Vec Ideal S128 .f32) (p : Fin 2000) (q : Fin 128) :
    k0_pay1 (F := Ideal) (k0_pay2 x0 x1 x2 x3 x4 x5 x6 x7) (k0_pay3 x8) (ix2 p q)
      = Cert.Spec.mlp4 (fun (r : Fin 2000) (k : Fin 40) => x0 (ix2 r k)) (fun (k : Fin 40) (n : Fin 300) => x1 (ix2 k n))
          (fun n : Fin 300 => x2 (ix1 n)) (fun (k : Fin 300) (n : Fin 300) => x3 (ix2 k n)) (fun n : Fin 300 => x4 (ix1 n))
          (fun (k : Fin 300) (n : Fin 300) => x5 (ix2 k n)) (fun n : Fin 300 => x6 (ix1 n))
          (fun (k : Fin 300) (n : Fin 128) => x7 (ix2 k n)) (fun n : Fin 128 => x8 (ix1 n)) p q := by
  unfold k0_pay1 k0_pay2 k0_pay3
  -- the last dense layer, against the third rectified layer's entries
  refine DenseTile.dense_apply dot_S2000x300_S300x128_S2000x128_1_0_0_1_n_n rfl rfl rfl rfl rfl rfl none _ x7 x8 _ _ _
    (Cert.Spec.relu (Cert.Spec.dense (Cert.Spec.relu (Cert.Spec.dense (Cert.Spec.relu (Cert.Spec.dense
      (fun (r : Fin 2000) (k : Fin 40) => x0 (ix2 r k)) (fun (k : Fin 40) (n : Fin 300) => x1 (ix2 k n)) (fun n : Fin 300 => x2 (ix1 n))))
      (fun (k : Fin 300) (n : Fin 300) => x3 (ix2 k n)) (fun n : Fin 300 => x4 (ix1 n))))
      (fun (k : Fin 300) (n : Fin 300) => x5 (ix2 k n)) (fun n : Fin 300 => x6 (ix1 n))))
    (fun r k => ?_) p q
  -- the third rectified layer, against the second's
  refine Eq.trans (truncf_apply _ _ (ix2 r k)) ?_
  refine DenseTile.relu_dense_apply dot_S2000x300_S300x300_S2000x300_1_0_0_1_n_n rfl rfl rfl rfl rfl rfl none _ x5 x6 _ _ _
    (Cert.Spec.relu (Cert.Spec.dense (Cert.Spec.relu (Cert.Spec.dense
      (fun (r : Fin 2000) (k : Fin 40) => x0 (ix2 r k)) (fun (k : Fin 40) (n : Fin 300) => x1 (ix2 k n)) (fun n : Fin 300 => x2 (ix1 n))))
      (fun (k : Fin 300) (n : Fin 300) => x3 (ix2 k n)) (fun n : Fin 300 => x4 (ix1 n))))
    (fun r k => ?_) r k
  -- the second, against the first's
  refine Eq.trans (truncf_apply _ _ (ix2 r k)) ?_
  refine DenseTile.relu_dense_apply dot_S2000x300_S300x300_S2000x300_1_0_0_1_n_n rfl rfl rfl rfl rfl rfl none _ x3 x4 _ _ _
    (Cert.Spec.relu (Cert.Spec.dense
      (fun (r : Fin 2000) (k : Fin 40) => x0 (ix2 r k)) (fun (k : Fin 40) (n : Fin 300) => x1 (ix2 k n)) (fun n : Fin 300 => x2 (ix1 n))))
    (fun r k => ?_) r k
  -- the first, against the tile's own entries: the cast to the tile's own shape and the change of format are the identity
  refine Eq.trans (truncf_apply _ _ (ix2 r k)) ?_
  refine DenseTile.relu_dense_apply dot_S2000x40_S40x300_S2000x300_1_0_0_1_n_n rfl rfl rfl rfl rfl rfl none _ x1 x2 _ _ _
    (fun (r : Fin 2000) (k : Fin 40) => x0 (ix2 r k)) (fun r k => ?_) r k
  refine Eq.trans (truncf_apply _ _ (ix2 r k)) ?_
  rw [shapeCast_self]

end Cert.KernelIdeal.Tile

end
-- ==== Proof.KI.Array0.lean ====
/-
  Region 0 of the kernel's program, read as a value at the extended reals: the array its output window leaves.

  The region walks 400 tiles of 2000 rows. At tile t the body is handed rows t·2000 … t·2000+1999 of the edge-feature array
  and, whole, the four weight matrices and the four bias vectors; what it stores is, entry by entry, the four-layer
  perceptron of the tile's rows. The perceptron acts on each row alone, so the tile's result is the tile's rows of
  the perceptron of the WHOLE input; the tiles cover every row exactly once (row r lies in tile r / 2000), so after
  the last tile the output array is `msgArr`: row r is the message of edge r.
-/
import proofs.«106805_j60730837565919_1_alg».proof.Proof.KI.Region0
import proofs.«106805_j60730837565919_1_alg».proof.Proof.KI.Tile0
import proofs.«106805_j60730837565919_1_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-- Row r of this array is the perceptron of row r of the region's input array, under the region's weights and biases
    as the region finds them. -/
def msgArr (c : Dev nD) : S800000x128.Idx → EReal := fun i =>
  Cert.Spec.mlp4 (fun (p : Fin 800000) (k : Fin 40) => (V c main_v18 (ix2 p k) : EReal))
    (fun (k : Fin 40) (n : Fin 300) => (V c main_v19 (ix2 k n) : EReal)) (fun n : Fin 300 => (V c main_arg5 (ix1 n) : EReal))
    (fun (k : Fin 300) (n : Fin 300) => (V c main_v20 (ix2 k n) : EReal)) (fun n : Fin 300 => (V c main_arg7 (ix1 n) : EReal))
    (fun (k : Fin 300) (n : Fin 300) => (V c main_v21 (ix2 k n) : EReal)) (fun n : Fin 300 => (V c main_arg9 (ix1 n) : EReal))
    (fun (k : Fin 300) (n : Fin 128) => (V c main_v22 (ix2 k n) : EReal)) (fun n : Fin 128 => (V c main_arg11 (ix1 n) : EReal))
    (i 0) (i 1)

theorem hz2_0 : (![0, 0] : Fin 2 → Nat) = fun _ => 0 := funext fun a => by fin_cases a <;> rfl
theorem hz1_0 : (![0] : Fin 1 → Nat) = fun _ => 0 := funext fun a => by fin_cases a <;> rfl

/-- The printed block index maps, decided over the grid: the input tile and the output tile sit at row block t, every
    weight and bias block at 0. -/
theorem idx_facts0 : ∀ t : Fin cfg0.N, win0_0.index t (0 : Fin 2) = t.val
    ∧ win0_0.index t (1 : Fin 2) = 0
    ∧ win0_9.index t (0 : Fin 2) = t.val
    ∧ win0_9.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0 :=
  (by decide +kernel : ∀ t : Fin grid0.N, _)

/-- The input tile at point t is rows t·2000 … t·2000+1999 of the input array. -/
theorem blk0_0 (c : Dev nD) (t : Fin cfg0.N) (p : Fin 2000) (k : Fin 40) (r : Fin 800000) (hr : r.val = t.val * 2000 + p.val) :
    iblk0 V c 0 t (ix2 p k) = V c main_v18 (ix2 r k) := by
  unfold iblk0
  show V c main_v18 (((cfg0.win 0).blk t).view.emb (ix2 p k)) = V c main_v18 (ix2 r k)
  refine congrArg _ (funext fun a => Fin.ext ?_)
  obtain ⟨e0, e1, -⟩ := idx_facts0 t
  match a with
  | ⟨0, _⟩ => show win0_0.index t (0 : Fin 2) * 2000 + 1 * p.val = r.val; omega
  | ⟨1, _⟩ => show win0_0.index t (1 : Fin 2) * 40 + 1 * k.val = k.val; omega

/-! Every weight and bias block is its whole array, at every point. -/
theorem blk0_1 (c : Dev nD) (t : Fin cfg0.N) (k : Fin 40) (n : Fin 300) : iblk0 V c 1 t (ix2 k n) = V c main_v19 (ix2 k n) := by
  unfold iblk0
  show V c main_v19 (((cfg0.win 1).blk t).view.emb (ix2 k n)) = V c main_v19 (ix2 k n)
  refine congrArg _ (funext fun a => Fin.ext ?_)
  obtain ⟨-, -, -, -, e0, e1, -⟩ := idx_facts0 t
  match a with
  | ⟨0, _⟩ => show win0_1.index t (0 : Fin 2) * 40 + 1 * k.val = k.val; omega
  | ⟨1, _⟩ => show win0_1.index t (1 : Fin 2) * 300 + 1 * n.val = n.val; omega
theorem blk0_2 (c : Dev nD) (t : Fin cfg0.N) (n : Fin 300) : iblk0 V c 2 t (ix1 n) = V c main_arg5 (ix1 n) := by
  unfold iblk0
  show V c main_arg5 (((cfg0.win 2).blk t).view.emb (ix1 n)) = V c main_arg5 (ix1 n)
  refine congrArg _ (funext fun a => Fin.ext ?_)
  obtain ⟨-, -, -, -, -, -, e0, -⟩ := idx_facts0 t
  match a with
  | ⟨0, _⟩ => show win0_2.index t (0 : Fin 1) * 300 + 1 * n.val = n.val; omega
theorem blk0_3 (c : Dev nD) (t : Fin cfg0.N) (k : Fin 300) (n : Fin 300) : iblk0 V c 3 t (ix2 k n) = V c main_v20 (ix2 k n) := by
  unfold iblk0
  show V c main_v20 (((cfg0.win 3).blk t).view.emb (ix2 k n)) = V c main_v20 (ix2 k n)
  refine congrArg _ (funext fun a => Fin.ext ?_)
  obtain ⟨-, -, -, -, -, -, -, e0, e1, -⟩ := idx_facts0 t
  match a with
  | ⟨0, _⟩ => show win0_3.index t (0 : Fin 2) * 300 + 1 * k.val = k.val; omega
  | ⟨1, _⟩ => show win0_3.index t (1 : Fin 2) * 300 + 1 * n.val = n.val; omega
theorem blk0_4 (c : Dev nD) (t : Fin cfg0.N) (n : Fin 300) : iblk0 V c 4 t (ix1 n) = V c main_arg7 (ix1 n) := by
  unfold iblk0
  show V c main_arg7 (((cfg0.win 4).blk t).view.emb (ix1 n)) = V c main_arg7 (ix1 n)
  refine congrArg _ (funext fun a => Fin.ext ?_)
  obtain ⟨-, -, -, -, -, -, -, -, -, e0, -⟩ := idx_facts0 t
  match a with
  | ⟨0, _⟩ => show win0_4.index t (0 : Fin 1) * 300 + 1 * n.val = n.val; omega
theorem blk0_5 (c : Dev nD) (t : Fin cfg0.N) (k : Fin 300) (n : Fin 300) : iblk0 V c 5 t (ix2 k n) = V c main_v21 (ix2 k n) := by
  unfold iblk0
  show V c main_v21 (((cfg0.win 5).blk t).view.emb (ix2 k n)) = V c main_v21 (ix2 k n)
  refine congrArg _ (funext fun a => Fin.ext ?_)
  obtain ⟨-, -, -, -, -, -, -, -, -, -, e0, e1, -⟩ := idx_facts0 t
  match a with
  | ⟨0, _⟩ => show win0_5.index t (0 : Fin 2) * 300 + 1 * k.val = k.val; omega
  | ⟨1, _⟩ => show win0_5.index t (1 : Fin 2) * 300 + 1 * n.val = n.val; omega
theorem blk0_6 (c : Dev nD) (t : Fin cfg0.N) (n : Fin 300) : iblk0 V c 6 t (ix1 n) = V c main_arg9 (ix1 n) := by
  unfold iblk0
  show V c main_arg9 (((cfg0.win 6).blk t).view.emb (ix1 n)) = V c main_arg9 (ix1 n)
  refine congrArg _ (funext fun a => Fin.ext ?_)
  obtain ⟨-, -, -, -, -, -, -, -, -, -, -, -, e0, -⟩ := idx_facts0 t
  match a with
  | ⟨0, _⟩ => show win0_6.index t (0 : Fin 1) * 300 + 1 * n.val = n.val; omega
theorem blk0_7 (c : Dev nD) (t : Fin cfg0.N) (k : Fin 300) (n : Fin 128) : iblk0 V c 7 t (ix2 k n) = V c main_v22 (ix2 k n) := by
  unfold iblk0
  show V c main_v22 (((cfg0.win 7).blk t).view.emb (ix2 k n)) = V c main_v22 (ix2 k n)
  refine congrArg _ (funext fun a => Fin.ext ?_)
  obtain ⟨-, -, -, -, -, -, -, -, -, -, -, -, -, e0, e1, -⟩ := idx_facts0 t
  match a with
  | ⟨0, _⟩ => show win0_7.index t (0 : Fin 2) * 300 + 1 * k.val = k.val; omega
  | ⟨1, _⟩ => show win0_7.index t (1 : Fin 2) * 128 + 1 * n.val = n.val; omega
theorem blk0_8 (c : Dev nD) (t : Fin cfg0.N) (n : Fin 128) : iblk0 V c 8 t (ix1 n) = V c main_arg11 (ix1 n) := by
  unfold iblk0
  show V c main_arg11 (((cfg0.win 8).blk t).view.emb (ix1 n)) = V c main_arg11 (ix1 n)
  refine congrArg _ (funext fun a => Fin.ext ?_)
  obtain ⟨-, -, -, -, -, -, -, -, -, -, -, -, -, -, -, e0⟩ := idx_facts0 t
  match a with
  | ⟨0, _⟩ => show win0_8.index t (0 : Fin 1) * 128 + 1 * n.val = n.val; omega

/-- What point t writes back is block t of `msgArr`. -/
theorem flushed0_eq (c : Dev nD) (t : Fin cfg0.N) :
    (dat0 V c).flushed 9 t = ((cfg0.win 9).blk t).view.read (Elt Ideal) (msgArr V c) := by
  show (cfg0.win 9).cut (grid0.coords t) ((dat0 V c).after 9 t) = _
  rw [after0_9]
  unfold out0_9
  rw [View.canon_unit_zero hz2_0]
  simp only [View.ld_unit_zero (S := S2000x40) hz2_0, View.ld_unit_zero (S := S40x300) hz2_0, View.ld_unit_zero (S := S300x300) hz2_0, View.ld_unit_zero (S := S300x128) hz2_0, View.ld_unit_zero (S := S300) hz1_0, View.ld_unit_zero (S := S128) hz1_0]
  funext j
  obtain ⟨p, q, rfl⟩ : ∃ (p : Fin 2000) (q : Fin 128), j = ix2 p q := ⟨j 0, j 1, eq_ix2 j⟩
  have ht : t.val < 400 := N_0 ▸ t.isLt
  obtain ⟨-, -, e0, e1, -⟩ := idx_facts0 t
  have hemb : ((cfg0.win 9).blk t).view.emb (ix2 p q) = ix2 (⟨t.val * 2000 + p.val, by have := p.isLt; omega⟩ : Fin 800000) q := by
    funext a; apply Fin.ext
    match a with
    | ⟨0, _⟩ => show win0_9.index t (0 : Fin 2) * 2000 + 1 * p.val = t.val * 2000 + p.val; omega
    | ⟨1, _⟩ => show win0_9.index t (1 : Fin 2) * 128 + 1 * q.val = q.val; omega
  show k0_pay1 (F := Ideal) (k0_pay2 (iblk0 V c 0 t) (iblk0 V c 1 t) (iblk0 V c 2 t) (iblk0 V c 3 t) (iblk0 V c 4 t) (iblk0 V c 5 t) (iblk0 V c 6 t) (iblk0 V c 7 t)) (k0_pay3 (iblk0 V c 8 t)) (ix2 p q)
      = msgArr V c (((cfg0.win 9).blk t).view.emb (ix2 p q))
  rw [hemb]
  refine (Cert.KernelIdeal.Tile.pay0_apply _ _ _ _ _ _ _ _ _ p q).trans ?_
  unfold msgArr
  simp only [blk0_1 V c t, blk0_2 V c t, blk0_3 V c t, blk0_4 V c t, blk0_5 V c t, blk0_6 V c t, blk0_7 V c t, blk0_8 V c t]
  exact Cert.Spec.mlp4_row _ _ _ _ _ _ _ _ _ _ p _ (fun k => blk0_0 V c t p k _ rfl) q

/-- An index of the output array is in point t's block iff its row is among rows t·2000 … t·2000+1999. -/
theorem mem_blk0 (t : Fin cfg0.N) (i : S800000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v23).slice (win0_9.rect t)).set ↔ _
  rw [View.set_slice_whole, Rect.mem_set_unit]
  exact Iff.rfl

/-- Every row lies in the block of the point row / 2000. -/
theorem cover0 (i : S800000x128.Idx) : ∃ t : Fin cfg0.N, (cfg0.win 9).flush t = true ∧ i ∈ ((cfg0.win 9).blk t).view.set := by
  have hi0 : (i 0).val < 800000 := (i 0).isLt
  have hi1 : (i 1).val < 128 := (i 1).isLt
  let t : Fin cfg0.N := ⟨(i 0).val / 2000, by rw [show cfg0.N = grid0.N from rfl, N_0]; omega⟩
  obtain ⟨-, -, e0, e1, -⟩ := idx_facts0 t
  have e0' : win0_9.index t (0 : Fin 2) = (i 0).val / 2000 := e0
  refine ⟨t, flush0_9 t, ?_⟩
  rw [mem_blk0]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 128 ≤ (i 1).val ∧ (i 1).val < win0_9.index t (1 : Fin 2) * 128 + 128; omega

/-- The output array after the region is `msgArr`. -/
theorem final0 (c : Dev nD) : (dat0 V c).arrAt 9 cfg0.N = msgArr V c :=
  (dat0 V c).arrAt_eq_of_cover 9 (msgArr V c) (fun t _ => flushed0_eq V c t) cover0

end Cert.KernelIdeal.Val

end
-- ==== Proof.KI.Tile1.lean ====
/-
  The value of the node perceptron's tile body at an entry.

  The body reads a [2000, 128] tile of aggregated rows, four weights [128, 300], [300, 300], [300, 300], [300, 300] and
  four biases, and stores a [2000, 300] tile: three rectified dense layers and a last dense layer, each layer's input
  passed through a change of float format first. At the extended reals a change of format is the identity and every
  operation is exact, so entry (p, q) of the stored tile is entry (p, q) of the four-layer perceptron of the tile's rows:
  the layers are peeled from the last to the first, each one read by the dense-layer lemma against the description of
  its input that the layers before it give.
-/
import proofs.«106805_j60730837565919_1_alg».proof.Proof.Gen.KernelIdeal.Skeleton
import proofs.«106805_j60730837565919_1_alg».proof.Proof.Spec
import proofs.«106805_j60730837565919_1_alg».proof.Proof.LibDotRecord
import proofs.«106805_j60730837565919_1_alg».proof.Proof.LibTileOps
import proofs.«106805_j60730837565919_1_alg».proof.Proof.LibDenseTile
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal.Gen
open scoped BigOperators

/-- Entry (p, q) of the tile the body stores is the perceptron of the tile's rows at (p, q). -/
theorem pay1_apply (x0 : Vec Ideal S2000x128 .f32) (x1 : Vec Ideal S128x300 .bf16) (x2 : Vec Ideal S300 .f32)
    (x3 : Vec Ideal S300x300 .bf16) (x4 : Vec Ideal S300 .f32) (x5 : Vec Ideal S300x300 .bf16) (x6 : Vec Ideal S300 .f32)
    (x7 : Vec Ideal S300x300 .bf16) (x8 : Vec Ideal S300 .f32) (p : Fin 2000) (q : Fin 300) :
    k1_pay1 (F := Ideal) (k1_pay2 x0 x1 x2 x3 x4 x5 x6 x7) (k1_pay3 x8) (ix2 p q)
      = Cert.Spec.mlp4 (fun (r : Fin 2000) (k : Fin 128) => x0 (ix2 r k)) (fun (k : Fin 128) (n : Fin 300) => x1 (ix2 k n))
          (fun n : Fin 300 => x2 (ix1 n)) (fun (k : Fin 300) (n : Fin 300) => x3 (ix2 k n)) (fun n : Fin 300 => x4 (ix1 n))
          (fun (k : Fin 300) (n : Fin 300) => x5 (ix2 k n)) (fun n : Fin 300 => x6 (ix1 n))
          (fun (k : Fin 300) (n : Fin 300) => x7 (ix2 k n)) (fun n : Fin 300 => x8 (ix1 n)) p q := by
  unfold k1_pay1 k1_pay2 k1_pay3
  -- the last dense layer, against the third rectified layer's entries
  refine DenseTile.dense_apply dot_S2000x300_S300x300_S2000x300_1_0_0_1_n_n rfl rfl rfl rfl rfl rfl none _ x7 x8 _ _ _
    (Cert.Spec.relu (Cert.Spec.dense (Cert.Spec.relu (Cert.Spec.dense (Cert.Spec.relu (Cert.Spec.dense
      (fun (r : Fin 2000) (k : Fin 128) => x0 (ix2 r k)) (fun (k : Fin 128) (n : Fin 300) => x1 (ix2 k n)) (fun n : Fin 300 => x2 (ix1 n))))
      (fun (k : Fin 300) (n : Fin 300) => x3 (ix2 k n)) (fun n : Fin 300 => x4 (ix1 n))))
      (fun (k : Fin 300) (n : Fin 300) => x5 (ix2 k n)) (fun n : Fin 300 => x6 (ix1 n))))
    (fun r k => ?_) p q
  -- the third rectified layer, against the second's
  refine Eq.trans (truncf_apply _ _ (ix2 r k)) ?_
  refine DenseTile.relu_dense_apply dot_S2000x300_S300x300_S2000x300_1_0_0_1_n_n rfl rfl rfl rfl rfl rfl none _ x5 x6 _ _ _
    (Cert.Spec.relu (Cert.Spec.dense (Cert.Spec.relu (Cert.Spec.dense
      (fun (r : Fin 2000) (k : Fin 128) => x0 (ix2 r k)) (fun (k : Fin 128) (n : Fin 300) => x1 (ix2 k n)) (fun n : Fin 300 => x2 (ix1 n))))
      (fun (k : Fin 300) (n : Fin 300) => x3 (ix2 k n)) (fun n : Fin 300 => x4 (ix1 n))))
    (fun r k => ?_) r k
  -- the second, against the first's
  refine Eq.trans (truncf_apply _ _ (ix2 r k)) ?_
  refine DenseTile.relu_dense_apply dot_S2000x300_S300x300_S2000x300_1_0_0_1_n_n rfl rfl rfl rfl rfl rfl none _ x3 x4 _ _ _
    (Cert.Spec.relu (Cert.Spec.dense
      (fun (r : Fin 2000) (k : Fin 128) => x0 (ix2 r k)) (fun (k : Fin 128) (n : Fin 300) => x1 (ix2 k n)) (fun n : Fin 300 => x2 (ix1 n))))
    (fun r k => ?_) r k
  -- the first, against the tile's own entries: the cast to the tile's own shape and the change of format are the identity
  refine Eq.trans (truncf_apply _ _ (ix2 r k)) ?_
  refine DenseTile.relu_dense_apply dot_S2000x128_S128x300_S2000x300_1_0_0_1_n_n rfl rfl rfl rfl rfl rfl none _ x1 x2 _ _ _
    (fun (r : Fin 2000) (k : Fin 128) => x0 (ix2 r k)) (fun r k => ?_) r k
  refine Eq.trans (truncf_apply _ _ (ix2 r k)) ?_
  rw [shapeCast_self]

end Cert.KernelIdeal.Tile

end
-- ==== Proof.KI.Array1.lean ====
/-
  Region 1 of the kernel's program, read as a value at the extended reals: the array its output window leaves.

  The region walks 25 tiles of 2000 rows. At tile t the body is handed rows t·2000 … t·2000+1999 of the aggregated-message array
  and, whole, the four weight matrices and the four bias vectors; what it stores is, entry by entry, the four-layer
  perceptron of the tile's rows. The perceptron acts on each row alone, so the tile's result is the tile's rows of
  the perceptron of the WHOLE input; the tiles cover every row exactly once (row r lies in tile r / 2000), so after
  the last tile the output array is `nodeArr`: row r is the updated state of node r.
-/
import proofs.«106805_j60730837565919_1_alg».proof.Proof.KI.Region1
import proofs.«106805_j60730837565919_1_alg».proof.Proof.KI.Tile1
import proofs.«106805_j60730837565919_1_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-- Row r of this array is the perceptron of row r of the region's input array, under the region's weights and biases
    as the region finds them. -/
def nodeArr (c : Dev nD) : S50000x300.Idx → EReal := fun i =>
  Cert.Spec.mlp4 (fun (p : Fin 50000) (k : Fin 128) => (V c main_v26 (ix2 p k) : EReal))
    (fun (k : Fin 128) (n : Fin 300) => (V c main_v27 (ix2 k n) : EReal)) (fun n : Fin 300 => (V c main_arg13 (ix1 n) : EReal))
    (fun (k : Fin 300) (n : Fin 300) => (V c main_v28 (ix2 k n) : EReal)) (fun n : Fin 300 => (V c main_arg15 (ix1 n) : EReal))
    (fun (k : Fin 300) (n : Fin 300) => (V c main_v29 (ix2 k n) : EReal)) (fun n : Fin 300 => (V c main_arg17 (ix1 n) : EReal))
    (fun (k : Fin 300) (n : Fin 300) => (V c main_v30 (ix2 k n) : EReal)) (fun n : Fin 300 => (V c main_arg19 (ix1 n) : EReal))
    (i 0) (i 1)

theorem hz2_1 : (![0, 0] : Fin 2 → Nat) = fun _ => 0 := funext fun a => by fin_cases a <;> rfl
theorem hz1_1 : (![0] : Fin 1 → Nat) = fun _ => 0 := funext fun a => by fin_cases a <;> rfl

/-- The printed block index maps, decided over the grid: the input tile and the output tile sit at row block t, every
    weight and bias block at 0. -/
theorem idx_facts1 : ∀ t : Fin cfg1.N, win1_0.index t (0 : Fin 2) = t.val
    ∧ win1_0.index t (1 : Fin 2) = 0
    ∧ win1_9.index t (0 : Fin 2) = t.val
    ∧ win1_9.index t (1 : Fin 2) = 0
    ∧ win1_1.index t (0 : Fin 2) = 0
    ∧ win1_1.index t (1 : Fin 2) = 0
    ∧ win1_2.index t (0 : Fin 1) = 0
    ∧ win1_3.index t (0 : Fin 2) = 0
    ∧ win1_3.index t (1 : Fin 2) = 0
    ∧ win1_4.index t (0 : Fin 1) = 0
    ∧ win1_5.index t (0 : Fin 2) = 0
    ∧ win1_5.index t (1 : Fin 2) = 0
    ∧ win1_6.index t (0 : Fin 1) = 0
    ∧ win1_7.index t (0 : Fin 2) = 0
    ∧ win1_7.index t (1 : Fin 2) = 0
    ∧ win1_8.index t (0 : Fin 1) = 0 :=
  (by decide +kernel : ∀ t : Fin grid1.N, _)

/-- The input tile at point t is rows t·2000 … t·2000+1999 of the input array. -/
theorem blk1_0 (c : Dev nD) (t : Fin cfg1.N) (p : Fin 2000) (k : Fin 128) (r : Fin 50000) (hr : r.val = t.val * 2000 + p.val) :
    iblk1 V c 0 t (ix2 p k) = V c main_v26 (ix2 r k) := by
  unfold iblk1
  show V c main_v26 (((cfg1.win 0).blk t).view.emb (ix2 p k)) = V c main_v26 (ix2 r k)
  refine congrArg _ (funext fun a => Fin.ext ?_)
  obtain ⟨e0, e1, -⟩ := idx_facts1 t
  match a with
  | ⟨0, _⟩ => show win1_0.index t (0 : Fin 2) * 2000 + 1 * p.val = r.val; omega
  | ⟨1, _⟩ => show win1_0.index t (1 : Fin 2) * 128 + 1 * k.val = k.val; omega

/-! Every weight and bias block is its whole array, at every point. -/
theorem blk1_1 (c : Dev nD) (t : Fin cfg1.N) (k : Fin 128) (n : Fin 300) : iblk1 V c 1 t (ix2 k n) = V c main_v27 (ix2 k n) := by
  unfold iblk1
  show V c main_v27 (((cfg1.win 1).blk t).view.emb (ix2 k n)) = V c main_v27 (ix2 k n)
  refine congrArg _ (funext fun a => Fin.ext ?_)
  obtain ⟨-, -, -, -, e0, e1, -⟩ := idx_facts1 t
  match a with
  | ⟨0, _⟩ => show win1_1.index t (0 : Fin 2) * 128 + 1 * k.val = k.val; omega
  | ⟨1, _⟩ => show win1_1.index t (1 : Fin 2) * 300 + 1 * n.val = n.val; omega
theorem blk1_2 (c : Dev nD) (t : Fin cfg1.N) (n : Fin 300) : iblk1 V c 2 t (ix1 n) = V c main_arg13 (ix1 n) := by
  unfold iblk1
  show V c main_arg13 (((cfg1.win 2).blk t).view.emb (ix1 n)) = V c main_arg13 (ix1 n)
  refine congrArg _ (funext fun a => Fin.ext ?_)
  obtain ⟨-, -, -, -, -, -, e0, -⟩ := idx_facts1 t
  match a with
  | ⟨0, _⟩ => show win1_2.index t (0 : Fin 1) * 300 + 1 * n.val = n.val; omega
theorem blk1_3 (c : Dev nD) (t : Fin cfg1.N) (k : Fin 300) (n : Fin 300) : iblk1 V c 3 t (ix2 k n) = V c main_v28 (ix2 k n) := by
  unfold iblk1
  show V c main_v28 (((cfg1.win 3).blk t).view.emb (ix2 k n)) = V c main_v28 (ix2 k n)
  refine congrArg _ (funext fun a => Fin.ext ?_)
  obtain ⟨-, -, -, -, -, -, -, e0, e1, -⟩ := idx_facts1 t
  match a with
  | ⟨0, _⟩ => show win1_3.index t (0 : Fin 2) * 300 + 1 * k.val = k.val; omega
  | ⟨1, _⟩ => show win1_3.index t (1 : Fin 2) * 300 + 1 * n.val = n.val; omega
theorem blk1_4 (c : Dev nD) (t : Fin cfg1.N) (n : Fin 300) : iblk1 V c 4 t (ix1 n) = V c main_arg15 (ix1 n) := by
  unfold iblk1
  show V c main_arg15 (((cfg1.win 4).blk t).view.emb (ix1 n)) = V c main_arg15 (ix1 n)
  refine congrArg _ (funext fun a => Fin.ext ?_)
  obtain ⟨-, -, -, -, -, -, -, -, -, e0, -⟩ := idx_facts1 t
  match a with
  | ⟨0, _⟩ => show win1_4.index t (0 : Fin 1) * 300 + 1 * n.val = n.val; omega
theorem blk1_5 (c : Dev nD) (t : Fin cfg1.N) (k : Fin 300) (n : Fin 300) : iblk1 V c 5 t (ix2 k n) = V c main_v29 (ix2 k n) := by
  unfold iblk1
  show V c main_v29 (((cfg1.win 5).blk t).view.emb (ix2 k n)) = V c main_v29 (ix2 k n)
  refine congrArg _ (funext fun a => Fin.ext ?_)
  obtain ⟨-, -, -, -, -, -, -, -, -, -, e0, e1, -⟩ := idx_facts1 t
  match a with
  | ⟨0, _⟩ => show win1_5.index t (0 : Fin 2) * 300 + 1 * k.val = k.val; omega
  | ⟨1, _⟩ => show win1_5.index t (1 : Fin 2) * 300 + 1 * n.val = n.val; omega
theorem blk1_6 (c : Dev nD) (t : Fin cfg1.N) (n : Fin 300) : iblk1 V c 6 t (ix1 n) = V c main_arg17 (ix1 n) := by
  unfold iblk1
  show V c main_arg17 (((cfg1.win 6).blk t).view.emb (ix1 n)) = V c main_arg17 (ix1 n)
  refine congrArg _ (funext fun a => Fin.ext ?_)
  obtain ⟨-, -, -, -, -, -, -, -, -, -, -, -, e0, -⟩ := idx_facts1 t
  match a with
  | ⟨0, _⟩ => show win1_6.index t (0 : Fin 1) * 300 + 1 * n.val = n.val; omega
theorem blk1_7 (c : Dev nD) (t : Fin cfg1.N) (k : Fin 300) (n : Fin 300) : iblk1 V c 7 t (ix2 k n) = V c main_v30 (ix2 k n) := by
  unfold iblk1
  show V c main_v30 (((cfg1.win 7).blk t).view.emb (ix2 k n)) = V c main_v30 (ix2 k n)
  refine congrArg _ (funext fun a => Fin.ext ?_)
  obtain ⟨-, -, -, -, -, -, -, -, -, -, -, -, -, e0, e1, -⟩ := idx_facts1 t
  match a with
  | ⟨0, _⟩ => show win1_7.index t (0 : Fin 2) * 300 + 1 * k.val = k.val; omega
  | ⟨1, _⟩ => show win1_7.index t (1 : Fin 2) * 300 + 1 * n.val = n.val; omega
theorem blk1_8 (c : Dev nD) (t : Fin cfg1.N) (n : Fin 300) : iblk1 V c 8 t (ix1 n) = V c main_arg19 (ix1 n) := by
  unfold iblk1
  show V c main_arg19 (((cfg1.win 8).blk t).view.emb (ix1 n)) = V c main_arg19 (ix1 n)
  refine congrArg _ (funext fun a => Fin.ext ?_)
  obtain ⟨-, -, -, -, -, -, -, -, -, -, -, -, -, -, -, e0⟩ := idx_facts1 t
  match a with
  | ⟨0, _⟩ => show win1_8.index t (0 : Fin 1) * 300 + 1 * n.val = n.val; omega

/-- What point t writes back is block t of `nodeArr`. -/
theorem flushed1_eq (c : Dev nD) (t : Fin cfg1.N) :
    (dat1 V c).flushed 9 t = ((cfg1.win 9).blk t).view.read (Elt Ideal) (nodeArr V c) := by
  show (cfg1.win 9).cut (grid1.coords t) ((dat1 V c).after 9 t) = _
  rw [after1_9]
  unfold out1_9
  rw [View.canon_unit_zero hz2_1]
  simp only [View.ld_unit_zero (S := S2000x128) hz2_1, View.ld_unit_zero (S := S128x300) hz2_1, View.ld_unit_zero (S := S300x300) hz2_1, View.ld_unit_zero (S := S300) hz1_1]
  funext j
  obtain ⟨p, q, rfl⟩ : ∃ (p : Fin 2000) (q : Fin 300), j = ix2 p q := ⟨j 0, j 1, eq_ix2 j⟩
  have ht : t.val < 25 := N_1 ▸ t.isLt
  obtain ⟨-, -, e0, e1, -⟩ := idx_facts1 t
  have hemb : ((cfg1.win 9).blk t).view.emb (ix2 p q) = ix2 (⟨t.val * 2000 + p.val, by have := p.isLt; omega⟩ : Fin 50000) q := by
    funext a; apply Fin.ext
    match a with
    | ⟨0, _⟩ => show win1_9.index t (0 : Fin 2) * 2000 + 1 * p.val = t.val * 2000 + p.val; omega
    | ⟨1, _⟩ => show win1_9.index t (1 : Fin 2) * 300 + 1 * q.val = q.val; omega
  show k1_pay1 (F := Ideal) (k1_pay2 (iblk1 V c 0 t) (iblk1 V c 1 t) (iblk1 V c 2 t) (iblk1 V c 3 t) (iblk1 V c 4 t) (iblk1 V c 5 t) (iblk1 V c 6 t) (iblk1 V c 7 t)) (k1_pay3 (iblk1 V c 8 t)) (ix2 p q)
      = nodeArr V c (((cfg1.win 9).blk t).view.emb (ix2 p q))
  rw [hemb]
  refine (Cert.KernelIdeal.Tile.pay1_apply _ _ _ _ _ _ _ _ _ p q).trans ?_
  unfold nodeArr
  simp only [blk1_1 V c t, blk1_2 V c t, blk1_3 V c t, blk1_4 V c t, blk1_5 V c t, blk1_6 V c t, blk1_7 V c t, blk1_8 V c t]
  exact Cert.Spec.mlp4_row _ _ _ _ _ _ _ _ _ _ p _ (fun k => blk1_0 V c t p k _ rfl) q

/-- An index of the output array is in point t's block iff its row is among rows t·2000 … t·2000+1999. -/
theorem mem_blk1 (t : Fin cfg1.N) (i : S50000x300.Idx) :
    i ∈ ((cfg1.win 9).blk t).view.set ↔ ∀ a : Fin 2, win1_9.index t a * S2000x300.size a ≤ (i a).val ∧ (i a).val < win1_9.index t a * S2000x300.size a + S2000x300.size a := by
  show i ∈ ((View.whole main_v31).slice (win1_9.rect t)).set ↔ _
  rw [View.set_slice_whole, Rect.mem_set_unit]
  exact Iff.rfl

/-- Every row lies in the block of the point row / 2000. -/
theorem cover1 (i : S50000x300.Idx) : ∃ t : Fin cfg1.N, (cfg1.win 9).flush t = true ∧ i ∈ ((cfg1.win 9).blk t).view.set := by
  have hi0 : (i 0).val < 50000 := (i 0).isLt
  have hi1 : (i 1).val < 300 := (i 1).isLt
  let t : Fin cfg1.N := ⟨(i 0).val / 2000, by rw [show cfg1.N = grid1.N from rfl, N_1]; omega⟩
  obtain ⟨-, -, e0, e1, -⟩ := idx_facts1 t
  have e0' : win1_9.index t (0 : Fin 2) = (i 0).val / 2000 := e0
  refine ⟨t, flush1_9 t, ?_⟩
  rw [mem_blk1]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 300 ≤ (i 1).val ∧ (i 1).val < win1_9.index t (1 : Fin 2) * 300 + 300; omega

/-- The output array after the region is `nodeArr`. -/
theorem final1 (c : Dev nD) : (dat1 V c).arrAt 9 cfg1.N = nodeArr V c :=
  (dat1 V c).arrAt_eq_of_cover 9 (nodeArr V c) (fun t _ => flushed1_eq V c t) cover1

end Cert.KernelIdeal.Val

end
-- ==== Proof.RefMsg.lean ====
/-
  The reference's edge perceptron at the extended reals: the message array, entry by entry, as the four-layer
  perceptron of the edge features (the gathered and joined rows, kept as one array).
-/
import proofs.«106805_j60730837565919_1_alg».proof.Proof.Gen.ReferenceIdeal.Run
import proofs.«106805_j60730837565919_1_alg».proof.Proof.Gen.ReferenceIdeal.Read
import proofs.«106805_j60730837565919_1_alg».proof.Proof.Spec

noncomputable section

namespace Cert.ReferenceIdeal.RefValue

open Idealize.ShloMosaic Idealize.ShloMosaic.ValueIdx Cert.ReferenceIdeal Cert.ReferenceIdeal.Read

/-- The first edge layer: the rectified stage, entry by entry, is the rectifier of the dense layer of the edge features. -/
theorem msg_layer1 (x0 : (⟨S50000x16, .f32⟩ : BufTy).Contents (Elt Ideal)) (x1 : (⟨S2x800000, .i32⟩ : BufTy).Contents (Elt Ideal)) (x2 : (⟨S800000x8, .f32⟩ : BufTy).Contents (Elt Ideal)) (x4 : (⟨S40x300, .f32⟩ : BufTy).Contents (Elt Ideal)) (x5 : (⟨S300, .f32⟩ : BufTy).Contents (Elt Ideal)) :
    (fun (p : Fin 800000) (n : Fin 300) => val_main_v23 (F := Ideal) x0 x1 x2 x4 x5 (ix2 p n))
      = Cert.Spec.relu (Cert.Spec.dense (fun (p : Fin 800000) (k : Fin 40) => val_main_v18 (F := Ideal) x0 x1 x2 (ix2 p k))
          (fun (k : Fin 40) (n : Fin 300) => x4 (ix2 k n)) (fun n : Fin 300 => x5 (ix1 n))) := by
  funext p n
  rw [val_main_v23_apply, val_main_v22_apply, val_main_v19_apply, val_main_v21_apply, val_main_v20_apply,
    val_main_call0_v0_apply, val_main_call0_cst_apply]
  rw [Ideal.maximumf_def, Ideal.addf_def, Ideal.ofBits_def, Ideal.ofBits_zero_f32]
  unfold Cert.Spec.relu Cert.Spec.dense
  have hl : ∀ k : Fin 40, lidx_main_v19 (ix2 p n) k = ix2 p k := fun k => funext fun a => by
    match a with
    | ⟨0, _⟩ => rfl
    | ⟨1, _⟩ => rfl
  have hr : ∀ k : Fin 40, ridx_main_v19 (ix2 p n) k = ix2 k n := fun k => funext fun a => by
    match a with
    | ⟨0, _⟩ => rfl
    | ⟨1, _⟩ => rfl
  have hb : idx_main_v20 (idx_main_v21 (ix2 p n)) = ix1 n := funext fun a => by
    match a with
    | ⟨0, _⟩ => rfl
  simp only [hl, hr, hb]

/-- The second edge layer, over the first layer's stage. -/
theorem msg_layer2 (x0 : (⟨S50000x16, .f32⟩ : BufTy).Contents (Elt Ideal)) (x1 : (⟨S2x800000, .i32⟩ : BufTy).Contents (Elt Ideal)) (x2 : (⟨S800000x8, .f32⟩ : BufTy).Contents (Elt Ideal)) (x4 : (⟨S40x300, .f32⟩ : BufTy).Contents (Elt Ideal)) (x5 : (⟨S300, .f32⟩ : BufTy).Contents (Elt Ideal)) (x6 : (⟨S300x300, .f32⟩ : BufTy).Contents (Elt Ideal)) (x7 : (⟨S300, .f32⟩ : BufTy).Contents (Elt Ideal)) :
    (fun (p : Fin 800000) (n : Fin 300) => val_main_v28 (F := Ideal) x0 x1 x2 x4 x5 x6 x7 (ix2 p n))
      = Cert.Spec.relu (Cert.Spec.dense (fun (p : Fin 800000) (k : Fin 300) => val_main_v23 (F := Ideal) x0 x1 x2 x4 x5 (ix2 p k))
          (fun (k : Fin 300) (n : Fin 300) => x6 (ix2 k n)) (fun n : Fin 300 => x7 (ix1 n))) := by
  funext p n
  rw [val_main_v28_apply, val_main_v27_apply, val_main_v24_apply, val_main_v26_apply, val_main_v25_apply,
    val_main_call1_v0_apply, val_main_call1_cst_apply]
  rw [Ideal.maximumf_def, Ideal.addf_def, Ideal.ofBits_def, Ideal.ofBits_zero_f32]
  unfold Cert.Spec.relu Cert.Spec.dense
  have hl : ∀ k : Fin 300, lidx_main_v24 (ix2 p n) k = ix2 p k := fun k => funext fun a => by
    match a with
    | ⟨0, _⟩ => rfl
    | ⟨1, _⟩ => rfl
  have hr : ∀ k : Fin 300, ridx_main_v24 (ix2 p n) k = ix2 k n := fun k => funext fun a => by
    match a with
    | ⟨0, _⟩ => rfl
    | ⟨1, _⟩ => rfl
  have hb : idx_main_v25 (idx_main_v26 (ix2 p n)) = ix1 n := funext fun a => by
    match a with
    | ⟨0, _⟩ => rfl
  simp only [hl, hr, hb]

/-- The third edge layer, over the second layer's stage. -/
theorem msg_layer3 (x0 : (⟨S50000x16, .f32⟩ : BufTy).Contents (Elt Ideal)) (x1 : (⟨S2x800000, .i32⟩ : BufTy).Contents (Elt Ideal)) (x2 : (⟨S800000x8, .f32⟩ : BufTy).Contents (Elt Ideal)) (x4 : (⟨S40x300, .f32⟩ : BufTy).Contents (Elt Ideal)) (x5 : (⟨S300, .f32⟩ : BufTy).Contents (Elt Ideal)) (x6 : (⟨S300x300, .f32⟩ : BufTy).Contents (Elt Ideal)) (x7 : (⟨S300, .f32⟩ : BufTy).Contents (Elt Ideal)) (x8 : (⟨S300x300, .f32⟩ : BufTy).Contents (Elt Ideal)) (x9 : (⟨S300, .f32⟩ : BufTy).Contents (Elt Ideal)) :
    (fun (p : Fin 800000) (n : Fin 300) => val_main_v33 (F := Ideal) x0 x1 x2 x4 x5 x6 x7 x8 x9 (ix2 p n))
      = Cert.Spec.relu (Cert.Spec.dense (fun (p : Fin 800000) (k : Fin 300) => val_main_v28 (F := Ideal) x0 x1 x2 x4 x5 x6 x7 (ix2 p k))
          (fun (k : Fin 300) (n : Fin 300) => x8 (ix2 k n)) (fun n : Fin 300 => x9 (ix1 n))) := by
  funext p n
  rw [val_main_v33_apply, val_main_v32_apply, val_main_v29_apply, val_main_v31_apply, val_main_v30_apply,
    val_main_call2_v0_apply, val_main_call2_cst_apply]
  rw [Ideal.maximumf_def, Ideal.addf_def, Ideal.ofBits_def, Ideal.ofBits_zero_f32]
  unfold Cert.Spec.relu Cert.Spec.dense
  have hl : ∀ k : Fin 300, lidx_main_v29 (ix2 p n) k = ix2 p k := fun k => funext fun a => by
    match a with
    | ⟨0, _⟩ => rfl
    | ⟨1, _⟩ => rfl
  have hr : ∀ k : Fin 300, ridx_main_v29 (ix2 p n) k = ix2 k n := fun k => funext fun a => by
    match a with
    | ⟨0, _⟩ => rfl
    | ⟨1, _⟩ => rfl
  have hb : idx_main_v30 (idx_main_v31 (ix2 p n)) = ix1 n := funext fun a => by
    match a with
    | ⟨0, _⟩ => rfl
  simp only [hl, hr, hb]

/-- The last edge layer: a dense layer with no rectifier, over the third layer's stage. -/
theorem msg_layer4 (x0 : (⟨S50000x16, .f32⟩ : BufTy).Contents (Elt Ideal)) (x1 : (⟨S2x800000, .i32⟩ : BufTy).Contents (Elt Ideal)) (x2 : (⟨S800000x8, .f32⟩ : BufTy).Contents (Elt Ideal)) (x4 : (⟨S40x300, .f32⟩ : BufTy).Contents (Elt Ideal)) (x5 : (⟨S300, .f32⟩ : BufTy).Contents (Elt Ideal)) (x6 : (⟨S300x300, .f32⟩ : BufTy).Contents (Elt Ideal)) (x7 : (⟨S300, .f32⟩ : BufTy).Contents (Elt Ideal)) (x8 : (⟨S300x300, .f32⟩ : BufTy).Contents (Elt Ideal)) (x9 : (⟨S300, .f32⟩ : BufTy).Contents (Elt Ideal)) (x10 : (⟨S300x128, .f32⟩ : BufTy).Contents (Elt Ideal)) (x11 : (⟨S128, .f32⟩ : BufTy).Contents (Elt Ideal)) :
    (fun (p : Fin 800000) (n : Fin 128) => val_main_v37 (F := Ideal) x0 x1 x2 x4 x5 x6 x7 x8 x9 x10 x11 (ix2 p n))
      = Cert.Spec.dense (fun (p : Fin 800000) (k : Fin 300) => val_main_v33 (F := Ideal) x0 x1 x2 x4 x5 x6 x7 x8 x9 (ix2 p k))
          (fun (k : Fin 300) (n : Fin 128) => x10 (ix2 k n)) (fun n : Fin 128 => x11 (ix1 n)) := by
  funext p n
  rw [val_main_v37_apply, val_main_v34_apply, val_main_v36_apply, val_main_v35_apply]
  rw [Ideal.addf_def]
  unfold Cert.Spec.dense
  have hl : ∀ k : Fin 300, lidx_main_v34 (ix2 p n) k = ix2 p k := fun k => funext fun a => by
    match a with
    | ⟨0, _⟩ => rfl
    | ⟨1, _⟩ => rfl
  have hr : ∀ k : Fin 300, ridx_main_v34 (ix2 p n) k = ix2 k n := fun k => funext fun a => by
    match a with
    | ⟨0, _⟩ => rfl
    | ⟨1, _⟩ => rfl
  have hb : idx_main_v35 (idx_main_v36 (ix2 p n)) = ix1 n := funext fun a => by
    match a with
    | ⟨0, _⟩ => rfl
  simp only [hl, hr, hb]

/-- The message array, entry by entry: the four-layer perceptron of the edge features. Each layer's stage, as a matrix of
    rows, is the layer applied to the previous stage; the four equations compose. -/
theorem msg_apply (x0 : (⟨S50000x16, .f32⟩ : BufTy).Contents (Elt Ideal)) (x1 : (⟨S2x800000, .i32⟩ : BufTy).Contents (Elt Ideal)) (x2 : (⟨S800000x8, .f32⟩ : BufTy).Contents (Elt Ideal)) (x4 : (⟨S40x300, .f32⟩ : BufTy).Contents (Elt Ideal)) (x5 : (⟨S300, .f32⟩ : BufTy).Contents (Elt Ideal)) (x6 : (⟨S300x300, .f32⟩ : BufTy).Contents (Elt Ideal)) (x7 : (⟨S300, .f32⟩ : BufTy).Contents (Elt Ideal)) (x8 : (⟨S300x300, .f32⟩ : BufTy).Contents (Elt Ideal)) (x9 : (⟨S300, .f32⟩ : BufTy).Contents (Elt Ideal)) (x10 : (⟨S300x128, .f32⟩ : BufTy).Contents (Elt Ideal)) (x11 : (⟨S128, .f32⟩ : BufTy).Contents (Elt Ideal)) (r : Fin 800000) (q : Fin 128) :
    val_main_v37 (F := Ideal) x0 x1 x2 x4 x5 x6 x7 x8 x9 x10 x11 (ix2 r q)
      = Cert.Spec.mlp4 (fun (p : Fin 800000) (k : Fin 40) => val_main_v18 (F := Ideal) x0 x1 x2 (ix2 p k))
          (fun (k : Fin 40) (n : Fin 300) => x4 (ix2 k n)) (fun n : Fin 300 => x5 (ix1 n))
          (fun (k : Fin 300) (n : Fin 300) => x6 (ix2 k n)) (fun n : Fin 300 => x7 (ix1 n))
          (fun (k : Fin 300) (n : Fin 300) => x8 (ix2 k n)) (fun n : Fin 300 => x9 (ix1 n))
          (fun (k : Fin 300) (n : Fin 128) => x10 (ix2 k n)) (fun n : Fin 128 => x11 (ix1 n)) r q := by
  have h := congrFun (congrFun (msg_layer4 x0 x1 x2 x4 x5 x6 x7 x8 x9 x10 x11) r) q
  rw [msg_layer3 x0 x1 x2 x4 x5 x6 x7 x8 x9, msg_layer2 x0 x1 x2 x4 x5 x6 x7, msg_layer1 x0 x1 x2 x4 x5] at h
  exact h

end Cert.ReferenceIdeal.RefValue

end
-- ==== Proof.RefNode.lean ====
/-
  The reference's node perceptron at the extended reals: the node array, entry by entry, as the four-layer
  perceptron of the summed messages (the scatter's result, kept as one array).
-/
import proofs.«106805_j60730837565919_1_alg».proof.Proof.Gen.ReferenceIdeal.Run
import proofs.«106805_j60730837565919_1_alg».proof.Proof.Gen.ReferenceIdeal.Read
import proofs.«106805_j60730837565919_1_alg».proof.Proof.Spec

noncomputable section

namespace Cert.ReferenceIdeal.RefValue

open Idealize.ShloMosaic Idealize.ShloMosaic.ValueIdx Cert.ReferenceIdeal Cert.ReferenceIdeal.Read

/-- The first node layer: the rectified stage, entry by entry, is the rectifier of the dense layer of the summed messages. -/
theorem node_layer1 (x0 : (⟨S50000x16, .f32⟩ : BufTy).Contents (Elt Ideal)) (x1 : (⟨S2x800000, .i32⟩ : BufTy).Contents (Elt Ideal)) (x2 : (⟨S800000x8, .f32⟩ : BufTy).Contents (Elt Ideal)) (x4 : (⟨S40x300, .f32⟩ : BufTy).Contents (Elt Ideal)) (x5 : (⟨S300, .f32⟩ : BufTy).Contents (Elt Ideal)) (x6 : (⟨S300x300, .f32⟩ : BufTy).Contents (Elt Ideal)) (x7 : (⟨S300, .f32⟩ : BufTy).Contents (Elt Ideal)) (x8 : (⟨S300x300, .f32⟩ : BufTy).Contents (Elt Ideal)) (x9 : (⟨S300, .f32⟩ : BufTy).Contents (Elt Ideal)) (x10 : (⟨S300x128, .f32⟩ : BufTy).Contents (Elt Ideal)) (x11 : (⟨S128, .f32⟩ : BufTy).Contents (Elt Ideal)) (x12 : (⟨S128x300, .f32⟩ : BufTy).Contents (Elt Ideal)) (x13 : (⟨S300, .f32⟩ : BufTy).Contents (Elt Ideal)) :
    (fun (p : Fin 50000) (n : Fin 300) => val_main_v45 (F := Ideal) x0 x1 x2 x4 x5 x6 x7 x8 x9 x10 x11 x12 x13 (ix2 p n))
      = Cert.Spec.relu (Cert.Spec.dense (fun (p : Fin 50000) (k : Fin 128) => val_main_v40 (F := Ideal) x0 x1 x2 x4 x5 x6 x7 x8 x9 x10 x11 (ix2 p k))
          (fun (k : Fin 128) (n : Fin 300) => x12 (ix2 k n)) (fun n : Fin 300 => x13 (ix1 n))) := by
  funext p n
  rw [val_main_v45_apply, val_main_v44_apply, val_main_v41_apply, val_main_v43_apply, val_main_v42_apply,
    val_main_call3_v0_apply, val_main_call3_cst_apply]
  rw [Ideal.maximumf_def, Ideal.addf_def, Ideal.ofBits_def, Ideal.ofBits_zero_f32]
  unfold Cert.Spec.relu Cert.Spec.dense
  have hl : ∀ k : Fin 128, lidx_main_v41 (ix2 p n) k = ix2 p k := fun k => funext fun a => by
    match a with
    | ⟨0, _⟩ => rfl
    | ⟨1, _⟩ => rfl
  have hr : ∀ k : Fin 128, ridx_main_v41 (ix2 p n) k = ix2 k n := fun k => funext fun a => by
    match a with
    | ⟨0, _⟩ => rfl
    | ⟨1, _⟩ => rfl
  have hb : idx_main_v42 (idx_main_v43 (ix2 p n)) = ix1 n := funext fun a => by
    match a with
    | ⟨0, _⟩ => rfl
  simp only [hl, hr, hb]

/-- The second node layer, over the first layer's stage. -/
theorem node_layer2 (x0 : (⟨S50000x16, .f32⟩ : BufTy).Contents (Elt Ideal)) (x1 : (⟨S2x800000, .i32⟩ : BufTy).Contents (Elt Ideal)) (x2 : (⟨S800000x8, .f32⟩ : BufTy).Contents (Elt Ideal)) (x4 : (⟨S40x300, .f32⟩ : BufTy).Contents (Elt Ideal)) (x5 : (⟨S300, .f32⟩ : BufTy).Contents (Elt Ideal)) (x6 : (⟨S300x300, .f32⟩ : BufTy).Contents (Elt Ideal)) (x7 : (⟨S300, .f32⟩ : BufTy).Contents (Elt Ideal)) (x8 : (⟨S300x300, .f32⟩ : BufTy).Contents (Elt Ideal)) (x9 : (⟨S300, .f32⟩ : BufTy).Contents (Elt Ideal)) (x10 : (⟨S300x128, .f32⟩ : BufTy).Contents (Elt Ideal)) (x11 : (⟨S128, .f32⟩ : BufTy).Contents (Elt Ideal)) (x12 : (⟨S128x300, .f32⟩ : BufTy).Contents (Elt Ideal)) (x13 : (⟨S300, .f32⟩ : BufTy).Contents (Elt Ideal)) (x14 : (⟨S300x300, .f32⟩ : BufTy).Contents (Elt Ideal)) (x15 : (⟨S300, .f32⟩ : BufTy).Contents (Elt Ideal)) :
    (fun (p : Fin 50000) (n : Fin 300) => val_main_v50 (F := Ideal) x0 x1 x2 x4 x5 x6 x7 x8 x9 x10 x11 x12 x13 x14 x15 (ix2 p n))
      = Cert.Spec.relu (Cert.Spec.dense (fun (p : Fin 50000) (k : Fin 300) => val_main_v45 (F := Ideal) x0 x1 x2 x4 x5 x6 x7 x8 x9 x10 x11 x12 x13 (ix2 p k))
          (fun (k : Fin 300) (n : Fin 300) => x14 (ix2 k n)) (fun n : Fin 300 => x15 (ix1 n))) := by
  funext p n
  rw [val_main_v50_apply, val_main_v49_apply, val_main_v46_apply, val_main_v48_apply, val_main_v47_apply,
    val_main_call4_v0_apply, val_main_call4_cst_apply]
  rw [Ideal.maximumf_def, Ideal.addf_def, Ideal.ofBits_def, Ideal.ofBits_zero_f32]
  unfold Cert.Spec.relu Cert.Spec.dense
  have hl : ∀ k : Fin 300, lidx_main_v46 (ix2 p n) k = ix2 p k := fun k => funext fun a => by
    match a with
    | ⟨0, _⟩ => rfl
    | ⟨1, _⟩ => rfl
  have hr : ∀ k : Fin 300, ridx_main_v46 (ix2 p n) k = ix2 k n := fun k => funext fun a => by
    match a with
    | ⟨0, _⟩ => rfl
    | ⟨1, _⟩ => rfl
  have hb : idx_main_v47 (idx_main_v48 (ix2 p n)) = ix1 n := funext fun a => by
    match a with
    | ⟨0, _⟩ => rfl
  simp only [hl, hr, hb]

/-- The third node layer, over the second layer's stage. -/
theorem node_layer3 (x0 : (⟨S50000x16, .f32⟩ : BufTy).Contents (Elt Ideal)) (x1 : (⟨S2x800000, .i32⟩ : BufTy).Contents (Elt Ideal)) (x2 : (⟨S800000x8, .f32⟩ : BufTy).Contents (Elt Ideal)) (x4 : (⟨S40x300, .f32⟩ : BufTy).Contents (Elt Ideal)) (x5 : (⟨S300, .f32⟩ : BufTy).Contents (Elt Ideal)) (x6 : (⟨S300x300, .f32⟩ : BufTy).Contents (Elt Ideal)) (x7 : (⟨S300, .f32⟩ : BufTy).Contents (Elt Ideal)) (x8 : (⟨S300x300, .f32⟩ : BufTy).Contents (Elt Ideal)) (x9 : (⟨S300, .f32⟩ : BufTy).Contents (Elt Ideal)) (x10 : (⟨S300x128, .f32⟩ : BufTy).Contents (Elt Ideal)) (x11 : (⟨S128, .f32⟩ : BufTy).Contents (Elt Ideal)) (x12 : (⟨S128x300, .f32⟩ : BufTy).Contents (Elt Ideal)) (x13 : (⟨S300, .f32⟩ : BufTy).Contents (Elt Ideal)) (x14 : (⟨S300x300, .f32⟩ : BufTy).Contents (Elt Ideal)) (x15 : (⟨S300, .f32⟩ : BufTy).Contents (Elt Ideal)) (x16 : (⟨S300x300, .f32⟩ : BufTy).Contents (Elt Ideal)) (x17 : (⟨S300, .f32⟩ : BufTy).Contents (Elt Ideal)) :
    (fun (p : Fin 50000) (n : Fin 300) => val_main_v55 (F := Ideal) x0 x1 x2 x4 x5 x6 x7 x8 x9 x10 x11 x12 x13 x14 x15 x16 x17 (ix2 p n))
      = Cert.Spec.relu (Cert.Spec.dense (fun (p : Fin 50000) (k : Fin 300) => val_main_v50 (F := Ideal) x0 x1 x2 x4 x5 x6 x7 x8 x9 x10 x11 x12 x13 x14 x15 (ix2 p k))
          (fun (k : Fin 300) (n : Fin 300) => x16 (ix2 k n)) (fun n : Fin 300 => x17 (ix1 n))) := by
  funext p n
  rw [val_main_v55_apply, val_main_v54_apply, val_main_v51_apply, val_main_v53_apply, val_main_v52_apply,
    val_main_call5_v0_apply, val_main_call5_cst_apply]
  rw [Ideal.maximumf_def, Ideal.addf_def, Ideal.ofBits_def, Ideal.ofBits_zero_f32]
  unfold Cert.Spec.relu Cert.Spec.dense
  have hl : ∀ k : Fin 300, lidx_main_v51 (ix2 p n) k = ix2 p k := fun k => funext fun a => by
    match a with
    | ⟨0, _⟩ => rfl
    | ⟨1, _⟩ => rfl
  have hr : ∀ k : Fin 300, ridx_main_v51 (ix2 p n) k = ix2 k n := fun k => funext fun a => by
    match a with
    | ⟨0, _⟩ => rfl
    | ⟨1, _⟩ => rfl
  have hb : idx_main_v52 (idx_main_v53 (ix2 p n)) = ix1 n := funext fun a => by
    match a with
    | ⟨0, _⟩ => rfl
  simp only [hl, hr, hb]

/-- The last node layer: a dense layer with no rectifier, over the third layer's stage. -/
theorem node_layer4 (x0 : (⟨S50000x16, .f32⟩ : BufTy).Contents (Elt Ideal)) (x1 : (⟨S2x800000, .i32⟩ : BufTy).Contents (Elt Ideal)) (x2 : (⟨S800000x8, .f32⟩ : BufTy).Contents (Elt Ideal)) (x4 : (⟨S40x300, .f32⟩ : BufTy).Contents (Elt Ideal)) (x5 : (⟨S300, .f32⟩ : BufTy).Contents (Elt Ideal)) (x6 : (⟨S300x300, .f32⟩ : BufTy).Contents (Elt Ideal)) (x7 : (⟨S300, .f32⟩ : BufTy).Contents (Elt Ideal)) (x8 : (⟨S300x300, .f32⟩ : BufTy).Contents (Elt Ideal)) (x9 : (⟨S300, .f32⟩ : BufTy).Contents (Elt Ideal)) (x10 : (⟨S300x128, .f32⟩ : BufTy).Contents (Elt Ideal)) (x11 : (⟨S128, .f32⟩ : BufTy).Contents (Elt Ideal)) (x12 : (⟨S128x300, .f32⟩ : BufTy).Contents (Elt Ideal)) (x13 : (⟨S300, .f32⟩ : BufTy).Contents (Elt Ideal)) (x14 : (⟨S300x300, .f32⟩ : BufTy).Contents (Elt Ideal)) (x15 : (⟨S300, .f32⟩ : BufTy).Contents (Elt Ideal)) (x16 : (⟨S300x300, .f32⟩ : BufTy).Contents (Elt Ideal)) (x17 : (⟨S300, .f32⟩ : BufTy).Contents (Elt Ideal)) (x18 : (⟨S300x300, .f32⟩ : BufTy).Contents (Elt Ideal)) (x19 : (⟨S300, .f32⟩ : BufTy).Contents (Elt Ideal)) :
    (fun (p : Fin 50000) (n : Fin 300) => val_main_v59 (F := Ideal) x0 x1 x2 x4 x5 x6 x7 x8 x9 x10 x11 x12 x13 x14 x15 x16 x17 x18 x19 (ix2 p n))
      = Cert.Spec.dense (fun (p : Fin 50000) (k : Fin 300) => val_main_v55 (F := Ideal) x0 x1 x2 x4 x5 x6 x7 x8 x9 x10 x11 x12 x13 x14 x15 x16 x17 (ix2 p k))
          (fun (k : Fin 300) (n : Fin 300) => x18 (ix2 k n)) (fun n : Fin 300 => x19 (ix1 n)) := by
  funext p n
  rw [val_main_v59_apply, val_main_v56_apply, val_main_v58_apply, val_main_v57_apply]
  rw [Ideal.addf_def]
  unfold Cert.Spec.dense
  have hl : ∀ k : Fin 300, lidx_main_v56 (ix2 p n) k = ix2 p k := fun k => funext fun a => by
    match a with
    | ⟨0, _⟩ => rfl
    | ⟨1, _⟩ => rfl
  have hr : ∀ k : Fin 300, ridx_main_v56 (ix2 p n) k = ix2 k n := fun k => funext fun a => by
    match a with
    | ⟨0, _⟩ => rfl
    | ⟨1, _⟩ => rfl
  have hb : idx_main_v57 (idx_main_v58 (ix2 p n)) = ix1 n := funext fun a => by
    match a with
    | ⟨0, _⟩ => rfl
  simp only [hl, hr, hb]

/-- The node array, entry by entry: the four-layer perceptron of the summed messages (the scatter's result, kept as one
    array). Each layer's stage, as a matrix of rows, is the layer applied to the previous stage; the four equations compose. -/
theorem node_apply (x0 : (⟨S50000x16, .f32⟩ : BufTy).Contents (Elt Ideal)) (x1 : (⟨S2x800000, .i32⟩ : BufTy).Contents (Elt Ideal)) (x2 : (⟨S800000x8, .f32⟩ : BufTy).Contents (Elt Ideal)) (x4 : (⟨S40x300, .f32⟩ : BufTy).Contents (Elt Ideal)) (x5 : (⟨S300, .f32⟩ : BufTy).Contents (Elt Ideal)) (x6 : (⟨S300x300, .f32⟩ : BufTy).Contents (Elt Ideal)) (x7 : (⟨S300, .f32⟩ : BufTy).Contents (Elt Ideal)) (x8 : (⟨S300x300, .f32⟩ : BufTy).Contents (Elt Ideal)) (x9 : (⟨S300, .f32⟩ : BufTy).Contents (Elt Ideal)) (x10 : (⟨S300x128, .f32⟩ : BufTy).Contents (Elt Ideal)) (x11 : (⟨S128, .f32⟩ : BufTy).Contents (Elt Ideal)) (x12 : (⟨S128x300, .f32⟩ : BufTy).Contents (Elt Ideal)) (x13 : (⟨S300, .f32⟩ : BufTy).Contents (Elt Ideal)) (x14 : (⟨S300x300, .f32⟩ : BufTy).Contents (Elt Ideal)) (x15 : (⟨S300, .f32⟩ : BufTy).Contents (Elt Ideal)) (x16 : (⟨S300x300, .f32⟩ : BufTy).Contents (Elt Ideal)) (x17 : (⟨S300, .f32⟩ : BufTy).Contents (Elt Ideal)) (x18 : (⟨S300x300, .f32⟩ : BufTy).Contents (Elt Ideal)) (x19 : (⟨S300, .f32⟩ : BufTy).Contents (Elt Ideal)) (r : Fin 50000) (q : Fin 300) :
    val_main_v59 (F := Ideal) x0 x1 x2 x4 x5 x6 x7 x8 x9 x10 x11 x12 x13 x14 x15 x16 x17 x18 x19 (ix2 r q)
      = Cert.Spec.mlp4 (fun (p : Fin 50000) (k : Fin 128) => val_main_v40 (F := Ideal) x0 x1 x2 x4 x5 x6 x7 x8 x9 x10 x11 (ix2 p k))
          (fun (k : Fin 128) (n : Fin 300) => x12 (ix2 k n)) (fun n : Fin 300 => x13 (ix1 n))
          (fun (k : Fin 300) (n : Fin 300) => x14 (ix2 k n)) (fun n : Fin 300 => x15 (ix1 n))
          (fun (k : Fin 300) (n : Fin 300) => x16 (ix2 k n)) (fun n : Fin 300 => x17 (ix1 n))
          (fun (k : Fin 300) (n : Fin 300) => x18 (ix2 k n)) (fun n : Fin 300 => x19 (ix1 n)) r q := by
  have h := congrFun (congrFun (node_layer4 x0 x1 x2 x4 x5 x6 x7 x8 x9 x10 x11 x12 x13 x14 x15 x16 x17 x18 x19) r) q
  rw [node_layer3 x0 x1 x2 x4 x5 x6 x7 x8 x9 x10 x11 x12 x13 x14 x15 x16 x17, node_layer2 x0 x1 x2 x4 x5 x6 x7 x8 x9 x10 x11 x12 x13 x14 x15, node_layer1 x0 x1 x2 x4 x5 x6 x7 x8 x9 x10 x11 x12 x13] at h
  exact h

end Cert.ReferenceIdeal.RefValue

end
-- ==== Proof.KI.Value.lean ====
/-
  The kernel's program as a value at the extended reals: what each of its buffers holds between the five items of its
  main function, written with the reference's own stage functions.

  The first host stretch builds the edge features exactly as the reference does (the same gathers of the node
  features at the edge ends, joined with the edge attributes) and narrows the weights, which changes nothing at the
  extended reals. Region 0 leaves the perceptron of the feature rows: the reference's message array, entry by entry.
  The second stretch scatter-adds the messages by target node with the reference's own operation, so it holds the
  reference's aggregate. Region 1 leaves the second perceptron of the aggregate's rows: the reference's node array.
  The last stretch pools by graph and applies the final linear layer with the reference's own operations: the result
  buffer ends holding the reference's result, as a function of the argument arrays.
-/
import proofs.«106805_j60730837565919_1_alg».proof.Proof.KI.Run
import proofs.«106805_j60730837565919_1_alg».proof.Proof.KI.Array0
import proofs.«106805_j60730837565919_1_alg».proof.Proof.KI.Array1
import proofs.«106805_j60730837565919_1_alg».proof.Proof.RefMsg
import proofs.«106805_j60730837565919_1_alg».proof.Proof.RefNode
import Idealize.ShloMosaic.Lib.StableHlo.Run

set_option maxRecDepth 16384

noncomputable section

namespace Cert.KernelIdeal.Val

open Idealize.ShloMosaic Idealize.ShloMosaic.TcCoe Idealize.ShloMosaic.ValueIdx
open Idealize.SL Idealize.SL.Sem Idealize.ShloMosaic.StableHlo
open Cert.KernelIdeal Cert.KernelIdeal.Gen Cert.KernelIdeal.Fr
open Cert.ReferenceIdeal.Read (val_main_v3 val_main_v18 val_main_v37 val_main_v40 val_main_v59 val_main_v75)

variable (m : (ℓ : Loc nD τ sig) → Buf (Elt Ideal) ℓ) (c : Dev nD)

/-- An argument array as launched, on core c. -/
abbrev ar (r : Ref sig .tc) : Buf (Elt Ideal) ((c.tc : Thread nD τ).loc r) := m ((c.tc : Thread nD τ).loc r)

/-! ## After the first host stretch -/

/-- The feature array is the reference's. -/
theorem V1_v18 : (Gen.V1 m c main_v18 : S800000x40.Idx → EReal) = val_main_v18 (F := Ideal) (ar m c main_arg0) (ar m c main_arg1) (ar m c main_arg2) := by
  dsimp only [Gen.V1, Gen.V0, hostOps0]
  after_results
  rfl

/-- The target-node index column is the reference's. -/
theorem V1_v3 : Gen.V1 m c main_v3 = val_main_v3 (F := Ideal) (ar m c main_arg1) := by
  dsimp only [Gen.V1, Gen.V0, hostOps0]
  after_results
  rfl

/-- Each narrowed weight matrix holds the weight argument's values. -/
theorem V1_v19 (i : S40x300.Idx) : (Gen.V1 m c main_v19 : S40x300.Idx → EReal) i = (ar m c main_arg4 : S40x300.Idx → EReal) i := by
  have h : (Gen.V1 m c main_v19 : S40x300.Idx → EReal) = truncf (F := Ideal) .bf16 (ar m c main_arg4) bitsLt_bf16_f32 := by
    dsimp only [Gen.V1, Gen.V0, hostOps0]
    after_results
  rw [h]; rfl
theorem V1_v20 (i : S300x300.Idx) : (Gen.V1 m c main_v20 : S300x300.Idx → EReal) i = (ar m c main_arg6 : S300x300.Idx → EReal) i := by
  have h : (Gen.V1 m c main_v20 : S300x300.Idx → EReal) = truncf (F := Ideal) .bf16 (ar m c main_arg6) bitsLt_bf16_f32 := by
    dsimp only [Gen.V1, Gen.V0, hostOps0]
    after_results
  rw [h]; rfl
theorem V1_v21 (i : S300x300.Idx) : (Gen.V1 m c main_v21 : S300x300.Idx → EReal) i = (ar m c main_arg8 : S300x300.Idx → EReal) i := by
  have h : (Gen.V1 m c main_v21 : S300x300.Idx → EReal) = truncf (F := Ideal) .bf16 (ar m c main_arg8) bitsLt_bf16_f32 := by
    dsimp only [Gen.V1, Gen.V0, hostOps0]
    after_results
  rw [h]; rfl
theorem V1_v22 (i : S300x128.Idx) : (Gen.V1 m c main_v22 : S300x128.Idx → EReal) i = (ar m c main_arg10 : S300x128.Idx → EReal) i := by
  have h : (Gen.V1 m c main_v22 : S300x128.Idx → EReal) = truncf (F := Ideal) .bf16 (ar m c main_arg10) bitsLt_bf16_f32 := by
    dsimp only [Gen.V1, Gen.V0, hostOps0]
    after_results
  rw [h]; rfl

/-- The biases are untouched arguments. -/
theorem V1_arg5 : Gen.V1 m c main_arg5 = ar m c main_arg5 := (Gen.V1_of m c main_arg5 (by decide))
theorem V1_arg7 : Gen.V1 m c main_arg7 = ar m c main_arg7 := (Gen.V1_of m c main_arg7 (by decide))
theorem V1_arg9 : Gen.V1 m c main_arg9 = ar m c main_arg9 := (Gen.V1_of m c main_arg9 (by decide))
theorem V1_arg11 : Gen.V1 m c main_arg11 = ar m c main_arg11 := (Gen.V1_of m c main_arg11 (by decide))

/-! ## After region 0: the messages -/

/-- The perceptron of the feature rows is the reference's message array. -/
theorem msg_eq : msgArr (fun c b => Gen.V1 m c b) c = val_main_v37 (F := Ideal) (ar m c main_arg0) (ar m c main_arg1) (ar m c main_arg2) (ar m c main_arg4) (ar m c main_arg5) (ar m c main_arg6) (ar m c main_arg7) (ar m c main_arg8) (ar m c main_arg9) (ar m c main_arg10) (ar m c main_arg11) := by
  funext i
  obtain ⟨r, q, rfl⟩ : ∃ (r : Fin 800000) (q : Fin 128), i = ix2 r q := ⟨i 0, i 1, eq_ix2 i⟩
  rw [Cert.ReferenceIdeal.RefValue.msg_apply]
  dsimp only [msgArr]
  rw [V1_v18 m c, V1_arg5 m c, V1_arg7 m c, V1_arg9 m c, V1_arg11 m c]
  simp only [V1_v19 m c, V1_v20 m c, V1_v21 m c, V1_v22 m c]

theorem outs2_val : outs m 2 main_v23 c = val_main_v37 (F := Ideal) (ar m c main_arg0) (ar m c main_arg1) (ar m c main_arg2) (ar m c main_arg4) (ar m c main_arg5) (ar m c main_arg6) (ar m c main_arg7) (ar m c main_arg8) (ar m c main_arg9) (ar m c main_arg10) (ar m c main_arg11) := by
  rw [outs2_eq, final0]
  exact msg_eq m c

/-! ## After the second host stretch: the aggregate, and region 1's weights -/

theorem V3_v26 : Gen.V3 m (outs m) c main_v26 = val_main_v40 (F := Ideal) (ar m c main_arg0) (ar m c main_arg1) (ar m c main_arg2) (ar m c main_arg4) (ar m c main_arg5) (ar m c main_arg6) (ar m c main_arg7) (ar m c main_arg8) (ar m c main_arg9) (ar m c main_arg10) (ar m c main_arg11) := by
  have h23 : Gen.V2 m (outs m) c main_v23 = val_main_v37 (F := Ideal) (ar m c main_arg0) (ar m c main_arg1) (ar m c main_arg2) (ar m c main_arg4) (ar m c main_arg5) (ar m c main_arg6) (ar m c main_arg7) (ar m c main_arg8) (ar m c main_arg9) (ar m c main_arg10) (ar m c main_arg11) :=
    (Function.update_self _ _ _).trans (outs2_val m c)
  have h3 : Gen.V2 m (outs m) c main_v3 = val_main_v3 (F := Ideal) (ar m c main_arg1) :=
    (Gen.V2_of m (outs m) c main_v3 (by decide)).trans (V1_v3 m c)
  show StableHlo.after (hostOps1 (F := Ideal)) (Gen.V2 m (outs m) c) main_v26 = _
  generalize Gen.V2 m (outs m) c = W at h23 h3 ⊢
  dsimp only [hostOps1]
  after_results
  rw [h23, h3]
  rfl

/-- Each narrowed weight matrix of region 1 holds the weight argument's values. -/
theorem V3_v27 (i : S128x300.Idx) : (Gen.V3 m (outs m) c main_v27 : S128x300.Idx → EReal) i = (ar m c main_arg12 : S128x300.Idx → EReal) i := by
  have h : (Gen.V3 m (outs m) c main_v27 : S128x300.Idx → EReal) = truncf (F := Ideal) .bf16 (Gen.V2 m (outs m) c main_arg12) bitsLt_bf16_f32 := by
    show StableHlo.after (hostOps1 (F := Ideal)) (Gen.V2 m (outs m) c) main_v27 = _
    generalize Gen.V2 m (outs m) c = W
    dsimp only [hostOps1]
    after_results
  rw [h, (Gen.V2_of m (outs m) c main_arg12 (by decide)).trans (Gen.V1_of m c main_arg12 (by decide))]; rfl
theorem V3_v28 (i : S300x300.Idx) : (Gen.V3 m (outs m) c main_v28 : S300x300.Idx → EReal) i = (ar m c main_arg14 : S300x300.Idx → EReal) i := by
  have h : (Gen.V3 m (outs m) c main_v28 : S300x300.Idx → EReal) = truncf (F := Ideal) .bf16 (Gen.V2 m (outs m) c main_arg14) bitsLt_bf16_f32 := by
    show StableHlo.after (hostOps1 (F := Ideal)) (Gen.V2 m (outs m) c) main_v28 = _
    generalize Gen.V2 m (outs m) c = W
    dsimp only [hostOps1]
    after_results
  rw [h, (Gen.V2_of m (outs m) c main_arg14 (by decide)).trans (Gen.V1_of m c main_arg14 (by decide))]; rfl
theorem V3_v29 (i : S300x300.Idx) : (Gen.V3 m (outs m) c main_v29 : S300x300.Idx → EReal) i = (ar m c main_arg16 : S300x300.Idx → EReal) i := by
  have h : (Gen.V3 m (outs m) c main_v29 : S300x300.Idx → EReal) = truncf (F := Ideal) .bf16 (Gen.V2 m (outs m) c main_arg16) bitsLt_bf16_f32 := by
    show StableHlo.after (hostOps1 (F := Ideal)) (Gen.V2 m (outs m) c) main_v29 = _
    generalize Gen.V2 m (outs m) c = W
    dsimp only [hostOps1]
    after_results
  rw [h, (Gen.V2_of m (outs m) c main_arg16 (by decide)).trans (Gen.V1_of m c main_arg16 (by decide))]; rfl
theorem V3_v30 (i : S300x300.Idx) : (Gen.V3 m (outs m) c main_v30 : S300x300.Idx → EReal) i = (ar m c main_arg18 : S300x300.Idx → EReal) i := by
  have h : (Gen.V3 m (outs m) c main_v30 : S300x300.Idx → EReal) = truncf (F := Ideal) .bf16 (Gen.V2 m (outs m) c main_arg18) bitsLt_bf16_f32 := by
    show StableHlo.after (hostOps1 (F := Ideal)) (Gen.V2 m (outs m) c) main_v30 = _
    generalize Gen.V2 m (outs m) c = W
    dsimp only [hostOps1]
    after_results
  rw [h, (Gen.V2_of m (outs m) c main_arg18 (by decide)).trans (Gen.V1_of m c main_arg18 (by decide))]; rfl

/-- Its biases are untouched arguments. -/
theorem V3_arg13 : Gen.V3 m (outs m) c main_arg13 = ar m c main_arg13 := ((Gen.V3_of m (outs m) c main_arg13 (by decide)).trans ((Gen.V2_of m (outs m) c main_arg13 (by decide)).trans (Gen.V1_of m c main_arg13 (by decide))))
theorem V3_arg15 : Gen.V3 m (outs m) c main_arg15 = ar m c main_arg15 := ((Gen.V3_of m (outs m) c main_arg15 (by decide)).trans ((Gen.V2_of m (outs m) c main_arg15 (by decide)).trans (Gen.V1_of m c main_arg15 (by decide))))
theorem V3_arg17 : Gen.V3 m (outs m) c main_arg17 = ar m c main_arg17 := ((Gen.V3_of m (outs m) c main_arg17 (by decide)).trans ((Gen.V2_of m (outs m) c main_arg17 (by decide)).trans (Gen.V1_of m c main_arg17 (by decide))))
theorem V3_arg19 : Gen.V3 m (outs m) c main_arg19 = ar m c main_arg19 := ((Gen.V3_of m (outs m) c main_arg19 (by decide)).trans ((Gen.V2_of m (outs m) c main_arg19 (by decide)).trans (Gen.V1_of m c main_arg19 (by decide))))

/-! ## After region 1: the node states -/

/-- The perceptron of the aggregate's rows is the reference's node array. -/
theorem node_eq : nodeArr (fun c b => Gen.V3 m (outs m) c b) c = val_main_v59 (F := Ideal) (ar m c main_arg0) (ar m c main_arg1) (ar m c main_arg2) (ar m c main_arg4) (ar m c main_arg5) (ar m c main_arg6) (ar m c main_arg7) (ar m c main_arg8) (ar m c main_arg9) (ar m c main_arg10) (ar m c main_arg11) (ar m c main_arg12) (ar m c main_arg13) (ar m c main_arg14) (ar m c main_arg15) (ar m c main_arg16) (ar m c main_arg17) (ar m c main_arg18) (ar m c main_arg19) := by
  funext i
  obtain ⟨r, q, rfl⟩ : ∃ (r : Fin 50000) (q : Fin 300), i = ix2 r q := ⟨i 0, i 1, eq_ix2 i⟩
  rw [Cert.ReferenceIdeal.RefValue.node_apply]
  dsimp only [nodeArr]
  rw [V3_v26 m c, V3_arg13 m c, V3_arg15 m c, V3_arg17 m c, V3_arg19 m c]
  simp only [V3_v27 m c, V3_v28 m c, V3_v29 m c, V3_v30 m c]

theorem outs4_val : outs m 4 main_v31 c = val_main_v59 (F := Ideal) (ar m c main_arg0) (ar m c main_arg1) (ar m c main_arg2) (ar m c main_arg4) (ar m c main_arg5) (ar m c main_arg6) (ar m c main_arg7) (ar m c main_arg8) (ar m c main_arg9) (ar m c main_arg10) (ar m c main_arg11) (ar m c main_arg12) (ar m c main_arg13) (ar m c main_arg14) (ar m c main_arg15) (ar m c main_arg16) (ar m c main_arg17) (ar m c main_arg18) (ar m c main_arg19) := by
  rw [outs4_eq, final1]
  exact node_eq m c

end Cert.KernelIdeal.Val

end
-- ==== Proof.KI.Result.lean ====
/-
  The last host stretch of the kernel's program and its run, at the extended reals: the result buffer ends holding the
  reference's result of the argument arrays.

  The stretch sums the node states by graph, counts the nodes of each graph by the same scatter-add of ones, divides
  the sums by the counts clamped below at one, multiplies by the last weight matrix and adds the last bias: the
  reference's own operations in the reference's order, applied to the node array that region 1 left, which is the
  reference's node array.
-/
import proofs.«106805_j60730837565919_1_alg».proof.Proof.KI.Value

set_option maxRecDepth 16384

noncomputable section

namespace Cert.KernelIdeal.Val

open Idealize.ShloMosaic Idealize.ShloMosaic.TcCoe Idealize.ShloMosaic.ValueIdx
open Idealize.SL Idealize.SL.Sem Idealize.ShloMosaic.StableHlo
open Cert.KernelIdeal Cert.KernelIdeal.Gen Cert.KernelIdeal.Fr
open Cert.ReferenceIdeal.Read (val_main_v3 val_main_v18 val_main_v37 val_main_v40 val_main_v59 val_main_v75)

variable (m : (ℓ : Loc nD τ sig) → Buf (Elt Ideal) ℓ) (c : Dev nD)

/-- The last stretch over any buffer contents that hold the reference's node array and the launched arguments. -/
theorem after2_v47 (W : Valuation τ sig (Elt Ideal))
    (h31 : W main_v31 = val_main_v59 (F := Ideal) (ar m c main_arg0) (ar m c main_arg1) (ar m c main_arg2) (ar m c main_arg4) (ar m c main_arg5) (ar m c main_arg6) (ar m c main_arg7) (ar m c main_arg8) (ar m c main_arg9) (ar m c main_arg10) (ar m c main_arg11) (ar m c main_arg12) (ar m c main_arg13) (ar m c main_arg14) (ar m c main_arg15) (ar m c main_arg16) (ar m c main_arg17) (ar m c main_arg18) (ar m c main_arg19))
    (h3 : W main_arg3 = ar m c main_arg3) (h20 : W main_arg20 = ar m c main_arg20) (h21 : W main_arg21 = ar m c main_arg21) :
    StableHlo.after (hostOps2 (F := Ideal)) W main_v47 = val_main_v75 (F := Ideal) (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11) (ar m c main_arg12) (ar m c main_arg13) (ar m c main_arg14) (ar m c main_arg15) (ar m c main_arg16) (ar m c main_arg17) (ar m c main_arg18) (ar m c main_arg19) (ar m c main_arg20) (ar m c main_arg21) := by
  dsimp only [hostOps2]
  after_results_simp
  rw [h31, h3, h20, h21]
  rfl

/-- The result buffer after the last stretch is the reference's result of the argument arrays. -/
theorem V5_v47 : Gen.V5 m (outs m) c main_v47 = val_main_v75 (F := Ideal) (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11) (ar m c main_arg12) (ar m c main_arg13) (ar m c main_arg14) (ar m c main_arg15) (ar m c main_arg16) (ar m c main_arg17) (ar m c main_arg18) (ar m c main_arg19) (ar m c main_arg20) (ar m c main_arg21) :=
  after2_v47 m c (Gen.V4 m (outs m) c) ((Function.update_self _ _ _).trans (outs4_val m c))
    ((Gen.V4_of m (outs m) c main_arg3 (by decide)).trans ((Gen.V3_of m (outs m) c main_arg3 (by decide)).trans ((Gen.V2_of m (outs m) c main_arg3 (by decide)).trans (Gen.V1_of m c main_arg3 (by decide)))))
    ((Gen.V4_of m (outs m) c main_arg20 (by decide)).trans ((Gen.V3_of m (outs m) c main_arg20 (by decide)).trans ((Gen.V2_of m (outs m) c main_arg20 (by decide)).trans (Gen.V1_of m c main_arg20 (by decide)))))
    ((Gen.V4_of m (outs m) c main_arg21 (by decide)).trans ((Gen.V3_of m (outs m) c main_arg21 (by decide)).trans ((Gen.V2_of m (outs m) c main_arg21 (by decide)).trans (Gen.V1_of m c main_arg21 (by decide)))))

/-! ## The run -/

/-- Every weakly fair execution of the kernel's program ends with the result buffer at the reference's result of the
    argument arrays, and the arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v47) = val_main_v75 (F := Ideal) (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11) (ar m c main_arg12) (ar m c main_arg13) (ar m c main_arg14) (ar m c main_arg15) (ar m c main_arg16) (ar m c main_arg17) (ar m c main_arg18) (ar m c main_arg19) (ar m c main_arg20) (ar m c main_arg21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨(h c _ (mem_uc main_v47 (by decide))).trans (V5_v47 m c),
      (h c _ (mem_uc main_arg0 (by decide))).trans (Gen.V5_main_arg0 m (outs m) c),
      (h c _ (mem_uc main_arg1 (by decide))).trans (Gen.V5_main_arg1 m (outs m) c),
      (h c _ (mem_uc main_arg2 (by decide))).trans (Gen.V5_main_arg2 m (outs m) c),
      (h c _ (mem_uc main_arg3 (by decide))).trans (Gen.V5_main_arg3 m (outs m) c),
      (h c _ (mem_uc main_arg4 (by decide))).trans (Gen.V5_main_arg4 m (outs m) c),
      (h c _ (mem_uc main_arg5 (by decide))).trans (Gen.V5_main_arg5 m (outs m) c),
      (h c _ (mem_uc main_arg6 (by decide))).trans (Gen.V5_main_arg6 m (outs m) c),
      (h c _ (mem_uc main_arg7 (by decide))).trans (Gen.V5_main_arg7 m (outs m) c),
      (h c _ (mem_uc main_arg8 (by decide))).trans (Gen.V5_main_arg8 m (outs m) c),
      (h c _ (mem_uc main_arg9 (by decide))).trans (Gen.V5_main_arg9 m (outs m) c),
      (h c _ (mem_uc main_arg10 (by decide))).trans (Gen.V5_main_arg10 m (outs m) c),
      (h c _ (mem_uc main_arg11 (by decide))).trans (Gen.V5_main_arg11 m (outs m) c),
      (h c _ (mem_uc main_arg12 (by decide))).trans (Gen.V5_main_arg12 m (outs m) c),
      (h c _ (mem_uc main_arg13 (by decide))).trans (Gen.V5_main_arg13 m (outs m) c),
      (h c _ (mem_uc main_arg14 (by decide))).trans (Gen.V5_main_arg14 m (outs m) c),
      (h c _ (mem_uc main_arg15 (by decide))).trans (Gen.V5_main_arg15 m (outs m) c),
      (h c _ (mem_uc main_arg16 (by decide))).trans (Gen.V5_main_arg16 m (outs m) c),
      (h c _ (mem_uc main_arg17 (by decide))).trans (Gen.V5_main_arg17 m (outs m) c),
      (h c _ (mem_uc main_arg18 (by decide))).trans (Gen.V5_main_arg18 m (outs m) c),
      (h c _ (mem_uc main_arg19 (by decide))).trans (Gen.V5_main_arg19 m (outs m) c),
      (h c _ (mem_uc main_arg20 (by decide))).trans (Gen.V5_main_arg20 m (outs m) c),
      (h c _ (mem_uc main_arg21 (by decide))).trans (Gen.V5_main_arg21 m (outs m) c)⟩) (run_all (F := Ideal) m ρ)

end Cert.KernelIdeal.Val

end
-- ==== Proof.RefValue.lean ====
/-
  The reference's result at the extended reals, as a function of the argument arrays: the two perceptron stages read at
  an entry. `msg_apply` (the message array is the four-layer perceptron of the edge features) and `node_apply` (the node
  array is the four-layer perceptron of the summed messages) are in the two imported modules, in this namespace.
-/
import proofs.«106805_j60730837565919_1_alg».proof.Proof.Gen.ReferenceIdeal.Run
import proofs.«106805_j60730837565919_1_alg».proof.Proof.Gen.ReferenceIdeal.Read
import proofs.«106805_j60730837565919_1_alg».proof.Proof.Spec
import proofs.«106805_j60730837565919_1_alg».proof.Proof.RefMsg
import proofs.«106805_j60730837565919_1_alg».proof.Proof.RefNode

noncomputable section

namespace Cert.ReferenceIdeal.RefValue

end Cert.ReferenceIdeal.RefValue

end
-- ==== Proof.lean ====
/-
  The kernel's program computes, from a graph with 50000 nodes and 800000 edges, one message per edge (a four-layer
  perceptron of the two end nodes' features joined with the edge's attributes), the sum of the messages arriving at each
  node, a second four-layer perceptron of that sum per node, the mean of the results over each of 64 graphs, and a last
  linear layer. The two perceptrons run as tiled regions, 2000 rows at a tile; everything else is host operations.
  The reference computes the same stages with whole-array matrix products.

  At the extended reals the two agree stage by stage with NO algebra beyond reading each side at an entry: a tile's
  matrix product into a zero accumulator and the host's product are the same sum over the contracted axis, narrowing
  a tile or a weight matrix to a shorter float format changes nothing, the bias row added to every row of a tile is
  the host's broadcast bias, and the rectifier is a maximum with zero on both sides. The perceptron acts on each row
  alone, so the tiles' results are the rows of the whole array's result. The gathers, the two scatter-adds, the
  division by the clamped node counts and the last product are the same operations on both sides, applied to equal
  arrays. No law that needs finite values is used, so the precondition is never opened.

  Proof/Spec.lean states the perceptron on the extended reals; Proof/KI/Region0, Region1 run each region's body at a
  grid point and give the region's proof data; Proof/KI/Run.lean runs the whole main function and reads every buffer
  at the end; Proof/KI/Tile0, Tile1 read a tile body at an entry; Proof/KI/Array0, Array1 read each region's output
  array whole; Proof/RefMsg, RefNode read the reference's two perceptrons at an entry; Proof/KI/Value.lean and Result.lean
  identify the kernel's buffers with the reference's stages. Proof/K/ holds the frame of the program as printed for the
  word-level instance: the same text, in that program's namespace.
-/
import proofs.«106805_j60730837565919_1_alg».proof.Defs
import proofs.«106805_j60730837565919_1_alg».proof.Proof.K.Run
import proofs.«106805_j60730837565919_1_alg».proof.Proof.KI.Run
import proofs.«106805_j60730837565919_1_alg».proof.Proof.KI.Result
import proofs.«106805_j60730837565919_1_alg».proof.Proof.RefValue
import proofs.«106805_j60730837565919_1_alg».proof.Proof.Gen.Kernel
import proofs.«106805_j60730837565919_1_alg».proof.Proof.Gen.KernelIdeal
import proofs.«106805_j60730837565919_1_alg».proof.Proof.Gen.ReferenceIdeal
import proofs.«106805_j60730837565919_1_alg».proof.Proof.Gen.ReferenceIdeal.Run
import proofs.«106805_j60730837565919_1_alg».proof.Proof.Gen.ReferenceIdeal.Read
import proofs.«106805_j60730837565919_1_alg».proof.Proof.Gen.Pre_finite_inputs
import Idealize.ShloMosaic.Adequacy
import Idealize.ShloMosaic.Init

noncomputable section

namespace Cert.Proof

open Idealize.ShloMosaic Idealize.SL.Sem

/-- The program as printed runs to the end and leaves its arguments as launched. -/
theorem frame_k : Cert.frame_Kernel := fun m ρ _ => Cert.Kernel.Fr.frame (F := Bits) m ρ

/-- So does its reading at the extended reals. -/
theorem frame_ki : Cert.frame_KernelIdeal := fun m ρ _ => Cert.KernelIdeal.Fr.frame (F := Ideal) m ρ

/-- The reference is a host program: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result buffer at the reference's result of the argument arrays, which agree. -/
theorem algebraic : Cert.algebraic_KernelIdeal_ReferenceIdeal := by
  intro m ρ m' ρ' _ hagree
  refine ⟨fun c => Cert.ReferenceIdeal.Read.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)),
    Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v75_eq m' c).trans ?_
  obtain ⟨e0, e1, e2, e3, e4, e5, e6, e7, e8, e9, e10, e11, e12, e13, e14, e15, e16, e17, e18, e19, e20, e21⟩ := hagree c
  simp only [e0, e1, e2, e3, e4, e5, e6, e7, e8, e9, e10, e11, e12, e13, e14, e15, e16, e17, e18, e19, e20, e21]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
